-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v161) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x4096 : Shape := ⟨3, ![4, 1024, 4096]⟩
abbrev S16x64x1024 : Shape := ⟨3, ![16, 64, 1024]⟩
abbrev S16x64 : Shape := ⟨2, ![16, 64]⟩
abbrev S_ : Shape := ⟨0, ![]⟩

class Facts : Prop where
  bcast_S_S4x1024x4096 : S_.BroadcastsInDim S4x1024x4096 (![] : Fin 0 → Fin S4x1024x4096.rank)
  reducesTo_S4x1024x4096_S_d0_1_2 : S4x1024x4096.ReducesTo [0, 1, 2] S_
  h_S_ : 0 < S_.numel
  bcast_S_S16x64x1024 : S_.BroadcastsInDim S16x64x1024 (![] : Fin 0 → Fin S16x64x1024.rank)
  reducesTo_S16x64x1024_S_d0_1_2 : S16x64x1024.ReducesTo [0, 1, 2] S_
  bcast_S_S16x64 : S_.BroadcastsInDim S16x64 (![] : Fin 0 → Fin S16x64.rank)
  reducesTo_S16x64_S_d0_1 : S16x64.ReducesTo [0, 1] S_

variable [Facts]

def fn {F : FTy → Type} [FloatOps F] (main_arg0 : FVec F S4x1024x4096 .f32) (main_arg1 : FVec F S16x64x1024 .f32) (main_arg2 : FVec F S16x64 .f32) : IVec S_ 1 :=
  let main_v0 : FVec F S4x1024x4096 .f32 := Host.absf main_arg0
  let main_cst : FVec F S_ .f32 := constant S_ .f32 0x7F800000#32
  let main_v1 : FVec F S4x1024x4096 .f32 := broadcastInDim S4x1024x4096 ![] bcast_S_S4x1024x4096 main_cst
  let main_v2 : IVec S4x1024x4096 1 := cmpf .olt main_v0 main_v1
  let main_c : IVec S_ 1 := constantI S_ 1 1#1
  let main_v3 : IVec S_ 1 := (fun x v => Host.reduce IntOp.andi x v reducesTo_S4x1024x4096_S_d0_1_2 h_S_) main_v2 main_c
  let main_v4 : FVec F S16x64x1024 .f32 := Host.absf main_arg1
  let main_cst_0 : FVec F S_ .f32 := constant S_ .f32 0x7F800000#32
  let main_v5 : FVec F S16x64x1024 .f32 := broadcastInDim S16x64x1024 ![] bcast_S_S16x64x1024 main_cst_0
  let main_v6 : IVec S16x64x1024 1 := cmpf .olt main_v4 main_v5
  let main_c_1 : IVec S_ 1 := constantI S_ 1 1#1
  let main_v7 : IVec S_ 1 := (fun x v => Host.reduce IntOp.andi x v reducesTo_S16x64x1024_S_d0_1_2 h_S_) main_v6 main_c_1
  let main_v8 : IVec S_ 1 := andi main_v3 main_v7
  let main_v9 : FVec F S16x64 .f32 := Host.absf main_arg2
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  main_v13
-- ==== Kernel.lean ====
abbrev S4x1024x4096 : Shape := ⟨3, ![4, 1024, 4096]⟩
abbrev S16x64x1024 : Shape := ⟨3, ![16, 64, 1024]⟩
abbrev S16x64 : Shape := ⟨2, ![16, 64]⟩
abbrev S4x4096x1024 : Shape := ⟨3, ![4, 4096, 1024]⟩
abbrev S16x1024x64 : Shape := ⟨3, ![16, 1024, 64]⟩
abbrev S16x1x64 : Shape := ⟨3, ![16, 1, 64]⟩
abbrev S4096 : Shape := ⟨1, ![4096]⟩
abbrev S_ : Shape := ⟨0, ![]⟩
abbrev S64 : Shape := ⟨1, ![64]⟩
abbrev S1x4096 : Shape := ⟨2, ![1, 4096]⟩
abbrev S64x1 : Shape := ⟨2, ![64, 1]⟩
abbrev S64x4096 : Shape := ⟨2, ![64, 4096]⟩
abbrev S4x16x4096x64 : Shape := ⟨4, ![4, 16, 4096, 64]⟩
abbrev S4x16x64x64 : Shape := ⟨4, ![4, 16, 64, 64]⟩
abbrev S1x4096x1024 : Shape := ⟨3, ![1, 4096, 1024]⟩
abbrev S1x1024x64 : Shape := ⟨3, ![1, 1024, 64]⟩
abbrev S1x1x64 : Shape := ⟨3, ![1, 1, 64]⟩
abbrev S1x1x4096x64 : Shape := ⟨4, ![1, 1, 4096, 64]⟩
abbrev S1x1x64x64 : Shape := ⟨4, ![1, 1, 64, 64]⟩
abbrev S4096x1024 : Shape := ⟨2, ![4096, 1024]⟩
abbrev S1024x64 : Shape := ⟨2, ![1024, 64]⟩
abbrev S4096x64 : Shape := ⟨2, ![4096, 64]⟩
abbrev S1x64 : Shape := ⟨2, ![1, 64]⟩
abbrev S64x64 : Shape := ⟨2, ![64, 64]⟩
abbrev S4x16x64 : Shape := ⟨3, ![4, 16, 64]⟩
abbrev S4096x1 : Shape := ⟨2, ![4096, 1]⟩

abbrev nBuf : Space → Nat
  | .hbm => 215
  | .vmem => 21
  | .smem => 0
  | _ => 0

abbrev hbmTy0_0 (i : Nat) : BufTy := match i % 128 with
  | 0 => ⟨S4x1024x4096, .f32⟩
  | 1 => ⟨S16x64x1024, .f32⟩
  | 2 => ⟨S16x64, .f32⟩
  | 3 => ⟨S4x4096x1024, .f32⟩
  | 4 => ⟨S4x4096x1024, .bf16⟩
  | 5 => ⟨S16x1024x64, .f32⟩
  | 6 => ⟨S16x1024x64, .bf16⟩
  | 7 => ⟨S16x1x64, .f32⟩
  | 8 => ⟨S4096, .i32⟩
  | 9 => ⟨S_, .i32⟩
  | 10 => ⟨S_, .i32⟩
  | 11 => ⟨S4096, .i32⟩
  | 12 => ⟨S4096, .i32⟩
  | 13 => ⟨S4096, .i32⟩
  | 14 => ⟨S_, .i32⟩
  | 15 => ⟨S4096, .i32⟩
  | 16 => ⟨S4096, .i1⟩
  | 17 => ⟨S4096, .i32⟩
  | 18 => ⟨S4096, .i32⟩
  | 19 => ⟨S_, .i32⟩
  | 20 => ⟨S4096, .i32⟩
  | 21 => ⟨S4096, .i1⟩
  | 22 => ⟨S4096, .i1⟩
  | 23 => ⟨S_, .i32⟩
  | 24 => ⟨S4096, .i32⟩
  | 25 => ⟨S4096, .i32⟩
  | 26 => ⟨S4096, .i32⟩
  | 27 => ⟨S64, .i32⟩
  | 28 => ⟨S1x4096, .i32⟩
  | 29 => ⟨S64x1, .i32⟩
  | 30 => ⟨S64x4096, .i32⟩
  | 31 => ⟨S64x4096, .i32⟩
  | 32 => ⟨S64x4096, .i1⟩
  | 33 => ⟨S64x4096, .f32⟩
  | 34 => ⟨S_, .f32⟩
  | 35 => ⟨S64x4096, .f32⟩
  | 36 => ⟨S64x4096, .f32⟩
  | 37 => ⟨S64x4096, .bf16⟩
  | 38 => ⟨S4x16x4096x64, .f32⟩
  | 39 => ⟨S4x16x64x64, .f32⟩
  | 40 => ⟨S4x16x64x64, .f32⟩
  | 41 => ⟨S64x64, .i32⟩
  | 42 => ⟨S64x64, .i32⟩
  | 43 => ⟨S_, .i32⟩
  | 44 => ⟨S64x64, .i32⟩
  | 45 => ⟨S64x64, .i32⟩
  | 46 => ⟨S64x64, .i1⟩
  | 47 => ⟨S64x64, .f32⟩
  | 48 => ⟨S4x16x64x64, .f32⟩
  | 49 => ⟨S_, .f32⟩
  | 50 => ⟨S4x16x64, .f32⟩
  | 51 => ⟨S_, .f32⟩
  | 52 => ⟨S_, .f32⟩
  | 53 => ⟨S4x16x64x64, .f32⟩
  | 54 => ⟨S_, .f32⟩
  | 55 => ⟨S4x16x64, .f32⟩
  | 56 => ⟨S_, .f32⟩
  | 57 => ⟨S_, .f32⟩
  | 58 => ⟨S_, .f32⟩
  | 59 => ⟨S_, .f32⟩
  | 60 => ⟨S_, .f32⟩
  | 61 => ⟨S4x16x64x64, .f32⟩
  | 62 => ⟨S4x16x64x64, .f32⟩
  | 63 => ⟨S4x16x64x64, .f32⟩
  | 64 => ⟨S4x16x64x64, .f32⟩
  | 65 => ⟨S_, .f32⟩
  | 66 => ⟨S4x16x64x64, .f32⟩
  | 67 => ⟨S4x16x64x64, .f32⟩
  | 68 => ⟨S_, .f32⟩
  | 69 => ⟨S64x64, .f32⟩
  | 70 => ⟨S64x64, .f32⟩
  | 71 => ⟨S_, .f32⟩
  | 72 => ⟨S64x64, .f32⟩
  | 73 => ⟨S64x64, .f32⟩
  | 74 => ⟨S_, .f32⟩
  | 75 => ⟨S64x64, .f32⟩
  | 76 => ⟨S64x64, .f32⟩
  | 77 => ⟨S1x1x64x64, .f32⟩
  | 78 => ⟨S4x16x64x64, .f32⟩
  | 79 => ⟨S4x16x64x64, .f32⟩
  | 80 => ⟨S4x16x64x64, .f32⟩
  | 81 => ⟨S1x1x64x64, .f32⟩
  | 82 => ⟨S4x16x64x64, .f32⟩
  | 83 => ⟨S4x16x64x64, .f32⟩
  | 84 => ⟨S4x16x64x64, .f32⟩
  | 85 => ⟨S1x1x64x64, .f32⟩
  | 86 => ⟨S4x16x64x64, .f32⟩
  | 87 => ⟨S4x16x64x64, .f32⟩
  | 88 => ⟨S4x16x64x64, .f32⟩
  | 89 => ⟨S4x16x64x64, .f32⟩
  | 90 => ⟨S_, .f32⟩
  | 91 => ⟨S4x16x64x64, .f32⟩
  | 92 => ⟨S4x16x64x64, .f32⟩
  | 93 => ⟨S_, .f32⟩
  | 94 => ⟨S64x64, .f32⟩
  | 95 => ⟨S64x64, .f32⟩
  | 96 => ⟨S_, .f32⟩
  | 97 => ⟨S64x64, .f32⟩
  | 98 => ⟨S64x64, .f32⟩
  | 99 => ⟨S_, .f32⟩
  | 100 => ⟨S64x64, .f32⟩
  | 101 => ⟨S64x64, .f32⟩
  | 102 => ⟨S1x1x64x64, .f32⟩
  | 103 => ⟨S4x16x64x64, .f32⟩
  | 104 => ⟨S4x16x64x64, .f32⟩
  | 105 => ⟨S4x16x64x64, .f32⟩
  | 106 => ⟨S1x1x64x64, .f32⟩
  | 107 => ⟨S4x16x64x64, .f32⟩
  | 108 => ⟨S4x16x64x64, .f32⟩
  | 109 => ⟨S4x16x64x64, .f32⟩
  | 110 => ⟨S1x1x64x64, .f32⟩
  | 111 => ⟨S4x16x64x64, .f32⟩
  | 112 => ⟨S4x16x64x64, .f32⟩
  | 113 => ⟨S4x16x64x64, .f32⟩
  | 114 => ⟨S4x16x64x64, .f32⟩
  | 115 => ⟨S_, .f32⟩
  | 116 => ⟨S4x16x64x64, .f32⟩
  | 117 => ⟨S4x16x64x64, .f32⟩
  | 118 => ⟨S_, .f32⟩
  | 119 => ⟨S64x64, .f32⟩
  | 120 => ⟨S64x64, .f32⟩
  | 121 => ⟨S_, .f32⟩
  | 122 => ⟨S64x64, .f32⟩
  | 123 => ⟨S64x64, .f32⟩
  | 124 => ⟨S_, .f32⟩
  | 125 => ⟨S64x64, .f32⟩
  | 126 => ⟨S64x64, .f32⟩
  | 127 => ⟨S1x1x64x64, .f32⟩
  | _ => ⟨S4x1024x4096, .f32⟩

abbrev hbmTy0_1 (i : Nat) : BufTy := match i % 128 with
  | 0 => ⟨S4x16x64x64, .f32⟩
  | 1 => ⟨S4x16x64x64, .f32⟩
  | 2 => ⟨S4x16x64x64, .f32⟩
  | 3 => ⟨S1x1x64x64, .f32⟩
  | 4 => ⟨S4x16x64x64, .f32⟩
  | 5 => ⟨S4x16x64x64, .f32⟩
  | 6 => ⟨S4x16x64x64, .f32⟩
  | 7 => ⟨S1x1x64x64, .f32⟩
  | 8 => ⟨S4x16x64x64, .f32⟩
  | 9 => ⟨S4x16x64x64, .f32⟩
  | 10 => ⟨S4x16x64x64, .f32⟩
  | 11 => ⟨S4x16x64x64, .f32⟩
  | 12 => ⟨S_, .f32⟩
  | 13 => ⟨S4x16x64x64, .f32⟩
  | 14 => ⟨S4x16x64x64, .f32⟩
  | 15 => ⟨S_, .f32⟩
  | 16 => ⟨S64x64, .f32⟩
  | 17 => ⟨S64x64, .f32⟩
  | 18 => ⟨S_, .f32⟩
  | 19 => ⟨S64x64, .f32⟩
  | 20 => ⟨S64x64, .f32⟩
  | 21 => ⟨S_, .f32⟩
  | 22 => ⟨S64x64, .f32⟩
  | 23 => ⟨S64x64, .f32⟩
  | 24 => ⟨S1x1x64x64, .f32⟩
  | 25 => ⟨S4x16x64x64, .f32⟩
  | 26 => ⟨S4x16x64x64, .f32⟩
  | 27 => ⟨S4x16x64x64, .f32⟩
  | 28 => ⟨S1x1x64x64, .f32⟩
  | 29 => ⟨S4x16x64x64, .f32⟩
  | 30 => ⟨S4x16x64x64, .f32⟩
  | 31 => ⟨S4x16x64x64, .f32⟩
  | 32 => ⟨S1x1x64x64, .f32⟩
  | 33 => ⟨S4x16x64x64, .f32⟩
  | 34 => ⟨S4x16x64x64, .f32⟩
  | 35 => ⟨S4x16x64x64, .f32⟩
  | 36 => ⟨S4x16x64x64, .f32⟩
  | 37 => ⟨S_, .f32⟩
  | 38 => ⟨S4x16x64x64, .f32⟩
  | 39 => ⟨S4x16x64x64, .f32⟩
  | 40 => ⟨S_, .f32⟩
  | 41 => ⟨S64x64, .f32⟩
  | 42 => ⟨S64x64, .f32⟩
  | 43 => ⟨S_, .f32⟩
  | 44 => ⟨S64x64, .f32⟩
  | 45 => ⟨S64x64, .f32⟩
  | 46 => ⟨S_, .f32⟩
  | 47 => ⟨S64x64, .f32⟩
  | 48 => ⟨S64x64, .f32⟩
  | 49 => ⟨S1x1x64x64, .f32⟩
  | 50 => ⟨S4x16x64x64, .f32⟩
  | 51 => ⟨S4x16x64x64, .f32⟩
  | 52 => ⟨S4x16x64x64, .f32⟩
  | 53 => ⟨S1x1x64x64, .f32⟩
  | 54 => ⟨S4x16x64x64, .f32⟩
  | 55 => ⟨S4x16x64x64, .f32⟩
  | 56 => ⟨S4x16x64x64, .f32⟩
  | 57 => ⟨S1x1x64x64, .f32⟩
  | 58 => ⟨S4x16x64x64, .f32⟩
  | 59 => ⟨S4x16x64x64, .f32⟩
  | 60 => ⟨S4x16x64x64, .f32⟩
  | 61 => ⟨S4x16x64x64, .f32⟩
  | 62 => ⟨S_, .f32⟩
  | 63 => ⟨S4x16x64x64, .f32⟩
  | 64 => ⟨S4x16x64x64, .f32⟩
  | 65 => ⟨S_, .f32⟩
  | 66 => ⟨S64x64, .f32⟩
  | 67 => ⟨S64x64, .f32⟩
  | 68 => ⟨S_, .f32⟩
  | 69 => ⟨S64x64, .f32⟩
  | 70 => ⟨S64x64, .f32⟩
  | 71 => ⟨S_, .f32⟩
  | 72 => ⟨S64x64, .f32⟩
  | 73 => ⟨S64x64, .f32⟩
  | 74 => ⟨S1x1x64x64, .f32⟩
  | 75 => ⟨S4x16x64x64, .f32⟩
  | 76 => ⟨S4x16x64x64, .f32⟩
  | 77 => ⟨S4x16x64x64, .f32⟩
  | 78 => ⟨S1x1x64x64, .f32⟩
  | 79 => ⟨S4x16x64x64, .f32⟩
  | 80 => ⟨S4x16x64x64, .f32⟩
  | 81 => ⟨S4x16x64x64, .f32⟩
  | 82 => ⟨S1x1x64x64, .f32⟩
  | 83 => ⟨S4x16x64x64, .f32⟩
  | 84 => ⟨S4x16x64x64, .f32⟩
  | 85 => ⟨S4x16x64x64, .f32⟩
  | 86 => ⟨S4x16x4096x64, .f32⟩
  | _ => ⟨S4x1024x4096, .f32⟩

abbrev hbmTy (i : Nat) : BufTy := match i / 128 with
  | 0 => hbmTy0_0 i
  | 1 => hbmTy0_1 i
  | _ => ⟨S4x1024x4096, .f32⟩

abbrev bufTy : (tb : Table) → Fin (tcTables nBuf tb) → BufTy
  | .hbm, ⟨i, _⟩ => hbmTy i
  | .local _ .vmem, ⟨0, _⟩ => ⟨S1x4096x1024, .bf16⟩
  | .local _ .vmem, ⟨1, _⟩ => ⟨S1x4096x1024, .bf16⟩
  | .local _ .vmem, ⟨2, _⟩ => ⟨S1x1024x64, .bf16⟩
  | .local _ .vmem, ⟨3, _⟩ => ⟨S1x1024x64, .bf16⟩
  | .local _ .vmem, ⟨4, _⟩ => ⟨S1x1x64, .f32⟩
  | .local _ .vmem, ⟨5, _⟩ => ⟨S1x1x64, .f32⟩
  | .local _ .vmem, ⟨6, _⟩ => ⟨S64x4096, .bf16⟩
  | .local _ .vmem, ⟨7, _⟩ => ⟨S1x1x4096x64, .f32⟩
  | .local _ .vmem, ⟨8, _⟩ => ⟨S1x1x4096x64, .f32⟩
  | .local _ .vmem, ⟨9, _⟩ => ⟨S1x1x64x64, .f32⟩
  | .local _ .vmem, ⟨10, _⟩ => ⟨S1x1x64x64, .f32⟩
  | .local _ .vmem, ⟨11, _⟩ => ⟨S1x1x64x64, .f32⟩
  | .local _ .vmem, ⟨12, _⟩ => ⟨S1x1x64x64, .f32⟩
  | .local _ .vmem, ⟨13, _⟩ => ⟨S1x1x4096x64, .f32⟩
  | .local _ .vmem, ⟨14, _⟩ => ⟨S1x1x4096x64, .f32⟩
  | .local _ .vmem, ⟨15, _⟩ => ⟨S1x1x64x64, .f32⟩
  | .local _ .vmem, ⟨16, _⟩ => ⟨S1x1x64x64, .f32⟩
  | .local _ .vmem, ⟨17, _⟩ => ⟨S1x1x64x64, .f32⟩
  | .local _ .vmem, ⟨18, _⟩ => ⟨S1x1x64x64, .f32⟩
  | .local _ .vmem, ⟨19, _⟩ => ⟨S1x1x4096x64, .f32⟩
  | .local _ .vmem, ⟨20, _⟩ => ⟨S1x1x4096x64, .f32⟩
  | _, _ => ⟨S4x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17_0 : Ref sig .tc := ⟨.hbm, 38, rfl⟩
abbrev main_v17_1 : Ref sig .tc := ⟨.hbm, 39, rfl⟩
abbrev main_v17_2 : Ref sig .tc := ⟨.hbm, 40, rfl⟩
abbrev main_v18 : Ref sig .tc := ⟨.hbm, 41, rfl⟩
abbrev main_v19 : Ref sig .tc := ⟨.hbm, 42, rfl⟩
abbrev main_c_0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_1 : Ref sig .tc := ⟨.hbm, 49, rfl⟩
abbrev main_v25 : Ref sig .tc := ⟨.hbm, 50, rfl⟩
abbrev main_cst_2 : Ref sig .tc := ⟨.hbm, 51, rfl⟩
abbrev main_v26 : Ref sig .tc := ⟨.hbm, 52, rfl⟩
abbrev main_v27 : Ref sig .tc := ⟨.hbm, 53, rfl⟩
abbrev main_cst_3 : Ref sig .tc := ⟨.hbm, 54, rfl⟩
abbrev main_v28 : Ref sig .tc := ⟨.hbm, 55, rfl⟩
abbrev main_cst_4 : Ref sig .tc := ⟨.hbm, 56, rfl⟩
abbrev main_v29 : Ref sig .tc := ⟨.hbm, 57, rfl⟩
abbrev main_v30 : Ref sig .tc := ⟨.hbm, 58, rfl⟩
abbrev main_cst_5 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_6 : Ref sig .tc := ⟨.hbm, 65, rfl⟩
abbrev main_v36 : Ref sig .tc := ⟨.hbm, 66, rfl⟩
abbrev main_v37 : Ref sig .tc := ⟨.hbm, 67, rfl⟩
abbrev main_cst_7 : Ref sig .tc := ⟨.hbm, 68, rfl⟩
abbrev main_v38 : Ref sig .tc := ⟨.hbm, 69, rfl⟩
abbrev main_v39 : Ref sig .tc := ⟨.hbm, 70, rfl⟩
abbrev main_cst_8 : Ref sig .tc := ⟨.hbm, 71, rfl⟩
abbrev main_v40 : Ref sig .tc := ⟨.hbm, 72, rfl⟩
abbrev main_v41 : Ref sig .tc := ⟨.hbm, 73, rfl⟩
abbrev main_cst_9 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_10 : Ref sig .tc := ⟨.hbm, 90, rfl⟩
abbrev main_v57 : Ref sig .tc := ⟨.hbm, 91, rfl⟩
abbrev main_v58 : Ref sig .tc := ⟨.hbm, 92, rfl⟩
abbrev main_cst_11 : Ref sig .tc := ⟨.hbm, 93, rfl⟩
abbrev main_v59 : Ref sig .tc := ⟨.hbm, 94, rfl⟩
abbrev main_v60 : Ref sig .tc := ⟨.hbm, 95, rfl⟩
abbrev main_cst_12 : Ref sig .tc := ⟨.hbm, 96, rfl⟩
abbrev main_v61 : Ref sig .tc := ⟨.hbm, 97, rfl⟩
abbrev main_v62 : Ref sig .tc := ⟨.hbm, 98, rfl⟩
abbrev main_cst_13 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_14 : Ref sig .tc := ⟨.hbm, 115, rfl⟩
abbrev main_v78 : Ref sig .tc := ⟨.hbm, 116, rfl⟩
abbrev main_v79 : Ref sig .tc := ⟨.hbm, 117, rfl⟩
abbrev main_cst_15 : Ref sig .tc := ⟨.hbm, 118, rfl⟩
abbrev main_v80 : Ref sig .tc := ⟨.hbm, 119, rfl⟩
abbrev main_v81 : Ref sig .tc := ⟨.hbm, 120, rfl⟩
abbrev main_cst_16 : Ref sig .tc := ⟨.hbm, 121, rfl⟩
abbrev main_v82 : Ref sig .tc := ⟨.hbm, 122, rfl⟩
abbrev main_v83 : Ref sig .tc := ⟨.hbm, 123, rfl⟩
abbrev main_cst_17 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_18 : Ref sig .tc := ⟨.hbm, 140, rfl⟩
abbrev main_v99 : Ref sig .tc := ⟨.hbm, 141, rfl⟩
abbrev main_v100 : Ref sig .tc := ⟨.hbm, 142, rfl⟩
abbrev main_cst_19 : Ref sig .tc := ⟨.hbm, 143, rfl⟩
abbrev main_v101 : Ref sig .tc := ⟨.hbm, 144, rfl⟩
abbrev main_v102 : Ref sig .tc := ⟨.hbm, 145, rfl⟩
abbrev main_cst_20 : Ref sig .tc := ⟨.hbm, 146, rfl⟩
abbrev main_v103 : Ref sig .tc := ⟨.hbm, 147, rfl⟩
abbrev main_v104 : Ref sig .tc := ⟨.hbm, 148, rfl⟩
abbrev main_cst_21 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_22 : Ref sig .tc := ⟨.hbm, 165, rfl⟩
abbrev main_v120 : Ref sig .tc := ⟨.hbm, 166, rfl⟩
abbrev main_v121 : Ref sig .tc := ⟨.hbm, 167, rfl⟩
abbrev main_cst_23 : Ref sig .tc := ⟨.hbm, 168, rfl⟩
abbrev main_v122 : Ref sig .tc := ⟨.hbm, 169, rfl⟩
abbrev main_v123 : Ref sig .tc := ⟨.hbm, 170, rfl⟩
abbrev main_cst_24 : Ref sig .tc := ⟨.hbm, 171, rfl⟩
abbrev main_v124 : Ref sig .tc := ⟨.hbm, 172, rfl⟩
abbrev main_v125 : Ref sig .tc := ⟨.hbm, 173, rfl⟩
abbrev main_cst_25 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_cst_26 : Ref sig .tc := ⟨.hbm, 190, rfl⟩
abbrev main_v141 : Ref sig .tc := ⟨.hbm, 191, rfl⟩
abbrev main_v142 : Ref sig .tc := ⟨.hbm, 192, rfl⟩
abbrev main_cst_27 : Ref sig .tc := ⟨.hbm, 193, rfl⟩
abbrev main_v143 : Ref sig .tc := ⟨.hbm, 194, rfl⟩
abbrev main_v144 : Ref sig .tc := ⟨.hbm, 195, rfl⟩
abbrev main_cst_28 : Ref sig .tc := ⟨.hbm, 196, rfl⟩
abbrev main_v145 : Ref sig .tc := ⟨.hbm, 197, rfl⟩
abbrev main_v146 : Ref sig .tc := ⟨.hbm, 198, rfl⟩
abbrev main_cst_29 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S64x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x4096x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x64x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x4096x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S4x1024x4096_S4x4096x1024_0_2_1 : S4x1024x4096.Transposes [0, 2, 1] S4x4096x1024
  bitsLt_bf16_f32 : FTy.bits .bf16 < FTy.bits .f32
  transposes_S16x64x1024_S16x1024x64_0_2_1 : S16x64x1024.Transposes [0, 2, 1] S16x1024x64
  shapeCasts_S16x64_S16x1x64 : S16x64.ShapeCasts S16x1x64
  bcast_S_S4096 : S_.BroadcastsInDim S4096 (![] : Fin 0 → Fin S4096.rank)
  bcast_S4096_S1x4096_1 : S4096.BroadcastsInDim S1x4096 (![1] : Fin 1 → Fin S1x4096.rank)
  bcast_S64_S64x1_0 : S64.BroadcastsInDim S64x1 (![0] : Fin 1 → Fin S64x1.rank)
  bcast_S1x4096_S64x4096_0_1 : S1x4096.BroadcastsInDim S64x4096 (![0, 1] : Fin 2 → Fin S64x4096.rank)
  bcast_S64x1_S64x4096_0_1 : S64x1.BroadcastsInDim S64x4096 (![0, 1] : Fin 2 → Fin S64x4096.rank)
  bcast_S_S64x4096 : S_.BroadcastsInDim S64x4096 (![] : Fin 0 → Fin S64x4096.rank)
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  broadcasts_S1x64_S4096x64 : S1x64.Broadcasts S4096x64
  inb_S1x1x4096x64_S1x1x4096x64_0_0_0_0 : ∀ a, (![0, 0, 0, 0] : Fin 4 → Nat) a + S1x1x4096x64.size a ≤ S1x1x4096x64.size a
  h_S1x1x4096x64 : 0 < S1x1x4096x64.numel
  shapeCasts_S1x1x4096x64_S4096x64 : S1x1x4096x64.ShapeCasts S4096x64
  shapeCasts_S4096x64_S1x1x4096x64 : S4096x64.ShapeCasts S1x1x4096x64
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S1x1x64x64_S1x1x64x64_0_0_0_0 : ∀ a, (![0, 0, 0, 0] : Fin 4 → Nat) a + S1x1x64x64.size a ≤ S1x1x64x64.size a
  h_S1x1x64x64 : 0 < S1x1x64x64.numel
  shapeCasts_S1x1x64x64_S64x64 : S1x1x64x64.ShapeCasts S64x64
  shapeCasts_S64x64_S1x1x64x64 : S64x64.ShapeCasts S1x1x64x64
  reduces_S64x64_S64 : S64x64.Reduces [1] S64
  shapeCasts_S64_S64x1 : S64.ShapeCasts S64x1
  broadcasts_S64x1_S64x64 : S64x1.Broadcasts S64x64
  bcast_S_S64x64 : S_.BroadcastsInDim S64x64 (![] : Fin 0 → Fin S64x64.rank)
  reducesTo_S4x16x64x64_S4x16x64_d2 : S4x16x64x64.ReducesTo [2] S4x16x64
  h_S_ : 0 < S_.numel
  reducesTo_S4x16x64_S_d0_1_2 : S4x16x64.ReducesTo [0, 1, 2] S_
  reducesTo_S4x16x64x64_S4x16x64_d3 : S4x16x64x64.ReducesTo [3] S4x16x64
  transposes_S4x16x64x64_S4x16x64x64_0_1_3_2 : S4x16x64x64.Transposes [0, 1, 3, 2] S4x16x64x64
  bcast_S_S4x16x64x64 : S_.BroadcastsInDim S4x16x64x64 (![] : Fin 0 → Fin S4x16x64x64.rank)
  bcast_S64x64_S1x1x64x64_2_3 : S64x64.BroadcastsInDim S1x1x64x64 (![2, 3] : Fin 2 → Fin S1x1x64x64.rank)
  bcast_S1x1x64x64_S4x16x64x64_0_1_2_3 : S1x1x64x64.BroadcastsInDim S4x16x64x64 (![0, 1, 2, 3] : Fin 4 → Fin S4x16x64x64.rank)
  reduces_S4096x64_S4096 : S4096x64.Reduces [1] S4096
  shapeCasts_S4096_S4096x1 : S4096.ShapeCasts S4096x1
  broadcasts_S4096x1_S4096x64 : S4096x1.Broadcasts S4096x64
  reduces_S64x4096_S64 : S64x4096.Reduces [1] S64
  broadcasts_S64x1_S64x4096 : S64x1.Broadcasts S64x4096
  dot_S4096x1024_S1024x64_S4096x64_1_0_0_1_n_n_wf : DotDims.WF S4096x1024 S1024x64 S4096x64 [1] [0] [0] [1] [] []
  dot_S64x4096_S4096x64_S64x64_1_0_0_1_n_n_wf : DotDims.WF S64x4096 S4096x64 S64x64 [1] [0] [0] [1] [] []
  dot_S64x64_S64x64_S64x64_1_1_0_0_n_n_wf : DotDims.WF S64x64 S64x64 S64x64 [1] [1] [0] [0] [] []
  dot_S4x16x64x64_S4x16x64x64_S4x16x64x64_3_2_2_3_01_01_wf : DotDims.WF S4x16x64x64 S4x16x64x64 S4x16x64x64 [3] [2] [2] [3] [0, 1] [0, 1]
  dot_S4096x64_S64x64_S4096x64_1_1_0_0_n_n_wf : DotDims.WF S4096x64 S64x64 S4096x64 [1] [1] [0] [0] [] []
  dot_S64x64_S4096x64_S64x4096_1_1_0_0_n_n_wf : DotDims.WF S64x64 S4096x64 S64x4096 [1] [1] [0] [0] [] []
  dot_S64x64_S64x64_S64x64_1_0_0_1_n_n_wf : DotDims.WF S64x64 S64x64 S64x64 [1] [0] [0] [1] [] []
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x1024.size a ≤ S4x4096x1024.size a
  hwx0_0 : ∀ i : grid0.Coords, EltTy.bits .bf16 = 32 ∨ (Rect.block (s := S4x4096x1024) S1x4096x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S16x1024x64.size a
  hwx0_1 : ∀ i : grid0.Coords, EltTy.bits .bf16 = 32 ∨ (Rect.block (s := S16x1024x64) S1x1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64.size a ≤ S16x1x64.size a
  hwx0_2 : ∀ i : grid0.Coords, EltTy.bits .f32 = 32 ∨ (Rect.block (s := S16x1x64) S1x1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S64x4096.size a
  hwx0_3 : ∀ i : grid0.Coords, EltTy.bits .bf16 = 32 ∨ (Rect.block (s := S64x4096) S64x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x4096x64.size a ≤ S4x16x4096x64.size a
  hwx0_4 : ∀ i : grid0.Coords, EltTy.bits .f32 = 32 ∨ (Rect.block (s := S4x16x4096x64) S1x1x4096x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64x64.size a ≤ S4x16x64x64.size a
  hwx0_5 : ∀ i : grid0.Coords, EltTy.bits .f32 = 32 ∨ (Rect.block (s := S4x16x64x64) S1x1x64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x64x64.size a ≤ S4x16x64x64.size a
  hwx0_6 : ∀ i : grid0.Coords, EltTy.bits .f32 = 32 ∨ (Rect.block (s := S4x16x64x64) S1x1x64x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x4096x64.size a ≤ S4x16x4096x64.size a
  hwx1_0 : ∀ i : grid1.Coords, EltTy.bits .f32 = 32 ∨ (Rect.block (s := S4x16x4096x64) S1x1x4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x64x64.size a ≤ S4x16x64x64.size a
  hwx1_1 : ∀ i : grid1.Coords, EltTy.bits .f32 = 32 ∨ (Rect.block (s := S4x16x64x64) S1x1x64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x64x64.size a ≤ S4x16x64x64.size a
  hwx1_2 : ∀ i : grid1.Coords, EltTy.bits .f32 = 32 ∨ (Rect.block (s := S4x16x64x64) S1x1x64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x4096x64.size a ≤ S4x16x4096x64.size a
  hwx1_3 : ∀ i : grid1.Coords, EltTy.bits .f32 = 32 ∨ (Rect.block (s := S4x16x4096x64) S1x1x4096x64.size (cc1_transform_3 i) (hinb1_3 i)).WholeWords (EltTy.packing .f32)

variable [Facts₀]

def dot_S4096x1024_S1024x64_S4096x64_1_0_0_1_n_n : DotDims S4096x1024 S1024x64 S4096x64 where
  lhsContracting := [1]
  rhsContracting := [0]
  lhsNonContracting := [0]
  rhsNonContracting := [1]
  lhsBatch := []
  rhsBatch := []
  wf := dot_S4096x1024_S1024x64_S4096x64_1_0_0_1_n_n_wf
def dot_S64x4096_S4096x64_S64x64_1_0_0_1_n_n : DotDims S64x4096 S4096x64 S64x64 where
  lhsContracting := [1]
  rhsContracting := [0]
  lhsNonContracting := [0]
  rhsNonContracting := [1]
  lhsBatch := []
  rhsBatch := []
  wf := dot_S64x4096_S4096x64_S64x64_1_0_0_1_n_n_wf
def dot_S64x64_S64x64_S64x64_1_1_0_0_n_n : DotDims S64x64 S64x64 S64x64 where
  lhsContracting := [1]
  rhsContracting := [1]
  lhsNonContracting := [0]
  rhsNonContracting := [0]
  lhsBatch := []
  rhsBatch := []
  wf := dot_S64x64_S64x64_S64x64_1_1_0_0_n_n_wf
def dot_S4x16x64x64_S4x16x64x64_S4x16x64x64_3_2_2_3_01_01 : DotDims S4x16x64x64 S4x16x64x64 S4x16x64x64 where
  lhsContracting := [3]
  rhsContracting := [2]
  lhsNonContracting := [2]
  rhsNonContracting := [3]
  lhsBatch := [0, 1]
  rhsBatch := [0, 1]
  wf := dot_S4x16x64x64_S4x16x64x64_S4x16x64x64_3_2_2_3_01_01_wf
def dot_S4096x64_S64x64_S4096x64_1_1_0_0_n_n : DotDims S4096x64 S64x64 S4096x64 where
  lhsContracting := [1]
  rhsContracting := [1]
  lhsNonContracting := [0]
  rhsNonContracting := [0]
  lhsBatch := []
  rhsBatch := []
  wf := dot_S4096x64_S64x64_S4096x64_1_1_0_0_n_n_wf
def dot_S64x64_S4096x64_S64x4096_1_1_0_0_n_n : DotDims S64x64 S4096x64 S64x4096 where
  lhsContracting := [1]
  rhsContracting := [1]
  lhsNonContracting := [0]
  rhsNonContracting := [0]
  lhsBatch := []
  rhsBatch := []
  wf := dot_S64x64_S4096x64_S64x4096_1_1_0_0_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_v1) S1x4096x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S64x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17_0) S1x1x4096x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17_1) S1x1x64x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17_2) S1x1x64x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v17_0) S1x1x4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17_1) S1x1x64x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v160) S1x1x64x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v161) S1x1x4096x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x1024x4096 : Shape := ⟨3, ![4, 1024, 4096]⟩
abbrev S16x64x1024 : Shape := ⟨3, ![16, 64, 1024]⟩
abbrev S16x64 : Shape := ⟨2, ![16, 64]⟩
abbrev S4x4096x1024 : Shape := ⟨3, ![4, 4096, 1024]⟩
abbrev S16x64x4x4096 : Shape := ⟨4, ![16, 64, 4, 4096]⟩
abbrev S4x16x4096x64 : Shape := ⟨4, ![4, 16, 4096, 64]⟩
abbrev S1x16x1x64 : Shape := ⟨4, ![1, 16, 1, 64]⟩
abbrev S4x16x64x64x64 : Shape := ⟨5, ![4, 16, 64, 64, 64]⟩
abbrev S_ : Shape := ⟨0, ![]⟩
abbrev S4x16x64x64 : Shape := ⟨4, ![4, 16, 64, 64]⟩
abbrev S4x16x64x4096 : Shape := ⟨4, ![4, 16, 64, 4096]⟩
abbrev S4x16x4096 : Shape := ⟨3, ![4, 16, 4096]⟩
abbrev S4x16x4096x1 : Shape := ⟨4, ![4, 16, 4096, 1]⟩
abbrev S4x16x64 : Shape := ⟨3, ![4, 16, 64]⟩
abbrev S4x16x64x1 : Shape := ⟨4, ![4, 16, 64, 1]⟩
abbrev S64x64 : Shape := ⟨2, ![64, 64]⟩
abbrev S1x1x64x64 : Shape := ⟨4, ![1, 1, 64, 64]⟩

abbrev nBuf : Space → Nat
  | .hbm => 227
  | .vmem => 0
  | .smem => 0
  | _ => 0

abbrev hbmTy0_0 (i : Nat) : BufTy := match i % 128 with
  | 0 => ⟨S4x1024x4096, .f32⟩
  | 1 => ⟨S16x64x1024, .f32⟩
  | 2 => ⟨S16x64, .f32⟩
  | 3 => ⟨S4x4096x1024, .f32⟩
  | 4 => ⟨S16x64x4x4096, .f32⟩
  | 5 => ⟨S4x16x4096x64, .f32⟩
  | 6 => ⟨S1x16x1x64, .f32⟩
  | 7 => ⟨S4x16x4096x64, .f32⟩
  | 8 => ⟨S4x16x4096x64, .f32⟩
  | 9 => ⟨S4x16x64x64x64, .f32⟩
  | 10 => ⟨S_, .f32⟩
  | 11 => ⟨S4x16x64x64, .f32⟩
  | 12 => ⟨S_, .f32⟩
  | 13 => ⟨S4x16x64x64, .f32⟩
  | 14 => ⟨S4x16x64x64, .f32⟩
  | 15 => ⟨S4x16x64x64x64, .f32⟩
  | 16 => ⟨S_, .f32⟩
  | 17 => ⟨S4x16x64x64, .f32⟩
  | 18 => ⟨S_, .f32⟩
  | 19 => ⟨S4x16x64x64, .f32⟩
  | 20 => ⟨S4x16x64x64, .f32⟩
  | 21 => ⟨S4x16x4096x64, .f32⟩
  | 22 => ⟨S_, .f32⟩
  | 23 => ⟨S4x16x4096x64, .f32⟩
  | 24 => ⟨S4x16x4096x64, .f32⟩
  | 25 => ⟨S4x16x4096x64, .f32⟩
  | 26 => ⟨S4x16x64x64, .f32⟩
  | 27 => ⟨S_, .f32⟩
  | 28 => ⟨S4x16x64x64, .f32⟩
  | 29 => ⟨S4x16x64x64, .f32⟩
  | 30 => ⟨S4x16x64x64, .f32⟩
  | 31 => ⟨S4x16x64x4096, .f32⟩
  | 32 => ⟨S_, .f32⟩
  | 33 => ⟨S4x16x64x4096, .f32⟩
  | 34 => ⟨S4x16x64x4096, .f32⟩
  | 35 => ⟨S4x16x64x4096, .f32⟩
  | 36 => ⟨S_, .f32⟩
  | 37 => ⟨S4x16x4096, .f32⟩
  | 38 => ⟨S4x16x4096x1, .f32⟩
  | 39 => ⟨S4x16x4096x64, .f32⟩
  | 40 => ⟨S4x16x4096x64, .f32⟩
  | 41 => ⟨S_, .f32⟩
  | 42 => ⟨S4x16x64, .f32⟩
  | 43 => ⟨S4x16x64x1, .f32⟩
  | 44 => ⟨S4x16x64x64, .f32⟩
  | 45 => ⟨S4x16x64x64, .f32⟩
  | 46 => ⟨S64x64, .i32⟩
  | 47 => ⟨S64x64, .i32⟩
  | 48 => ⟨S_, .i32⟩
  | 49 => ⟨S64x64, .i32⟩
  | 50 => ⟨S64x64, .i32⟩
  | 51 => ⟨S64x64, .i1⟩
  | 52 => ⟨S64x64, .f32⟩
  | 53 => ⟨S4x16x64x64, .f32⟩
  | 54 => ⟨S_, .f32⟩
  | 55 => ⟨S4x16x64, .f32⟩
  | 56 => ⟨S_, .f32⟩
  | 57 => ⟨S_, .f32⟩
  | 58 => ⟨S4x16x64x64, .f32⟩
  | 59 => ⟨S_, .f32⟩
  | 60 => ⟨S4x16x64, .f32⟩
  | 61 => ⟨S_, .f32⟩
  | 62 => ⟨S_, .f32⟩
  | 63 => ⟨S_, .f32⟩
  | 64 => ⟨S_, .f32⟩
  | 65 => ⟨S_, .f32⟩
  | 66 => ⟨S4x16x64x64, .f32⟩
  | 67 => ⟨S4x16x64x64, .f32⟩
  | 68 => ⟨S4x16x64x64, .f32⟩
  | 69 => ⟨S4x16x64x64, .f32⟩
  | 70 => ⟨S_, .f32⟩
  | 71 => ⟨S4x16x64x64, .f32⟩
  | 72 => ⟨S4x16x64x64, .f32⟩
  | 73 => ⟨S_, .f32⟩
  | 74 => ⟨S64x64, .f32⟩
  | 75 => ⟨S64x64, .f32⟩
  | 76 => ⟨S_, .f32⟩
  | 77 => ⟨S64x64, .f32⟩
  | 78 => ⟨S64x64, .f32⟩
  | 79 => ⟨S_, .f32⟩
  | 80 => ⟨S64x64, .f32⟩
  | 81 => ⟨S64x64, .f32⟩
  | 82 => ⟨S1x1x64x64, .f32⟩
  | 83 => ⟨S4x16x64x64, .f32⟩
  | 84 => ⟨S4x16x64x64, .f32⟩
  | 85 => ⟨S4x16x64x64, .f32⟩
  | 86 => ⟨S1x1x64x64, .f32⟩
  | 87 => ⟨S4x16x64x64, .f32⟩
  | 88 => ⟨S4x16x64x64, .f32⟩
  | 89 => ⟨S4x16x64x64, .f32⟩
  | 90 => ⟨S1x1x64x64, .f32⟩
  | 91 => ⟨S4x16x64x64, .f32⟩
  | 92 => ⟨S4x16x64x64, .f32⟩
  | 93 => ⟨S4x16x64x64, .f32⟩
  | 94 => ⟨S4x16x64x64, .f32⟩
  | 95 => ⟨S_, .f32⟩
  | 96 => ⟨S4x16x64x64, .f32⟩
  | 97 => ⟨S4x16x64x64, .f32⟩
  | 98 => ⟨S_, .f32⟩
  | 99 => ⟨S64x64, .f32⟩
  | 100 => ⟨S64x64, .f32⟩
  | 101 => ⟨S_, .f32⟩
  | 102 => ⟨S64x64, .f32⟩
  | 103 => ⟨S64x64, .f32⟩
  | 104 => ⟨S_, .f32⟩
  | 105 => ⟨S64x64, .f32⟩
  | 106 => ⟨S64x64, .f32⟩
  | 107 => ⟨S1x1x64x64, .f32⟩
  | 108 => ⟨S4x16x64x64, .f32⟩
  | 109 => ⟨S4x16x64x64, .f32⟩
  | 110 => ⟨S4x16x64x64, .f32⟩
  | 111 => ⟨S1x1x64x64, .f32⟩
  | 112 => ⟨S4x16x64x64, .f32⟩
  | 113 => ⟨S4x16x64x64, .f32⟩
  | 114 => ⟨S4x16x64x64, .f32⟩
  | 115 => ⟨S1x1x64x64, .f32⟩
  | 116 => ⟨S4x16x64x64, .f32⟩
  | 117 => ⟨S4x16x64x64, .f32⟩
  | 118 => ⟨S4x16x64x64, .f32⟩
  | 119 => ⟨S4x16x64x64, .f32⟩
  | 120 => ⟨S_, .f32⟩
  | 121 => ⟨S4x16x64x64, .f32⟩
  | 122 => ⟨S4x16x64x64, .f32⟩
  | 123 => ⟨S_, .f32⟩
  | 124 => ⟨S64x64, .f32⟩
  | 125 => ⟨S64x64, .f32⟩
  | 126 => ⟨S_, .f32⟩
  | 127 => ⟨S64x64, .f32⟩
  | _ => ⟨S4x1024x4096, .f32⟩

abbrev hbmTy0_1 (i : Nat) : BufTy := match i % 128 with
  | 0 => ⟨S64x64, .f32⟩
  | 1 => ⟨S_, .f32⟩
  | 2 => ⟨S64x64, .f32⟩
  | 3 => ⟨S64x64, .f32⟩
  | 4 => ⟨S1x1x64x64, .f32⟩
  | 5 => ⟨S4x16x64x64, .f32⟩
  | 6 => ⟨S4x16x64x64, .f32⟩
  | 7 => ⟨S4x16x64x64, .f32⟩
  | 8 => ⟨S1x1x64x64, .f32⟩
  | 9 => ⟨S4x16x64x64, .f32⟩
  | 10 => ⟨S4x16x64x64, .f32⟩
  | 11 => ⟨S4x16x64x64, .f32⟩
  | 12 => ⟨S1x1x64x64, .f32⟩
  | 13 => ⟨S4x16x64x64, .f32⟩
  | 14 => ⟨S4x16x64x64, .f32⟩
  | 15 => ⟨S4x16x64x64, .f32⟩
  | 16 => ⟨S4x16x64x64, .f32⟩
  | 17 => ⟨S_, .f32⟩
  | 18 => ⟨S4x16x64x64, .f32⟩
  | 19 => ⟨S4x16x64x64, .f32⟩
  | 20 => ⟨S_, .f32⟩
  | 21 => ⟨S64x64, .f32⟩
  | 22 => ⟨S64x64, .f32⟩
  | 23 => ⟨S_, .f32⟩
  | 24 => ⟨S64x64, .f32⟩
  | 25 => ⟨S64x64, .f32⟩
  | 26 => ⟨S_, .f32⟩
  | 27 => ⟨S64x64, .f32⟩
  | 28 => ⟨S64x64, .f32⟩
  | 29 => ⟨S1x1x64x64, .f32⟩
  | 30 => ⟨S4x16x64x64, .f32⟩
  | 31 => ⟨S4x16x64x64, .f32⟩
  | 32 => ⟨S4x16x64x64, .f32⟩
  | 33 => ⟨S1x1x64x64, .f32⟩
  | 34 => ⟨S4x16x64x64, .f32⟩
  | 35 => ⟨S4x16x64x64, .f32⟩
  | 36 => ⟨S4x16x64x64, .f32⟩
  | 37 => ⟨S1x1x64x64, .f32⟩
  | 38 => ⟨S4x16x64x64, .f32⟩
  | 39 => ⟨S4x16x64x64, .f32⟩
  | 40 => ⟨S4x16x64x64, .f32⟩
  | 41 => ⟨S4x16x64x64, .f32⟩
  | 42 => ⟨S_, .f32⟩
  | 43 => ⟨S4x16x64x64, .f32⟩
  | 44 => ⟨S4x16x64x64, .f32⟩
  | 45 => ⟨S_, .f32⟩
  | 46 => ⟨S64x64, .f32⟩
  | 47 => ⟨S64x64, .f32⟩
  | 48 => ⟨S_, .f32⟩
  | 49 => ⟨S64x64, .f32⟩
  | 50 => ⟨S64x64, .f32⟩
  | 51 => ⟨S_, .f32⟩
  | 52 => ⟨S64x64, .f32⟩
  | 53 => ⟨S64x64, .f32⟩
  | 54 => ⟨S1x1x64x64, .f32⟩
  | 55 => ⟨S4x16x64x64, .f32⟩
  | 56 => ⟨S4x16x64x64, .f32⟩
  | 57 => ⟨S4x16x64x64, .f32⟩
  | 58 => ⟨S1x1x64x64, .f32⟩
  | 59 => ⟨S4x16x64x64, .f32⟩
  | 60 => ⟨S4x16x64x64, .f32⟩
  | 61 => ⟨S4x16x64x64, .f32⟩
  | 62 => ⟨S1x1x64x64, .f32⟩
  | 63 => ⟨S4x16x64x64, .f32⟩
  | 64 => ⟨S4x16x64x64, .f32⟩
  | 65 => ⟨S4x16x64x64, .f32⟩
  | 66 => ⟨S4x16x64x64, .f32⟩
  | 67 => ⟨S_, .f32⟩
  | 68 => ⟨S4x16x64x64, .f32⟩
  | 69 => ⟨S4x16x64x64, .f32⟩
  | 70 => ⟨S_, .f32⟩
  | 71 => ⟨S64x64, .f32⟩
  | 72 => ⟨S64x64, .f32⟩
  | 73 => ⟨S_, .f32⟩
  | 74 => ⟨S64x64, .f32⟩
  | 75 => ⟨S64x64, .f32⟩
  | 76 => ⟨S_, .f32⟩
  | 77 => ⟨S64x64, .f32⟩
  | 78 => ⟨S64x64, .f32⟩
  | 79 => ⟨S1x1x64x64, .f32⟩
  | 80 => ⟨S4x16x64x64, .f32⟩
  | 81 => ⟨S4x16x64x64, .f32⟩
  | 82 => ⟨S4x16x64x64, .f32⟩
  | 83 => ⟨S1x1x64x64, .f32⟩
  | 84 => ⟨S4x16x64x64, .f32⟩
  | 85 => ⟨S4x16x64x64, .f32⟩
  | 86 => ⟨S4x16x64x64, .f32⟩
  | 87 => ⟨S1x1x64x64, .f32⟩
  | 88 => ⟨S4x16x64x64, .f32⟩
  | 89 => ⟨S4x16x64x64, .f32⟩
  | 90 => ⟨S4x16x64x64, .f32⟩
  | 91 => ⟨S_, .f32⟩
  | 92 => ⟨S4x16x64, .f32⟩
  | 93 => ⟨S4x16x64x1, .f32⟩
  | 94 => ⟨S4x16x64x4096, .f32⟩
  | 95 => ⟨S4x16x64x4096, .f32⟩
  | 96 => ⟨S4x16x4096x64, .f32⟩
  | 97 => ⟨S4x16x64x64, .f32⟩
  | 98 => ⟨S4x16x4096x64, .f32⟩
  | _ => ⟨S4x1024x4096, .f32⟩

abbrev hbmTy (i : Nat) : BufTy := match i / 128 with
  | 0 => hbmTy0_0 i
  | 1 => hbmTy0_1 i
  | _ => ⟨S4x1024x4096, .f32⟩

abbrev bufTy : (tb : Table) → Fin (tcTables nBuf tb) → BufTy
  | .hbm, ⟨i, _⟩ => hbmTy i
  | _, _ => ⟨S4x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_cst_12 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_13 : Ref sig .tc := ⟨.hbm, 70, rfl⟩
abbrev main_v52 : Ref sig .tc := ⟨.hbm, 71, rfl⟩
abbrev main_v53 : Ref sig .tc := ⟨.hbm, 72, rfl⟩
abbrev main_cst_14 : Ref sig .tc := ⟨.hbm, 73, rfl⟩
abbrev main_v54 : Ref sig .tc := ⟨.hbm, 74, rfl⟩
abbrev main_v55 : Ref sig .tc := ⟨.hbm, 75, rfl⟩
abbrev main_cst_15 : Ref sig .tc := ⟨.hbm, 76, rfl⟩
abbrev main_v56 : Ref sig .tc := ⟨.hbm, 77, rfl⟩
abbrev main_v57 : Ref sig .tc := ⟨.hbm, 78, rfl⟩
abbrev main_cst_16 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_17 : Ref sig .tc := ⟨.hbm, 95, rfl⟩
abbrev main_v73 : Ref sig .tc := ⟨.hbm, 96, rfl⟩
abbrev main_v74 : Ref sig .tc := ⟨.hbm, 97, rfl⟩
abbrev main_cst_18 : Ref sig .tc := ⟨.hbm, 98, rfl⟩
abbrev main_v75 : Ref sig .tc := ⟨.hbm, 99, rfl⟩
abbrev main_v76 : Ref sig .tc := ⟨.hbm, 100, rfl⟩
abbrev main_cst_19 : Ref sig .tc := ⟨.hbm, 101, rfl⟩
abbrev main_v77 : Ref sig .tc := ⟨.hbm, 102, rfl⟩
abbrev main_v78 : Ref sig .tc := ⟨.hbm, 103, rfl⟩
abbrev main_cst_20 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_21 : Ref sig .tc := ⟨.hbm, 120, rfl⟩
abbrev main_v94 : Ref sig .tc := ⟨.hbm, 121, rfl⟩
abbrev main_v95 : Ref sig .tc := ⟨.hbm, 122, rfl⟩
abbrev main_cst_22 : Ref sig .tc := ⟨.hbm, 123, rfl⟩
abbrev main_v96 : Ref sig .tc := ⟨.hbm, 124, rfl⟩
abbrev main_v97 : Ref sig .tc := ⟨.hbm, 125, rfl⟩
abbrev main_cst_23 : Ref sig .tc := ⟨.hbm, 126, rfl⟩
abbrev main_v98 : Ref sig .tc := ⟨.hbm, 127, rfl⟩
abbrev main_v99 : Ref sig .tc := ⟨.hbm, 128, rfl⟩
abbrev main_cst_24 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_cst_25 : Ref sig .tc := ⟨.hbm, 145, rfl⟩
abbrev main_v115 : Ref sig .tc := ⟨.hbm, 146, rfl⟩
abbrev main_v116 : Ref sig .tc := ⟨.hbm, 147, rfl⟩
abbrev main_cst_26 : Ref sig .tc := ⟨.hbm, 148, rfl⟩
abbrev main_v117 : Ref sig .tc := ⟨.hbm, 149, rfl⟩
abbrev main_v118 : Ref sig .tc := ⟨.hbm, 150, rfl⟩
abbrev main_cst_27 : Ref sig .tc := ⟨.hbm, 151, rfl⟩
abbrev main_v119 : Ref sig .tc := ⟨.hbm, 152, rfl⟩
abbrev main_v120 : Ref sig .tc := ⟨.hbm, 153, rfl⟩
abbrev main_cst_28 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_cst_29 : Ref sig .tc := ⟨.hbm, 170, rfl⟩
abbrev main_v136 : Ref sig .tc := ⟨.hbm, 171, rfl⟩
abbrev main_v137 : Ref sig .tc := ⟨.hbm, 172, rfl⟩
abbrev main_cst_30 : Ref sig .tc := ⟨.hbm, 173, rfl⟩
abbrev main_v138 : Ref sig .tc := ⟨.hbm, 174, rfl⟩
abbrev main_v139 : Ref sig .tc := ⟨.hbm, 175, rfl⟩
abbrev main_cst_31 : Ref sig .tc := ⟨.hbm, 176, rfl⟩
abbrev main_v140 : Ref sig .tc := ⟨.hbm, 177, rfl⟩
abbrev main_v141 : Ref sig .tc := ⟨.hbm, 178, rfl⟩
abbrev main_cst_32 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_cst_33 : Ref sig .tc := ⟨.hbm, 195, rfl⟩
abbrev main_v157 : Ref sig .tc := ⟨.hbm, 196, rfl⟩
abbrev main_v158 : Ref sig .tc := ⟨.hbm, 197, rfl⟩
abbrev main_cst_34 : Ref sig .tc := ⟨.hbm, 198, rfl⟩
abbrev main_v159 : Ref sig .tc := ⟨.hbm, 199, rfl⟩
abbrev main_v160 : Ref sig .tc := ⟨.hbm, 200, rfl⟩
abbrev main_cst_35 : Ref sig .tc := ⟨.hbm, 201, rfl⟩
abbrev main_v161 : Ref sig .tc := ⟨.hbm, 202, rfl⟩
abbrev main_v162 : Ref sig .tc := ⟨.hbm, 203, rfl⟩
abbrev main_cst_36 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_cst_37 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩

abbrev nD : Nat := 1
abbrev τ : Topo := Topo.v7x

variable {F : FTy → Type} [FloatOps F]

class Facts₀ : Prop where
  transposes_S4x1024x4096_S4x4096x1024_0_2_1 : S4x1024x4096.Transposes [0, 2, 1] S4x4096x1024
  transposes_S16x64x4x4096_S4x16x4096x64_2_0_3_1 : S16x64x4x4096.Transposes [2, 0, 3, 1] S4x16x4096x64
  bcast_S16x64_S1x16x1x64_1_3 : S16x64.BroadcastsInDim S1x16x1x64 (![1, 3] : Fin 2 → Fin S1x16x1x64.rank)
  bcast_S1x16x1x64_S4x16x4096x64_0_1_2_3 : S1x16x1x64.BroadcastsInDim S4x16x4096x64 (![0, 1, 2, 3] : Fin 4 → Fin S4x16x4096x64.rank)
  shapeCasts_S4x16x4096x64_S4x16x64x64x64 : S4x16x4096x64.ShapeCasts S4x16x64x64x64
  reducesTo_S4x16x64x64x64_S4x16x64x64_d3 : S4x16x64x64x64.ReducesTo [3] S4x16x64x64
  h_S_ : 0 < S_.numel
  bcast_S_S4x16x64x64 : S_.BroadcastsInDim S4x16x64x64 (![] : Fin 0 → Fin S4x16x64x64.rank)
  bcast_S_S4x16x4096x64 : S_.BroadcastsInDim S4x16x4096x64 (![] : Fin 0 → Fin S4x16x4096x64.rank)
  bcast_S_S4x16x64x4096 : S_.BroadcastsInDim S4x16x64x4096 (![] : Fin 0 → Fin S4x16x64x4096.rank)
  reducesTo_S4x16x4096x64_S4x16x4096_d3 : S4x16x4096x64.ReducesTo [3] S4x16x4096
  bcast_S4x16x4096_S4x16x4096x1_0_1_2 : S4x16x4096.BroadcastsInDim S4x16x4096x1 (![0, 1, 2] : Fin 3 → Fin S4x16x4096x1.rank)
  bcast_S4x16x4096x1_S4x16x4096x64_0_1_2_3 : S4x16x4096x1.BroadcastsInDim S4x16x4096x64 (![0, 1, 2, 3] : Fin 4 → Fin S4x16x4096x64.rank)
  reducesTo_S4x16x64x64_S4x16x64_d3 : S4x16x64x64.ReducesTo [3] S4x16x64
  bcast_S4x16x64_S4x16x64x1_0_1_2 : S4x16x64.BroadcastsInDim S4x16x64x1 (![0, 1, 2] : Fin 3 → Fin S4x16x64x1.rank)
  bcast_S4x16x64x1_S4x16x64x64_0_1_2_3 : S4x16x64x1.BroadcastsInDim S4x16x64x64 (![0, 1, 2, 3] : Fin 4 → Fin S4x16x64x64.rank)
  bcast_S_S64x64 : S_.BroadcastsInDim S64x64 (![] : Fin 0 → Fin S64x64.rank)
  reducesTo_S4x16x64x64_S4x16x64_d2 : S4x16x64x64.ReducesTo [2] S4x16x64
  reducesTo_S4x16x64_S_d0_1_2 : S4x16x64.ReducesTo [0, 1, 2] S_
  transposes_S4x16x64x64_S4x16x64x64_0_1_3_2 : S4x16x64x64.Transposes [0, 1, 3, 2] S4x16x64x64
  bcast_S64x64_S1x1x64x64_2_3 : S64x64.BroadcastsInDim S1x1x64x64 (![2, 3] : Fin 2 → Fin S1x1x64x64.rank)
  bcast_S1x1x64x64_S4x16x64x64_0_1_2_3 : S1x1x64x64.BroadcastsInDim S4x16x64x64 (![0, 1, 2, 3] : Fin 4 → Fin S4x16x64x64.rank)
  reducesTo_S4x16x64x4096_S4x16x64_d3 : S4x16x64x4096.ReducesTo [3] S4x16x64
  bcast_S4x16x64x1_S4x16x64x4096_0_1_2_3 : S4x16x64x1.BroadcastsInDim S4x16x64x4096 (![0, 1, 2, 3] : Fin 4 → Fin S4x16x64x4096.rank)
  dot_S16x64x1024_S4x4096x1024_S16x64x4x4096_2_2_01_01_n_n_wf : DotDims.WF S16x64x1024 S4x4096x1024 S16x64x4x4096 [2] [2] [0, 1] [0, 1] [] []
  dot_S4x16x4096x64_S4x16x64x64_S4x16x4096x64_3_3_2_2_01_01_wf : DotDims.WF S4x16x4096x64 S4x16x64x64 S4x16x4096x64 [3] [3] [2] [2] [0, 1] [0, 1]
  dot_S4x16x64x64_S4x16x64x64_S4x16x64x64_3_3_2_2_01_01_wf : DotDims.WF S4x16x64x64 S4x16x64x64 S4x16x64x64 [3] [3] [2] [2] [0, 1] [0, 1]
  dot_S4x16x64x64_S4x16x4096x64_S4x16x64x4096_3_3_2_2_01_01_wf : DotDims.WF S4x16x64x64 S4x16x4096x64 S4x16x64x4096 [3] [3] [2] [2] [0, 1] [0, 1]
  dot_S4x16x64x64_S4x16x64x64_S4x16x64x64_3_2_2_3_01_01_wf : DotDims.WF S4x16x64x64 S4x16x64x64 S4x16x64x64 [3] [2] [2] [3] [0, 1] [0, 1]
  dot_S4x16x4096x64_S4x16x64x64_S4x16x4096x64_3_2_2_3_01_01_wf : DotDims.WF S4x16x4096x64 S4x16x64x64 S4x16x4096x64 [3] [2] [2] [3] [0, 1] [0, 1]
  dot_S4x16x64x4096_S4x16x4096x64_S4x16x64x64_3_2_2_3_01_01_wf : DotDims.WF S4x16x64x4096 S4x16x4096x64 S4x16x64x64 [3] [2] [2] [3] [0, 1] [0, 1]

variable [Facts₀]

def dot_S16x64x1024_S4x4096x1024_S16x64x4x4096_2_2_01_01_n_n : DotDims S16x64x1024 S4x4096x1024 S16x64x4x4096 where
  lhsContracting := [2]
  rhsContracting := [2]
  lhsNonContracting := [0, 1]
  rhsNonContracting := [0, 1]
  lhsBatch := []
  rhsBatch := []
  wf := dot_S16x64x1024_S4x4096x1024_S16x64x4x4096_2_2_01_01_n_n_wf
def dot_S4x16x4096x64_S4x16x64x64_S4x16x4096x64_3_3_2_2_01_01 : DotDims S4x16x4096x64 S4x16x64x64 S4x16x4096x64 where
  lhsContracting := [3]
  rhsContracting := [3]
  lhsNonContracting := [2]
  rhsNonContracting := [2]
  lhsBatch := [0, 1]
  rhsBatch := [0, 1]
  wf := dot_S4x16x4096x64_S4x16x64x64_S4x16x4096x64_3_3_2_2_01_01_wf
def dot_S4x16x64x64_S4x16x64x64_S4x16x64x64_3_3_2_2_01_01 : DotDims S4x16x64x64 S4x16x64x64 S4x16x64x64 where
  lhsContracting := [3]
  rhsContracting := [3]
  lhsNonContracting := [2]
  rhsNonContracting := [2]
  lhsBatch := [0, 1]
  rhsBatch := [0, 1]
  wf := dot_S4x16x64x64_S4x16x64x64_S4x16x64x64_3_3_2_2_01_01_wf
def dot_S4x16x64x64_S4x16x4096x64_S4x16x64x4096_3_3_2_2_01_01 : DotDims S4x16x64x64 S4x16x4096x64 S4x16x64x4096 where
  lhsContracting := [3]
  rhsContracting := [3]
  lhsNonContracting := [2]
  rhsNonContracting := [2]
  lhsBatch := [0, 1]
  rhsBatch := [0, 1]
  wf := dot_S4x16x64x64_S4x16x4096x64_S4x16x64x4096_3_3_2_2_01_01_wf
def dot_S4x16x64x64_S4x16x64x64_S4x16x64x64_3_2_2_3_01_01 : DotDims S4x16x64x64 S4x16x64x64 S4x16x64x64 where
  lhsContracting := [3]
  rhsContracting := [2]
  lhsNonContracting := [2]
  rhsNonContracting := [3]
  lhsBatch := [0, 1]
  rhsBatch := [0, 1]
  wf := dot_S4x16x64x64_S4x16x64x64_S4x16x64x64_3_2_2_3_01_01_wf
def dot_S4x16x4096x64_S4x16x64x64_S4x16x4096x64_3_2_2_3_01_01 : DotDims S4x16x4096x64 S4x16x64x64 S4x16x4096x64 where
  lhsContracting := [3]
  rhsContracting := [2]
  lhsNonContracting := [2]
  rhsNonContracting := [3]
  lhsBatch := [0, 1]
  rhsBatch := [0, 1]
  wf := dot_S4x16x4096x64_S4x16x64x64_S4x16x4096x64_3_2_2_3_01_01_wf
def dot_S4x16x64x4096_S4x16x4096x64_S4x16x64x64_3_2_2_3_01_01 : DotDims S4x16x64x4096 S4x16x4096x64 S4x16x64x64 where
  lhsContracting := [3]
  rhsContracting := [2]
  lhsNonContracting := [2]
  rhsNonContracting := [3]
  lhsBatch := [0, 1]
  rhsBatch := [0, 1]
  wf := dot_S4x16x64x4096_S4x16x4096x64_S4x16x64x64_3_2_2_3_01_01_wf

class Facts : Prop extends Facts₀ where

variable [Facts]
-- ==== Proof.Spec.lean ====
/-
  The mathematics of the landmark (Nystrom) attention layer, as plain functions of extended reals.

  From X : [4, 1024, 4096], W : [16, 64, 1024], B : [16, 64]:
    q   (b,h,n,d) = sum_e X(b,e,n) W(h,d,e) + B(h,d)                       the per-head projection (queries = keys = values)
    qt  (b,h,l,d) = landmark l's mean of q over its 64 consecutive positions n = 64 l + g
    gam (l,l') = exp (s (sum_d qt(l,d) qt(l',d))),  gn = gam / row sum      the normalised landmark kernel
    bet (n,l)  = exp (s (sum_d q(n,d) qt(l,d))),    betD = bet / row sum
    del (l,n)  = exp (s (sum_d qt(l,d) q(n,d))),    delD = del / row sum
    dv  (l,d)  = sum_n delD(l,n) q(n,d)
  and, for a matrix gd (the iterated pseudo-inverse of gn), the output  betD . gd . dv .
  The two programs differ in three places, each kept as a parameter or a pair of definitions here:
  the mean (a product with an averaging matrix, or a sum divided by 64), the scaling s of the logits
  (times 1/8, or divided by 8), and the order of the triple product.
-/
import Mathlib
import Idealize.ShloMosaic.PureOps.Ideal
import Idealize.ShloMosaic.Lib.ValueIdx

noncomputable section

namespace Cert.Nys

open Idealize.ShloMosaic Idealize.ShloMosaic.ValueIdx

/-- The argument arrays and the landmark-by-landmark arrays, as functions of an index. -/
abbrev TX := (⟨3, ![4, 1024, 4096]⟩ : Shape).Idx → EReal
abbrev TW := (⟨3, ![16, 64, 1024]⟩ : Shape).Idx → EReal
abbrev TB := (⟨2, ![16, 64]⟩ : Shape).Idx → EReal
abbrev TL := (⟨4, ![4, 16, 64, 64]⟩ : Shape).Idx → EReal
abbrev TQ := (⟨4, ![4, 16, 4096, 64]⟩ : Shape).Idx → EReal

/-- A four-axis array from a function of its four coordinates. -/
def ofFn4 {a b c d : ℕ} (f : Fin a → Fin b → Fin c → Fin d → EReal) : (⟨4, ![a, b, c, d]⟩ : Shape).Idx → EReal :=
  fun i => f (i 0) (i 1) (i 2) (i 3)

theorem ofFn4_ix4 {a b c d : ℕ} (f : Fin a → Fin b → Fin c → Fin d → EReal) (p : Fin a) (q : Fin b) (r : Fin c) (s : Fin d) :
    ofFn4 f (ix4 p q r s) = f p q r s := rfl

/-- The three float words the two programs scale by: 64 (the landmark group's size), 8 = sqrt 64 (the head
    dimension's root, the divisor of one program) and 1/8 (the factor of the other). -/
abbrev c64 : EReal := Ideal.ofBits .f32 0x42800000#32
abbrev c8 : EReal := Ideal.ofBits .f32 0x41000000#32
abbrev c8th : EReal := Ideal.ofBits .f32 0x3E000000#32

/-- Position g of landmark l's run of 64 consecutive positions. -/
def pos (l g : Fin 64) : Fin 4096 := ⟨l.val * 64 + g.val, by omega⟩

/-- One program scales a logit by the factor 1/8, the other divides it by 8. -/
def scMul (x : EReal) : EReal := x * c8th
def scDiv (x : EReal) : EReal := Ideal.div x c8

section
variable (X : TX) (W : TW) (B : TB)

/-- The projection: row n of head h of batch b. -/
def q (b : Fin 4) (h : Fin 16) (n : Fin 4096) (d : Fin 64) : EReal :=
  (∑ e : Fin 1024, X (ix3 b e n) * W (ix3 h d e)) + B (ix2 h d)

/-- Entry (l, k) of the averaging matrix: 1/64 on landmark l's run, 0 elsewhere. -/
def avg (l : Fin 64) (k : Fin 4096) : EReal := Ideal.div (if k.val / 64 = l.val then 1 else 0) c64

/-- The landmark means as a product with the averaging matrix. -/
def qtMat (b : Fin 4) (h : Fin 16) (l : Fin 64) (d : Fin 64) : EReal := ∑ k : Fin 4096, avg l k * q X W B b h k d

/-- The landmark means as a run's sum divided by 64. -/
def qtMean (b : Fin 4) (h : Fin 16) (l : Fin 64) (d : Fin 64) : EReal := Ideal.div (∑ g : Fin 64, q X W B b h (pos l g) d) c64
end

section
variable (sc : EReal → EReal) (Q : Fin 4 → Fin 16 → Fin 4096 → Fin 64 → EReal) (qt : Fin 4 → Fin 16 → Fin 64 → Fin 64 → EReal)

def gam (b : Fin 4) (h : Fin 16) (l l' : Fin 64) : EReal := Ideal.exp (sc (∑ d : Fin 64, qt b h l d * qt b h l' d))
def gn (b : Fin 4) (h : Fin 16) (l l' : Fin 64) : EReal := Ideal.div (gam sc qt b h l l') (∑ j : Fin 64, gam sc qt b h l j)
def bet (b : Fin 4) (h : Fin 16) (n : Fin 4096) (l : Fin 64) : EReal := Ideal.exp (sc (∑ d : Fin 64, Q b h n d * qt b h l d))
def betD (b : Fin 4) (h : Fin 16) (n : Fin 4096) (l : Fin 64) : EReal := Ideal.div (bet sc Q qt b h n l) (∑ j : Fin 64, bet sc Q qt b h n j)
def del (b : Fin 4) (h : Fin 16) (l : Fin 64) (n : Fin 4096) : EReal := Ideal.exp (sc (∑ d : Fin 64, qt b h l d * Q b h n d))
def delD (b : Fin 4) (h : Fin 16) (l : Fin 64) (n : Fin 4096) : EReal := Ideal.div (del sc Q qt b h l n) (∑ j : Fin 4096, del sc Q qt b h l j)
def dv (b : Fin 4) (h : Fin 16) (l : Fin 64) (d : Fin 64) : EReal := ∑ n : Fin 4096, delD sc Q qt b h l n * Q b h n d

variable (gd : Fin 4 → Fin 16 → Fin 64 → Fin 64 → EReal)

/-- The output with the small product first: betD . (gd . dv). -/
def outRight (b : Fin 4) (h : Fin 16) (n : Fin 4096) (d : Fin 64) : EReal :=
  ∑ l : Fin 64, betD sc Q qt b h n l * (∑ l' : Fin 64, gd b h l l' * dv sc Q qt b h l' d)

/-- The output with the products taken left to right: (betD . gd) . dv. -/
def outLeft (b : Fin 4) (h : Fin 16) (n : Fin 4096) (d : Fin 64) : EReal :=
  ∑ l' : Fin 64, (∑ l : Fin 64, betD sc Q qt b h n l * gd b h l l') * dv sc Q qt b h l' d
end

/-- The normalised landmark kernel as an array (what the pseudo-inverse iteration is applied to). -/
def gnArr (sc : EReal → EReal) (qt : Fin 4 → Fin 16 → Fin 64 → Fin 64 → EReal) : TL := ofFn4 (gn sc qt)

/-- An array read as a function of its coordinates. -/
def fn4 (A : TL) (b : Fin 4) (h : Fin 16) (l l' : Fin 64) : EReal := A (ix4 b h l l')

/-- What the kernel's program leaves in its result, given the pseudo-inverse iteration `ns`. -/
def kernelOut (ns : TL → TL) (X : TX) (W : TW) (B : TB) : TQ :=
  ofFn4 (outRight scMul (q X W B) (qtMat X W B) (fn4 (ns (gnArr scMul (qtMat X W B)))))

/-- What the reference leaves in its result. -/
def refOut (ns : TL → TL) (X : TX) (W : TW) (B : TB) : TQ :=
  ofFn4 (outLeft scDiv (q X W B) (qtMean X W B) (fn4 (ns (gnArr scDiv (qtMean X W B)))))

end Cert.Nys

end
-- ==== Proof.NSDef.lean ====
/-
  The iterated pseudo-inverse (Newton–Schulz) that both programs apply, on the host, to the normalised landmark
  kernel K : [4, 16, 64, 64] — as ONE function of K, so that neither side ever has to open it:
    start K = (1 / (max of K's column sums of absolute values * max of its row sums)) * K^T     (the maxima over all 64 matrices)
    step K V = (1/4 V) (13 I - K V (15 I - K V (7 I - K V)))                                     (matrix products, per batch and head)
    ns K    = six steps from start K.
  Written over the reference program's shape and dimension records, for any float interpretation.
-/
import proofs.«162784_j87548613362291_2_alg».proof.Proof.Gen.ReferenceIdeal

noncomputable section

namespace Cert.NS

open Idealize.ShloMosaic Cert.ReferenceIdeal Cert.ReferenceIdeal.Gen

variable {F : FTy → Type} [FloatOps F]

/-- The 64 × 64 identity matrix, as the programs build it: the comparison of a row iota with a column iota. -/
def eye : FVec F S64x64 .f32 :=
  uitofp .f32 (cmpi .eq (addi (iotaInDim S64x64 32 0) (broadcastInDim S64x64 ![] bcast_S_S64x64 (constantI S_ 32 0#32))) (iotaInDim S64x64 32 1))

/-- The starting point: K's transpose scaled by the reciprocal of the product of the two norms' maxima. -/
def start (K : FVec F S4x16x64x64 .f32) : FVec F S4x16x64x64 .f32 :=
  mulf (broadcastInDim S4x16x64x64 ![] bcast_S_S4x16x64x64 (Host.divf (constant S_ .f32 0x3F800000#32) (mulf (Host.reduce FloatOps.maximumf (Host.reduceAdd (Host.absf K) (constant S_ .f32 0x00000000#32) reducesTo_S4x16x64x64_S4x16x64_d2 h_S_) (constant S_ .f32 0xFF800000#32) reducesTo_S4x16x64_S_d0_1_2 h_S_) (Host.reduce FloatOps.maximumf (Host.reduceAdd (Host.absf K) (constant S_ .f32 0x00000000#32) reducesTo_S4x16x64x64_S4x16x64_d3 h_S_) (constant S_ .f32 0xFF800000#32) reducesTo_S4x16x64_S_d0_1_2 h_S_)))) (transpose S4x16x64x64 [0, 1, 3, 2] K transposes_S4x16x64x64_S4x16x64x64_0_1_3_2)

/-- K V, per batch and head. -/
def kv (K V : FVec F S4x16x64x64 .f32) : FVec F S4x16x64x64 .f32 :=
  Host.dotGeneral dot_S4x16x64x64_S4x16x64x64_S4x16x64x64_3_2_2_3_01_01 none K V

/-- One step of the iteration. -/
def step (K V : FVec F S4x16x64x64 .f32) : FVec F S4x16x64x64 .f32 :=
  Host.dotGeneral dot_S4x16x64x64_S4x16x64x64_S4x16x64x64_3_2_2_3_01_01 none (mulf (broadcastInDim S4x16x64x64 ![] bcast_S_S4x16x64x64 (constant S_ .f32 0x3E800000#32)) V) (subf (broadcastInDim S4x16x64x64 ![0, 1, 2, 3] bcast_S1x1x64x64_S4x16x64x64_0_1_2_3 (broadcastInDim S1x1x64x64 ![2, 3] bcast_S64x64_S1x1x64x64_2_3 (mulf (broadcastInDim S64x64 ![] bcast_S_S64x64 (constant S_ .f32 0x41500000#32)) eye))) (Host.dotGeneral dot_S4x16x64x64_S4x16x64x64_S4x16x64x64_3_2_2_3_01_01 none (kv K V) (subf (broadcastInDim S4x16x64x64 ![0, 1, 2, 3] bcast_S1x1x64x64_S4x16x64x64_0_1_2_3 (broadcastInDim S1x1x64x64 ![2, 3] bcast_S64x64_S1x1x64x64_2_3 (mulf (broadcastInDim S64x64 ![] bcast_S_S64x64 (constant S_ .f32 0x41700000#32)) eye))) (Host.dotGeneral dot_S4x16x64x64_S4x16x64x64_S4x16x64x64_3_2_2_3_01_01 none (kv K V) (subf (broadcastInDim S4x16x64x64 ![0, 1, 2, 3] bcast_S1x1x64x64_S4x16x64x64_0_1_2_3 (broadcastInDim S1x1x64x64 ![2, 3] bcast_S64x64_S1x1x64x64_2_3 (mulf (broadcastInDim S64x64 ![] bcast_S_S64x64 (constant S_ .f32 0x40E00000#32)) eye))) (kv K V))))))

/-- Six steps. -/
def ns (K : FVec F S4x16x64x64 .f32) : FVec F S4x16x64x64 .f32 :=
  step K (step K (step K (step K (step K (step K (start K))))))

end Cert.NS

end
-- ==== Proof.NSRealOps.lean ====
/-
  Arrays of extended reals whose entries are all real numbers, and the operations that keep them so.

  An entry of an array computed on the extended reals can leave the reals only through an infinity: a product or a
  difference of two reals is a real, a finite sum of reals is a real, a read of a real array at a computed index is a
  real, and a quotient of a real by a real that is not zero is a real.  For the one quotient whose divisor must be
  shown not zero we also carry "every entry is a positive real": absolute values, finite non-empty sums, products and
  maxima over a finite non-empty family (started from the bottom element) keep it.
-/
import Idealize.ShloMosaic.PureOps.Ideal.Laws
import Idealize.ShloMosaic.PureOps.Reduce

noncomputable section

open scoped BigOperators

namespace Cert.NS

open Idealize.ShloMosaic

/-- Every entry is a real number. -/
def RealArr {s : Shape} (v : s.Idx → EReal) : Prop := ∀ i, ∃ r : ℝ, v i = (r : EReal)

/-- Every entry is a positive real number. -/
def PosArr {s : Shape} (v : s.Idx → EReal) : Prop := ∀ i, ∃ r : ℝ, 0 < r ∧ v i = (r : EReal)

theorem PosArr.real {s : Shape} {v : s.Idx → EReal} (h : PosArr v) : RealArr v :=
  fun i => let ⟨r, _, e⟩ := h i; ⟨r, e⟩

/-! ## Scalars -/

/-- A finite sum of reals is a real. -/
theorem real_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := hf a (Finset.mem_insert_self a s)
    obtain ⟨q, hq⟩ := ih (fun i hi => hf i (Finset.mem_insert_of_mem hi))
    exact ⟨r + q, by rw [Finset.sum_insert ha, hr, hq, EReal.coe_add]⟩

/-- A finite sum of positive reals over a non-empty index set is a positive real. -/
theorem pos_sum {ι : Type} (s : Finset ι) (hs : s.Nonempty) (f : ι → EReal)
    (hf : ∀ i ∈ s, ∃ r : ℝ, 0 < r ∧ f i = (r : EReal)) : ∃ r : ℝ, 0 < r ∧ ∑ i ∈ s, f i = (r : EReal) := by
  classical
  have key : ∀ t : Finset ι, (∀ i ∈ t, ∃ r : ℝ, 0 < r ∧ f i = (r : EReal)) →
      ∃ r : ℝ, 0 ≤ r ∧ (t.Nonempty → 0 < r) ∧ ∑ i ∈ t, f i = (r : EReal) := by
    intro t
    induction t using Finset.induction_on with
    | empty => intro _; exact ⟨0, le_refl _, fun h => absurd h (by simp), by simp⟩
    | insert a t ha ih =>
      intro h
      obtain ⟨r, hr, e⟩ := h a (Finset.mem_insert_self a t)
      obtain ⟨q, hq, _, e'⟩ := ih (fun i hi => h i (Finset.mem_insert_of_mem hi))
      exact ⟨r + q, by linarith, fun _ => by linarith, by rw [Finset.sum_insert ha, e, e', EReal.coe_add]⟩
  obtain ⟨r, _, hr, e⟩ := key s hf
  exact ⟨r, hr hs, e⟩

/-- The maximum of two reals, taken in the extended reals, is their maximum as reals. -/
theorem max_coe (r q : ℝ) : max (r : EReal) (q : EReal) = ((max r q : ℝ) : EReal) :=
  (EReal.coe_strictMono.monotone.map_max).symm

/-- The maximum, started from the bottom element, over a finite family of positive reals: either the family is empty
    or the maximum is a positive real. -/
theorem fold_max_pos {ι : Type} [DecidableEq ι] {φ : FTy} (f : ι → EReal) (s : Finset ι)
    (hf : ∀ i ∈ s, ∃ r : ℝ, 0 < r ∧ f i = (r : EReal)) :
    s = ∅ ∨ ∃ r : ℝ, 0 < r ∧ s.fold (FloatOps.maximumf (F := Ideal) (φ := φ)) (⊥ : EReal) f = (r : EReal) := by
  induction s using Finset.induction_on with
  | empty => exact Or.inl rfl
  | insert a s ha ih =>
    right
    obtain ⟨r, hr, e⟩ := hf a (Finset.mem_insert_self a s)
    rcases ih (fun i hi => hf i (Finset.mem_insert_of_mem hi)) with h0 | ⟨q, hq, e'⟩
    · refine ⟨r, hr, ?_⟩
      rw [Finset.fold_insert ha, h0, Finset.fold_empty, e]
      show max (r : EReal) ⊥ = r
      exact max_eq_left bot_le
    · refine ⟨max r q, lt_max_of_lt_left hr, ?_⟩
      rw [Finset.fold_insert ha, e', e]
      exact max_coe r q

/-- A real divided by a real that is not zero is a real. -/
theorem div_coe (r q : ℝ) (hq : q ≠ 0) : Ideal.div (r : EReal) (q : EReal) = ((r * q⁻¹ : ℝ) : EReal) := by
  unfold Ideal.div
  rw [if_neg (EReal.coe_ne_zero.mpr hq), ← EReal.coe_inv, ← EReal.coe_mul]

/-! ## Pointwise operations -/

variable {s : Shape} {φ : FTy}

theorem RealArr.mulf {x y : FVec Ideal s φ} (hx : RealArr x) (hy : RealArr y) : RealArr (mulf x y) := by
  intro i
  obtain ⟨a, ha⟩ := hx i
  obtain ⟨b, hb⟩ := hy i
  refine ⟨a * b, ?_⟩
  show x i * y i = _
  rw [ha, hb, EReal.coe_mul]

theorem RealArr.subf {x y : FVec Ideal s φ} (hx : RealArr x) (hy : RealArr y) : RealArr (subf x y) := by
  intro i
  obtain ⟨a, ha⟩ := hx i
  obtain ⟨b, hb⟩ := hy i
  refine ⟨a - b, ?_⟩
  show x i - y i = _
  rw [ha, hb, EReal.coe_sub]

theorem PosArr.mulf {x y : FVec Ideal s φ} (hx : PosArr x) (hy : PosArr y) : PosArr (mulf x y) := by
  intro i
  obtain ⟨a, ha0, ha⟩ := hx i
  obtain ⟨b, hb0, hb⟩ := hy i
  refine ⟨a * b, mul_pos ha0 hb0, ?_⟩
  show x i * y i = _
  rw [ha, hb, EReal.coe_mul]

/-- The absolute value of a positive real is itself. -/
theorem PosArr.absf {x : FVec Ideal s φ} (hx : PosArr x) : PosArr (Host.absf x) := by
  intro i
  obtain ⟨a, ha0, ha⟩ := hx i
  refine ⟨a, ha0, ?_⟩
  show max (x i) (-(x i)) = _
  rw [ha, ← EReal.coe_neg, max_coe, max_eq_left (by linarith)]

/-- A real array divided entrywise by a positive real array is a real array. -/
theorem RealArr.hostDivf {x y : FVec Ideal s φ} (hx : RealArr x) (hy : PosArr y) : RealArr (Host.divf x y) := by
  intro i
  obtain ⟨a, ha⟩ := hx i
  obtain ⟨b, hb0, hb⟩ := hy i
  refine ⟨a * b⁻¹, ?_⟩
  show Ideal.div (x i) (y i) = _
  rw [ha, hb, div_coe a b (ne_of_gt hb0)]

/-- A constant array of a 32-bit word that denotes a real. -/
theorem RealArr.constant (w : BitVec 32) (hw : ∃ r : ℝ, Ideal.ofBits .f32 w = (r : EReal)) :
    RealArr (constant (F := Ideal) s .f32 w) := fun _ => hw

/-- An unsigned integer read as a float is a real. -/
theorem RealArr.uitofp {w : ℕ} (x : IVec s w) : RealArr (uitofp (F := Ideal) φ x) :=
  fun i => ⟨((x i).toNat : ℝ), rfl⟩

/-! ## Reads at a computed index -/

theorem RealArr.broadcastInDim {t : Shape} (dims : Fin s.rank → Fin t.rank) (h : s.BroadcastsInDim t dims)
    {x : s.Idx → EReal} (hx : RealArr x) : RealArr (broadcastInDim t dims h x) := by
  intro j
  unfold Idealize.ShloMosaic.broadcastInDim
  exact hx _

theorem RealArr.transpose {t : Shape} (perm : List (Fin s.rank)) (h : s.Transposes perm t)
    {x : s.Idx → EReal} (hx : RealArr x) : RealArr (transpose t perm x h) := by
  intro j
  unfold Idealize.ShloMosaic.transpose
  exact hx _

/-! ## Contractions and reductions -/

/-- A product of two real arrays along any dimension record: each entry is a finite sum of products of reals. -/
theorem RealArr.dotGeneral {sl sr so : Shape} {φ₁ φ₂ : FTy} (d : DotDims sl sr so) (prec : Option ContractPrecision)
    {l : FVec Ideal sl φ₁} {r : FVec Ideal sr φ₂} (hl : RealArr l) (hr : RealArr r) :
    RealArr (Host.dotGeneral d prec l r) := by
  intro j
  show ∃ q : ℝ, FloatOps.dotGeneral d prec .single l r j = (q : EReal)
  rw [Ideal.dotGeneral_apply]
  refine real_sum _ _ fun k _ => ?_
  obtain ⟨a, ha⟩ := hl (d.lhsIdx j k)
  obtain ⟨b, hb⟩ := hr (d.rhsIdx j k)
  exact ⟨a * b, by rw [ha, hb, EReal.coe_mul]⟩

/-- The host's sum over one axis of positive size, from the initial value zero, of a positive real array. -/
theorem PosArr.hostReduceAdd {t u : Shape} {a : Fin s.rank} {x : FVec Ideal s φ} (hx : PosArr x)
    (init : u.Idx → Ideal φ) (h' : s.ReducesTo [a] t) (h : s.Reduces [a] t) (hu : 0 < u.numel)
    (hinit : init (Shape.Idx.first hu) = 0) (hpos : 0 < s.size a) : PosArr (Host.reduceAdd x init h' hu) := by
  intro j
  show ∃ r : ℝ, 0 < r ∧ Ideal.hostReduceAdd h' x (init (Shape.Idx.first hu)) j = (r : EReal)
  rw [Ideal.hostReduceAdd_single h' h, hinit, zero_add]
  exact pos_sum _ ⟨⟨0, hpos⟩, Finset.mem_univ _⟩ _ fun k _ => hx _

/-- The host's maximum over ALL axes (the result has one index), from the initial value bottom, of a positive real
    array over a non-empty shape. -/
theorem PosArr.hostReduceMax {t u : Shape} {axes : List (Fin s.rank)} {x : FVec Ideal s φ} (hx : PosArr x)
    (init : u.Idx → Ideal φ) (h : s.ReducesTo axes t) (hu : 0 < u.numel) [Subsingleton t.Idx] [Nonempty s.Idx]
    (hinit : init (Shape.Idx.first hu) = ⊥) :
    PosArr (Host.reduce (FloatOps.maximumf (F := Ideal) (φ := φ)) x init h hu) := by
  classical
  intro j
  rw [Host.reduce_eq_fold, hinit, Finset.filter_true_of_mem fun i _ => Subsingleton.elim _ _]
  rcases fold_max_pos (φ := φ) x Finset.univ (fun i _ => hx i) with h0 | h1
  · exact absurd h0 Finset.univ_nonempty.ne_empty
  · exact h1

end Cert.NS

end
-- ==== Proof.Consts.lean ====
/-
  The float words the two programs spell, as the extended reals their bit patterns denote.
  One module unfolds the decoding of a 32-bit pattern; the others read the constants here.
-/
import Idealize.ShloMosaic.PureOps.Ideal
import proofs.«162784_j87548613362291_2_alg».proof.Proof.Spec

noncomputable section

namespace Cert.Consts

open Idealize.ShloMosaic

/-- The pattern of 64.0 denotes the real 64. -/
theorem c64_eq : Cert.Nys.c64 = ((64 : ℝ) : EReal) := by
  simp [Cert.Nys.c64, Ideal.ofBits, Ideal.ieee, -EReal.coe_mul]; norm_num

/-- The pattern of 8.0 denotes the real 8. -/
theorem c8_eq : Cert.Nys.c8 = ((8 : ℝ) : EReal) := by
  simp [Cert.Nys.c8, Ideal.ofBits, Ideal.ieee, -EReal.coe_mul]; norm_num

/-- The pattern of 0.125 denotes the real 1/8. -/
theorem c8th_eq : Cert.Nys.c8th = ((1 / 8 : ℝ) : EReal) := by
  simp [Cert.Nys.c8th, Ideal.ofBits, Ideal.ieee, -EReal.coe_mul]; norm_num

/-- The pattern of 1.0 denotes a real. -/
theorem real_0x3F800000 : ∃ r : ℝ, Ideal.ofBits .f32 0x3F800000#32 = (r : EReal) := by
  refine ⟨1, ?_⟩
  simp [Ideal.ofBits, Ideal.ieee, -EReal.coe_mul]; norm_num

/-- The pattern of 0.25 denotes a real. -/
theorem real_0x3E800000 : ∃ r : ℝ, Ideal.ofBits .f32 0x3E800000#32 = (r : EReal) := by
  refine ⟨1 / 4, ?_⟩
  simp [Ideal.ofBits, Ideal.ieee, -EReal.coe_mul]; norm_num

/-- The pattern of 13.0 denotes a real. -/
theorem real_0x41500000 : ∃ r : ℝ, Ideal.ofBits .f32 0x41500000#32 = (r : EReal) := by
  refine ⟨13, ?_⟩
  simp [Ideal.ofBits, Ideal.ieee, -EReal.coe_mul]; norm_num

/-- The pattern of 15.0 denotes a real. -/
theorem real_0x41700000 : ∃ r : ℝ, Ideal.ofBits .f32 0x41700000#32 = (r : EReal) := by
  refine ⟨15, ?_⟩
  simp [Ideal.ofBits, Ideal.ieee, -EReal.coe_mul]; norm_num

/-- The pattern of 7.0 denotes a real. -/
theorem real_0x40E00000 : ∃ r : ℝ, Ideal.ofBits .f32 0x40E00000#32 = (r : EReal) := by
  refine ⟨7, ?_⟩
  simp [Ideal.ofBits, Ideal.ieee, -EReal.coe_mul]; norm_num

/-- The pattern of +0.0 denotes a real. -/
theorem real_0x00000000 : ∃ r : ℝ, Ideal.ofBits .f32 0x00000000#32 = (r : EReal) := by
  refine ⟨0, ?_⟩
  simp [Ideal.ofBits, Ideal.ieee]

/-- The pattern of negative infinity denotes the bottom element. -/
theorem neg_inf : Ideal.ofBits .f32 0xFF800000#32 = (⊥ : EReal) := by
  simp [Ideal.ofBits, Ideal.ieee]

end Cert.Consts

end
-- ==== Proof.NSReal.lean ====
/-
  The Newton–Schulz iterate of a positive real array is a real array.

  The iteration is built from products, differences, scalings by real constants, transposes, broadcasts and the
  identity matrix (an integer 0 or 1 read as a float): each keeps every entry real.  Its starting point also divides by
  the product of two norms — the largest column sum and the largest row sum of absolute values; for an array of
  positive reals each sum is a positive real, so is the largest of them, so is the product of the two, and the
  quotient of one by a positive real is a real.
-/
import proofs.«162784_j87548613362291_2_alg».proof.Proof.NSDef
import proofs.«162784_j87548613362291_2_alg».proof.Proof.NSRealOps
import proofs.«162784_j87548613362291_2_alg».proof.Proof.Consts

noncomputable section

namespace Cert.NS

open Idealize.ShloMosaic Cert.ReferenceIdeal Cert.ReferenceIdeal.Gen

/-- The rank-0 shape has one index. -/
instance : Subsingleton S_.Idx := ⟨fun a b => funext fun d => d.elim0⟩

/-- The shape [4, 16, 64] has an index. -/
instance : Nonempty S4x16x64.Idx := ⟨Shape.Idx.first (by decide)⟩

/-- The identity matrix has real entries. -/
theorem eye_real : RealArr (eye (F := Ideal)) := RealArr.uitofp _

/-- The largest, over all batches, heads and kept coordinates, of the sums of absolute values along one axis of a
    positive real array is a positive real. -/
theorem norm_pos {a : Fin S4x16x64x64.rank} (K : FVec Ideal S4x16x64x64 .f32) (hK : PosArr K)
    (h' : S4x16x64x64.ReducesTo [a] S4x16x64) (h : S4x16x64x64.Reduces [a] S4x16x64) (hpos : 0 < S4x16x64x64.size a) :
    PosArr (Host.reduce (FloatOps.maximumf (F := Ideal) (φ := .f32))
      (Host.reduceAdd (Host.absf K) (constant (F := Ideal) S_ .f32 0x00000000#32) h' h_S_)
      (constant (F := Ideal) S_ .f32 0xFF800000#32) reducesTo_S4x16x64_S_d0_1_2 h_S_) :=
  PosArr.hostReduceMax (PosArr.hostReduceAdd hK.absf _ h' h h_S_ Ideal.ofBits_zero_f32 hpos) _ _ _ Cert.Consts.neg_inf

/-- The starting point of the iteration on a positive real array is a real array. -/
theorem start_real (K : FVec Ideal S4x16x64x64 .f32) (hK : PosArr K) : RealArr (start (F := Ideal) K) := by
  unfold start
  exact RealArr.mulf
    (RealArr.broadcastInDim _ _
      (RealArr.hostDivf (RealArr.constant _ Cert.Consts.real_0x3F800000)
        (PosArr.mulf (norm_pos K hK _ (by decide) (by decide)) (norm_pos K hK _ (by decide) (by decide)))))
    (RealArr.transpose _ _ hK.real)

/-- The product K V of real arrays is real. -/
theorem kv_real {K V : FVec Ideal S4x16x64x64 .f32} (hK : RealArr K) (hV : RealArr V) : RealArr (kv (F := Ideal) K V) :=
  RealArr.dotGeneral _ _ hK hV

/-- A real multiple of the identity, repeated over all batches and heads, is real. -/
theorem scaledEye_real (w : BitVec 32) (hw : ∃ r : ℝ, Ideal.ofBits .f32 w = (r : EReal)) :
    RealArr (broadcastInDim S4x16x64x64 ![0, 1, 2, 3] bcast_S1x1x64x64_S4x16x64x64_0_1_2_3
      (broadcastInDim S1x1x64x64 ![2, 3] bcast_S64x64_S1x1x64x64_2_3
        (mulf (broadcastInDim S64x64 ![] bcast_S_S64x64 (constant (F := Ideal) S_ .f32 w)) eye))) :=
  RealArr.broadcastInDim _ _ (RealArr.broadcastInDim _ _
    (RealArr.mulf (RealArr.broadcastInDim _ _ (RealArr.constant w hw)) eye_real))

/-- One step of the iteration keeps real arrays real. -/
theorem step_real {K V : FVec Ideal S4x16x64x64 .f32} (hK : RealArr K) (hV : RealArr V) :
    RealArr (step (F := Ideal) K V) := by
  have hkv := kv_real hK hV
  unfold step
  exact RealArr.dotGeneral _ _
    (RealArr.mulf (RealArr.broadcastInDim _ _ (RealArr.constant _ Cert.Consts.real_0x3E800000)) hV)
    (RealArr.subf (scaledEye_real _ Cert.Consts.real_0x41500000)
      (RealArr.dotGeneral _ _ hkv
        (RealArr.subf (scaledEye_real _ Cert.Consts.real_0x41700000)
          (RealArr.dotGeneral _ _ hkv
            (RealArr.subf (scaledEye_real _ Cert.Consts.real_0x40E00000) hkv)))))

/-- The Newton–Schulz iterate of a positive real array is a real array. -/
theorem ns_real (K : FVec Ideal Cert.ReferenceIdeal.S4x16x64x64 .f32) (hK : ∀ i, ∃ r : ℝ, 0 < r ∧ K i = (r : EReal)) :
    ∀ i, ∃ r : ℝ, ns (F := Ideal) K i = (r : EReal) := by
  have hP : PosArr K := hK
  have h0 : RealArr K := hP.real
  have h6 : RealArr (ns (F := Ideal) K) := by
    unfold ns
    exact step_real h0 (step_real h0 (step_real h0 (step_real h0 (step_real h0 (step_real h0 (start_real K hP))))))
  exact h6

end Cert.NS

end
-- ==== Proof.LibFiniteEntries.lean ====
/-
  "Every entry is finite", read back from its printed test.

  A precondition `jnp.all(|a| < +∞)` prints, for an argument `a` of any shape, as the comparison of `|a|` with the
  word of `+∞` broadcast from a scalar to the argument's shape, reduced by `and` over all axes from `1`; several such
  tests are joined by `and` on one-bit scalars.  On the extended reals `|x|` is `max x (−x)`, the word `0x7F800000` is
  `⊤`, and an extended real whose absolute value is below `⊤` is a real number.  So: a conjunction that is `1` has both
  conjuncts `1`, and a test that is `1` gives a real number at every entry of its argument.
-/
import Idealize.ShloMosaic.Lib.ReduceAll
import Idealize.ShloMosaic.Lib.Pipeline.Value
import Idealize.ShloMosaic.Lib.ValueIdx
import Idealize.ShloMosaic.PureOps.Ideal.Laws

noncomputable section

namespace Idealize.ShloMosaic.FiniteEntries

open Idealize.ShloMosaic Idealize.ShloMosaic.ValueIdx

/-- The rank-0 shape has one index. -/
instance : Subsingleton (⟨0, ![]⟩ : Shape).Idx := ⟨fun a b => funext fun d => d.elim0⟩

/-- The binary32 word of `+∞` denotes `⊤`. -/
theorem ofBits_inf : Ideal.ofBits .f32 0x7F800000#32 = (⊤ : EReal) := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A conjunction of two one-bit scalars that is `1` has both conjuncts `1`. -/
theorem and_split {x y : IVec ⟨0, ![]⟩ 1} (h : andi x y ix0 = 1#1) : x ix0 = 1#1 ∧ y ix0 = 1#1 :=
  IntOp.andi_eq_one.1 h

/-- One argument's test: if "all `|a| < +∞`" came out `1`, every entry of `a` is real. -/
theorem entries_real {s : Shape} {axes : List (Fin s.rank)} (a : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi
        (cmpf .olt (Host.absf a) (broadcastInDim s ![] hb (constant (F := Ideal) ⟨0, ![]⟩ .f32 0x7F800000#32)))
        (constantI ⟨0, ![]⟩ 1 1#1) hr hu ix0 = 1#1)
    (i : s.Idx) : ∃ r : ℝ, a i = (r : EReal) := by
  have h := Host.reduce_andi_all _ _ hr hu ix0 e i
  have h' : Ideal.cmp .olt (max (a i) (-(a i)))
      (broadcastInDim s ![] hb (constant (F := Ideal) ⟨0, ![]⟩ .f32 0x7F800000#32) i) = 1#1 := h
  rw [broadcastInDim_apply ![] hb _ i ix0 (fun ax => ax.elim0)] at h'
  have h'' : Ideal.cmp .olt (max (a i) (-(a i))) (Ideal.ofBits .f32 0x7F800000#32) = 1#1 := h'
  rw [ofBits_inf] at h''
  refine real_of_abs_lt_top (a i) ?_
  by_contra hn
  have : Ideal.cmp .olt (max (a i) (-(a i))) ⊤ = 0#1 := by
    unfold Ideal.cmp
    simp [hn]
  rw [this] at h''
  exact absurd h'' (by decide)

end Idealize.ShloMosaic.FiniteEntries

end
-- ==== Proof.PreReal.lean ====
/-
  The precondition "every entry of every argument is finite", read back as: every entry of each of the three
  argument arrays is a real number.
-/
import proofs.«162784_j87548613362291_2_alg».proof.Defs
import proofs.«162784_j87548613362291_2_alg».proof.Proof.LibFiniteEntries

noncomputable section

namespace Cert.PreReal

open Idealize.ShloMosaic Idealize.ShloMosaic.ValueIdx Idealize.ShloMosaic.FiniteEntries

/-- Under the precondition, on every device, each argument array holds a real number at every index. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread _ _).loc Cert.KernelIdeal.main_arg0) i = (r : EReal))
      ∧ (∀ i, ∃ r : ℝ, m ((c.tc : Thread _ _).loc Cert.KernelIdeal.main_arg1) i = (r : EReal))
      ∧ (∀ i, ∃ r : ℝ, m ((c.tc : Thread _ _).loc Cert.KernelIdeal.main_arg2) i = (r : EReal)) := by
  have h0 := congrFun (h c) ix0
  dsimp only [Cert.Pre_finite_inputs.fn] at h0
  obtain ⟨h01, h2⟩ := and_split h0
  obtain ⟨ha, hb⟩ := and_split h01
  exact ⟨fun i => entries_real _ _ _ _ ha i, fun i => entries_real _ _ _ _ hb i, fun i => entries_real _ _ _ _ h2 i⟩

end Cert.PreReal

end
-- ==== Proof.BridgeReal.lean ====
/-
  Closure of "is a real number" and "is a positive real number" under the operations the attention layer uses.

  On the extended reals the product does not distribute over sums and is not associative across infinities, so
  every regrouping of the layer's sums is carried out on real numbers.  These lemmas show the quantities involved
  are real (or positive real) numbers: sums, products, the exponential of a real, and quotients by a non-zero real.
-/
import Mathlib
import Idealize.ShloMosaic.PureOps.Ideal

noncomputable section

namespace Cert.Bridge

open Idealize.ShloMosaic

/-- `x` is a real number. -/
def IsR (x : EReal) : Prop := ∃ r : ℝ, x = (r : EReal)

/-- `x` is a positive real number. -/
def IsP (x : EReal) : Prop := ∃ r : ℝ, 0 < r ∧ x = (r : EReal)

theorem IsP.isR {x : EReal} (h : IsP x) : IsR x := let ⟨r, _, e⟩ := h; ⟨r, e⟩

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isR_coe (r : ℝ) : IsR (r : EReal) := ⟨r, rfl⟩

theorem isR_add {x y : EReal} (hx : IsR x) (hy : IsR y) : IsR (x + y) := by
  obtain ⟨a, rfl⟩ := hx; obtain ⟨b, rfl⟩ := hy; exact ⟨a + b, (EReal.coe_add a b).symm⟩

theorem isR_mul {x y : EReal} (hx : IsR x) (hy : IsR y) : IsR (x * y) := by
  obtain ⟨a, rfl⟩ := hx; obtain ⟨b, rfl⟩ := hy; exact ⟨a * b, (EReal.coe_mul a b).symm⟩

theorem isR_sum {ι : Type*} (s : Finset ι) (f : ι → EReal) (h : ∀ i, IsR (f i)) : IsR (∑ i ∈ s, f i) := by
  choose g hg using h
  exact ⟨∑ i ∈ s, g i, by rw [coe_sum]; exact Finset.sum_congr rfl (fun i _ => hg i)⟩

theorem isP_sum {ι : Type*} (s : Finset ι) (hs : s.Nonempty) (f : ι → EReal) (h : ∀ i, IsP (f i)) :
    IsP (∑ i ∈ s, f i) := by
  choose g hg0 hg using h
  exact ⟨∑ i ∈ s, g i, Finset.sum_pos (fun i _ => hg0 i) hs,
    by rw [coe_sum]; exact Finset.sum_congr rfl (fun i _ => hg i)⟩

/-- The exponential of a real number is a positive real number. -/
theorem isP_exp {x : EReal} (h : IsR x) : IsP (Ideal.exp x) := by
  obtain ⟨r, rfl⟩ := h; exact ⟨Real.exp r, Real.exp_pos r, rfl⟩

/-- The quotient of two reals with a non-zero divisor, computed in the reals. -/
theorem div_real (a b : ℝ) (hb : b ≠ 0) : Ideal.div (a : EReal) (b : EReal) = ((a / b : ℝ) : EReal) := by
  rw [Ideal.div_coe hb, ← EReal.coe_mul, mul_one_div]

theorem isR_div {x y : EReal} (hx : IsR x) (hy : IsP y) : IsR (Ideal.div x y) := by
  obtain ⟨a, rfl⟩ := hx; obtain ⟨b, hb, rfl⟩ := hy
  exact ⟨a / b, div_real a b hb.ne'⟩

theorem isP_div {x y : EReal} (hx : IsP x) (hy : IsP y) : IsP (Ideal.div x y) := by
  obtain ⟨a, ha, rfl⟩ := hx; obtain ⟨b, hb, rfl⟩ := hy
  exact ⟨a / b, div_pos ha hb, div_real a b hb.ne'⟩

end Cert.Bridge

end
-- ==== Proof.LibBlockSum.lean ====
/-
  A sum over `a · b` (or `a · b · c`) consecutive positions, grouped into `a` runs of `b` (of `b` runs of `c`).

  In a commutative monoid, for `f` on `Fin n` with `n = a · b`,
      ∑ₖ f k = ∑ᵢ ∑ⱼ f (i · b + j),
  the positions `i · b + j` (`i < a`, `j < b`) being exactly the positions below `a · b`, each once; applied twice,
  for `n = a · b · c`,  ∑ₖ f k = ∑ᵢ ∑ₛ ∑ᵣ f ((i · b + s) · c + r).
-/
import Mathlib

namespace Idealize.ShloMosaic.BlockSum

theorem pos_lt {a b : ℕ} (i : Fin a) (j : Fin b) : i.val * b + j.val < a * b :=
  Nat.lt_of_lt_of_le (Nat.add_lt_add_left j.2 _) (by rw [← Nat.succ_mul]; exact Nat.mul_le_mul_right _ i.2)

/-- Two levels. -/
theorem sum_runs {M : Type*} [AddCommMonoid M] (a b n : ℕ) (h : a * b = n) (f : Fin n → M) :
    ∑ k, f k = ∑ i : Fin a, ∑ j : Fin b, f ⟨i.val * b + j.val, h ▸ pos_lt i j⟩ := by
  subst h
  rw [← (finProdFinEquiv (m := a) (n := b)).sum_comp, Fintype.sum_prod_type]
  refine Finset.sum_congr rfl fun i _ => Finset.sum_congr rfl fun j _ => congrArg f (Fin.ext ?_)
  simp only [finProdFinEquiv, Equiv.coe_fn_mk]
  rw [Nat.add_comm, Nat.mul_comm]

/-- Three levels. -/
theorem sum_runs3 {M : Type*} [AddCommMonoid M] (a b c n : ℕ) (h : a * b * c = n) (f : Fin n → M) :
    ∑ k, f k = ∑ i : Fin a, ∑ s : Fin b, ∑ r : Fin c,
      f ⟨(i.val * b + s.val) * c + r.val, h ▸ pos_lt (⟨i.val * b + s.val, pos_lt i s⟩ : Fin (a * b)) r⟩ := by
  rw [sum_runs (a * b) c n h f, sum_runs a b (a * b) rfl]

end Idealize.ShloMosaic.BlockSum
-- ==== Proof.BridgeMean.lean ====
/-
  The landmark means two ways: the product with the averaging matrix is the run's sum divided by 64.

  Entry (l, k) of the averaging matrix is 1/64 when position k lies in landmark l's run of 64 consecutive
  positions (k / 64 = l) and 0 otherwise.  For real f, the sum over all 4096 positions, regrouped into 64 runs
  of 64, keeps only run l, whose terms are f (64 l + g) / 64.
-/
import Mathlib
import Idealize.ShloMosaic.PureOps.Ideal
import proofs.«162784_j87548613362291_2_alg».proof.Proof.LibBlockSum
import proofs.«162784_j87548613362291_2_alg».proof.Proof.BridgeReal

noncomputable section

namespace Cert.Bridge

open Idealize.ShloMosaic Idealize.ShloMosaic.BlockSum

/-- Entry (l, k) of the averaging matrix times a real: (1/64) f k on landmark l's run, 0 elsewhere. -/
theorem avg_entry (f : Fin 4096 → ℝ) (l : Fin 64) (k : Fin 4096) :
    Ideal.div (if k.val / 64 = l.val then 1 else 0) ((64 : ℝ) : EReal) * (f k : EReal)
      = (((if k.val / 64 = l.val then f k / 64 else 0 : ℝ)) : EReal) := by
  split_ifs with hc
  · rw [← EReal.coe_one, div_real _ _ (by norm_num), ← EReal.coe_mul]
    congr 1; ring
  · rw [← EReal.coe_zero, div_real _ _ (by norm_num), ← EReal.coe_mul]
    congr 1; simp

/-- The real identity: the sum over all 4096 positions of the run's indicator times f k / 64 is the run's sum
    divided by 64. -/
theorem run_mean_real (f : Fin 4096 → ℝ) (l : Fin 64) :
    ∑ k : Fin 4096, (if k.val / 64 = l.val then f k / 64 else 0)
      = (∑ g : Fin 64, f ⟨l.val * 64 + g.val, by omega⟩) / 64 := by
  rw [sum_runs 64 64 4096 rfl]
  have hq : ∀ i j : Fin 64, (i.val * 64 + j.val) / 64 = i.val := by intro i j; omega
  simp only [hq]
  rw [Finset.sum_eq_single l]
  · simp only [if_true, Finset.sum_div]
  · intro i _ hi
    have : ¬ i.val = l.val := fun h => hi (Fin.ext h)
    simp [this]
  · intro h; exact absurd (Finset.mem_univ l) h

/-- The product of row l of the averaging matrix with a real column is the run's sum divided by 64. -/
theorem avg_mul_sum (f : Fin 4096 → ℝ) (l : Fin 64) :
    ∑ k : Fin 4096, Ideal.div (if k.val / 64 = l.val then 1 else 0) ((64 : ℝ) : EReal) * (f k : EReal)
      = Ideal.div (∑ g : Fin 64, (f ⟨l.val * 64 + g.val, by omega⟩ : EReal)) ((64 : ℝ) : EReal) := by
  simp only [avg_entry]
  rw [← coe_sum, ← coe_sum, div_real _ _ (by norm_num), run_mean_real]

end Cert.Bridge

end
-- ==== Proof.BridgeScale.lean ====
/-
  The two scalings of a logit agree: the product with the reciprocal 1/8 is the quotient by 8, for every extended
  real (at the infinities too, since 8 is a non-zero real).
-/
import Mathlib
import Idealize.ShloMosaic.PureOps.Ideal
import proofs.«162784_j87548613362291_2_alg».proof.Proof.Spec

noncomputable section

namespace Cert.Bridge

open Idealize.ShloMosaic Cert.Nys

theorem scMul_eq_scDiv (h8 : c8 = ((8 : ℝ) : EReal)) (h8th : c8th = ((1 / 8 : ℝ) : EReal)) : scMul = scDiv := by
  funext x
  unfold scMul scDiv
  rw [h8, h8th, Ideal.div_coe (by norm_num)]

end Cert.Bridge

end
-- ==== Proof.BridgeAssoc.lean ====
/-
  Associativity of the triple product of real-valued arrays:
      ∑ₗ a l · (∑ₘ g l m · v m) = ∑ₘ (∑ₗ a l · g l m) · v m
  when every entry is a real number.  (On the extended reals this fails at infinities; with real entries both
  sides are the coercion of the same real double sum.)
-/
import Mathlib
import proofs.«162784_j87548613362291_2_alg».proof.Proof.BridgeReal

noncomputable section

namespace Cert.Bridge

theorem triple_assoc_real {m n : ℕ} (a : Fin m → ℝ) (g : Fin m → Fin n → ℝ) (v : Fin n → ℝ) :
    ∑ l, a l * (∑ k, g l k * v k) = ∑ k, (∑ l, a l * g l k) * v k := by
  simp only [Finset.mul_sum, Finset.sum_mul]
  rw [Finset.sum_comm]
  exact Finset.sum_congr rfl fun k _ => Finset.sum_congr rfl fun l _ => (mul_assoc _ _ _).symm

theorem triple_assoc {m n : ℕ} (a : Fin m → EReal) (g : Fin m → Fin n → EReal) (v : Fin n → EReal)
    (ha : ∀ l, IsR (a l)) (hg : ∀ l k, IsR (g l k)) (hv : ∀ k, IsR (v k)) :
    ∑ l, a l * (∑ k, g l k * v k) = ∑ k, (∑ l, a l * g l k) * v k := by
  choose a' ha' using ha
  choose g' hg' using hg
  choose v' hv' using hv
  simp only [ha', hg', hv', ← EReal.coe_mul, ← coe_sum]
  exact congrArg _ (triple_assoc_real a' g' v')

end Cert.Bridge

end
-- ==== Proof.BridgeFinite.lean ====
/-
  Every quantity of the attention layer is a real number when the three arguments are.

  The projection q is a finite sum of products of reals plus a real; the landmark mean is a real sum divided
  by 64; a scaled logit is real; each kernel entry (gam, bet, del) is the exponential of a real, so a POSITIVE
  real; a row sum of positive reals is a positive real, so each normalised entry (gn, betD, delD) is a quotient
  of positive reals, again a positive real; dv is a finite sum of products of reals.
-/
import Mathlib
import Idealize.ShloMosaic.PureOps.Ideal
import proofs.«162784_j87548613362291_2_alg».proof.Proof.Spec
import proofs.«162784_j87548613362291_2_alg».proof.Proof.BridgeReal

noncomputable section

namespace Cert.Bridge

open Idealize.ShloMosaic Idealize.ShloMosaic.ValueIdx Cert.Nys

section
variable (X : TX) (W : TW) (B : TB)
  (hX : ∀ i, IsR (X i)) (hW : ∀ i, IsR (W i)) (hB : ∀ i, IsR (B i))
include hX hW hB

theorem q_real (b : Fin 4) (h : Fin 16) (n : Fin 4096) (d : Fin 64) : IsR (q X W B b h n d) := by
  unfold q
  exact isR_add (isR_sum _ _ fun e => isR_mul (hX _) (hW _)) (hB _)

theorem qtMean_real (h64 : c64 = ((64 : ℝ) : EReal)) (b : Fin 4) (h : Fin 16) (l : Fin 64) (d : Fin 64) :
    IsR (qtMean X W B b h l d) := by
  unfold qtMean
  exact isR_div (isR_sum _ _ fun g => q_real X W B hX hW hB b h _ d) ⟨64, by norm_num, h64⟩
end

theorem scDiv_real (h8 : c8 = ((8 : ℝ) : EReal)) {x : EReal} (hx : IsR x) : IsR (scDiv x) := by
  unfold scDiv
  exact isR_div hx ⟨8, by norm_num, h8⟩

section
variable (sc : EReal → EReal) (Q : Fin 4 → Fin 16 → Fin 4096 → Fin 64 → EReal)
  (qt : Fin 4 → Fin 16 → Fin 64 → Fin 64 → EReal)
  (hsc : ∀ x, IsR x → IsR (sc x)) (hQ : ∀ b h n d, IsR (Q b h n d)) (hqt : ∀ b h l d, IsR (qt b h l d))

include hsc hqt in
theorem gam_pos (b : Fin 4) (h : Fin 16) (l l' : Fin 64) : IsP (gam sc qt b h l l') := by
  unfold gam
  exact isP_exp (hsc _ (isR_sum _ _ fun d => isR_mul (hqt _ _ _ _) (hqt _ _ _ _)))

include hsc hqt in
theorem gn_pos (b : Fin 4) (h : Fin 16) (l l' : Fin 64) : IsP (gn sc qt b h l l') := by
  unfold gn
  exact isP_div (gam_pos sc qt hsc hqt b h l l')
    (isP_sum _ Finset.univ_nonempty _ fun j => gam_pos sc qt hsc hqt b h l j)

include hsc hQ hqt in
theorem bet_pos (b : Fin 4) (h : Fin 16) (n : Fin 4096) (l : Fin 64) : IsP (bet sc Q qt b h n l) := by
  unfold bet
  exact isP_exp (hsc _ (isR_sum _ _ fun d => isR_mul (hQ _ _ _ _) (hqt _ _ _ _)))

include hsc hQ hqt in
theorem betD_pos (b : Fin 4) (h : Fin 16) (n : Fin 4096) (l : Fin 64) : IsP (betD sc Q qt b h n l) := by
  unfold betD
  exact isP_div (bet_pos sc Q qt hsc hQ hqt b h n l)
    (isP_sum _ Finset.univ_nonempty _ fun j => bet_pos sc Q qt hsc hQ hqt b h n j)

include hsc hQ hqt in
theorem del_pos (b : Fin 4) (h : Fin 16) (l : Fin 64) (n : Fin 4096) : IsP (del sc Q qt b h l n) := by
  unfold del
  exact isP_exp (hsc _ (isR_sum _ _ fun d => isR_mul (hqt _ _ _ _) (hQ _ _ _ _)))

include hsc hQ hqt in
theorem delD_pos (b : Fin 4) (h : Fin 16) (l : Fin 64) (n : Fin 4096) : IsP (delD sc Q qt b h l n) := by
  unfold delD
  exact isP_div (del_pos sc Q qt hsc hQ hqt b h l n)
    (isP_sum _ Finset.univ_nonempty _ fun j => del_pos sc Q qt hsc hQ hqt b h l j)

include hsc hQ hqt in
theorem dv_real (b : Fin 4) (h : Fin 16) (l : Fin 64) (d : Fin 64) : IsR (dv sc Q qt b h l d) := by
  unfold dv
  exact isR_sum _ _ fun n => isR_mul (delD_pos sc Q qt hsc hQ hqt b h l n).isR (hQ _ _ _ _)
end

end Cert.Bridge

end
-- ==== Proof.Bridge.lean ====
/-
  The two forms of the landmark attention layer agree on real arguments.

  Three differences are bridged: (i) the landmark means as a product with the averaging matrix against a run's
  sum divided by 64; (ii) the logits scaled by the factor 1/8 against divided by 8; (iii) the order of the triple
  product betD . gd . dv.  After (i) and (ii) both forms feed the SAME normalised landmark kernel to the
  pseudo-inverse iteration, and (iii) is associativity of a product of real matrices: every factor is real,
  the iteration's result because its argument has positive real entries.
-/
import Mathlib
import Idealize.ShloMosaic.PureOps.Ideal
import proofs.«162784_j87548613362291_2_alg».proof.Proof.Spec
import proofs.«162784_j87548613362291_2_alg».proof.Proof.Consts
import proofs.«162784_j87548613362291_2_alg».proof.Proof.BridgeReal
import proofs.«162784_j87548613362291_2_alg».proof.Proof.BridgeMean
import proofs.«162784_j87548613362291_2_alg».proof.Proof.BridgeScale
import proofs.«162784_j87548613362291_2_alg».proof.Proof.BridgeAssoc
import proofs.«162784_j87548613362291_2_alg».proof.Proof.BridgeFinite

noncomputable section

namespace Cert.Bridge

open Idealize.ShloMosaic Idealize.ShloMosaic.ValueIdx Cert.Nys Cert.Consts

/-- (i) The product with the averaging matrix is the run's sum divided by 64, on real arguments. -/
theorem qtMat_eq_qtMean (X : TX) (W : TW) (B : TB)
    (hX : ∀ i, IsR (X i)) (hW : ∀ i, IsR (W i)) (hB : ∀ i, IsR (B i)) : qtMat X W B = qtMean X W B := by
  funext b h l d
  unfold qtMat qtMean avg
  choose f hf using fun k => q_real X W B hX hW hB b h k d
  simp only [hf]
  rw [c64_eq]
  exact avg_mul_sum f l

/-- (ii) The two scalings agree. -/
theorem sc_eq : scMul = scDiv := scMul_eq_scDiv c8_eq c8th_eq

theorem out_eq (ns : Cert.Nys.TL → Cert.Nys.TL)
    (hns : ∀ K : Cert.Nys.TL, (∀ i, ∃ r : ℝ, 0 < r ∧ K i = (r : EReal)) → ∀ i, ∃ r : ℝ, ns K i = (r : EReal))
    (X : Cert.Nys.TX) (W : Cert.Nys.TW) (B : Cert.Nys.TB)
    (hX : ∀ i, ∃ r : ℝ, X i = (r : EReal)) (hW : ∀ i, ∃ r : ℝ, W i = (r : EReal))
    (hB : ∀ i, ∃ r : ℝ, B i = (r : EReal)) :
    Cert.Nys.kernelOut ns X W B = Cert.Nys.refOut ns X W B := by
  unfold kernelOut refOut
  rw [qtMat_eq_qtMean X W B hX hW hB, sc_eq]
  have hsc : ∀ x, IsR x → IsR (scDiv x) := fun x hx => scDiv_real c8_eq hx
  have hQ : ∀ b h n d, IsR (q X W B b h n d) := q_real X W B hX hW hB
  have hqt : ∀ b h l d, IsR (qtMean X W B b h l d) := qtMean_real X W B hX hW hB c64_eq
  have hK : ∀ i, ∃ r : ℝ, 0 < r ∧ gnArr scDiv (qtMean X W B) i = (r : EReal) :=
    fun i => gn_pos scDiv (qtMean X W B) hsc hqt (i 0) (i 1) (i 2) (i 3)
  have hgd : ∀ b h l l', IsR (fn4 (ns (gnArr scDiv (qtMean X W B))) b h l l') :=
    fun b h l l' => hns _ hK (ix4 b h l l')
  funext i
  show outRight scDiv (q X W B) (qtMean X W B) (fn4 (ns (gnArr scDiv (qtMean X W B)))) (i 0) (i 1) (i 2) (i 3)
     = outLeft scDiv (q X W B) (qtMean X W B) (fn4 (ns (gnArr scDiv (qtMean X W B)))) (i 0) (i 1) (i 2) (i 3)
  unfold outRight outLeft
  exact triple_assoc _ _ _ (fun l => (betD_pos scDiv _ _ hsc hQ hqt _ _ _ l).isR) (fun l k => hgd _ _ l k)
    (fun k => dv_real scDiv _ _ hsc hQ hqt _ _ k _)

end Cert.Bridge

end
-- ==== Proof.KRun.lean ====
/-
  The kernel program's run with its RESULT array named: every weakly fair execution of the two pipelined calls and the
  host operations around them terminates, nothing faulting, with the result buffer at what the second call's
  write-backs leave (the last boundary's contents, read at the result's reference) and the three arguments as launched.
-/
import proofs.«162784_j87548613362291_2_alg».proof.Proof.Gen.KernelIdeal.Frame

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run over the program's six segments, read at the result buffer as well as at the arguments. -/
theorem run_out : θ_run defs (onTc (τ := τ) (main (F := F))) ⟨m, fun _ => 0, ρ⟩ (fun r => ∀ c : Dev nD,
      r.2.mem ((c.tc : Thread nD τ).loc main_v161) = W6 m ρ c (Proc.devRef .tc main_v161)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v161 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

end Cert.KernelIdeal.Hand

end
-- ==== Proof.KBlocks.lean ====
/-
  The two pipelined calls, at any entry contents V: which rows of its operand arrays each grid point's blocks are.
  The grid is (batch, head) = (4, 16), point t = 16 * batch + head; the blocks are whole matrices: X^T[batch], W^T[head],
  the bias row of head, the averaging matrix, and on the output side the (batch, head) matrices of the three results.
-/
import proofs.«162784_j87548613362291_2_alg».proof.Proof.Gen.KernelIdeal.Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- Batch and head of a grid point. -/
def bOf (t : Fin 64) : Fin 4 := ⟨t.val / 16, by omega⟩
def hOf (t : Fin 64) : Fin 16 := ⟨t.val % 16, by omega⟩
/-- The grid point of a batch and a head. -/
def tOf (b : Fin 4) (h : Fin 16) : Fin 64 := ⟨b.val * 16 + h.val, by omega⟩

/-- The first call's index maps over its grid: each window's block index at point t. -/
theorem idx0 : ∀ t : Fin cfg0.N,
    (win0_0.index t (0 : Fin 3) = t.val / 16 ∧ win0_0.index t (1 : Fin 3) = 0 ∧ win0_0.index t (2 : Fin 3) = 0)
    ∧ (win0_1.index t (0 : Fin 3) = t.val % 16 ∧ win0_1.index t (1 : Fin 3) = 0 ∧ win0_1.index t (2 : Fin 3) = 0)
    ∧ (win0_2.index t (0 : Fin 3) = t.val % 16 ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 4) = t.val / 16 ∧ win0_4.index t (1 : Fin 4) = t.val % 16 ∧ win0_4.index t (2 : Fin 4) = 0 ∧ win0_4.index t (3 : Fin 4) = 0)
    ∧ (win0_5.index t (0 : Fin 4) = t.val / 16 ∧ win0_5.index t (1 : Fin 4) = t.val % 16 ∧ win0_5.index t (2 : Fin 4) = 0 ∧ win0_5.index t (3 : Fin 4) = 0)
    ∧ (win0_6.index t (0 : Fin 4) = t.val / 16 ∧ win0_6.index t (1 : Fin 4) = t.val % 16 ∧ win0_6.index t (2 : Fin 4) = 0 ∧ win0_6.index t (3 : Fin 4) = 0) :=
  (by decide +kernel : ∀ t : Fin grid0.N, _)

/-- The second call's index maps over its grid. -/
theorem idx1 : ∀ t : Fin cfg1.N,
    (win1_0.index t (0 : Fin 4) = t.val / 16 ∧ win1_0.index t (1 : Fin 4) = t.val % 16 ∧ win1_0.index t (2 : Fin 4) = 0 ∧ win1_0.index t (3 : Fin 4) = 0)
    ∧ (win1_1.index t (0 : Fin 4) = t.val / 16 ∧ win1_1.index t (1 : Fin 4) = t.val % 16 ∧ win1_1.index t (2 : Fin 4) = 0 ∧ win1_1.index t (3 : Fin 4) = 0)
    ∧ (win1_2.index t (0 : Fin 4) = t.val / 16 ∧ win1_2.index t (1 : Fin 4) = t.val % 16 ∧ win1_2.index t (2 : Fin 4) = 0 ∧ win1_2.index t (3 : Fin 4) = 0)
    ∧ (win1_3.index t (0 : Fin 4) = t.val / 16 ∧ win1_3.index t (1 : Fin 4) = t.val % 16 ∧ win1_3.index t (2 : Fin 4) = 0 ∧ win1_3.index t (3 : Fin 4) = 0) :=
  (by decide +kernel : ∀ t : Fin grid1.N, _)

variable (V : (c : Dev nD) → (b : Ref sig .tc) → Buf (Elt Ideal) ((c : Thread nD τ).loc b))

/-- Window 0's block at point t is the matrix X^T of t's batch. -/
theorem iblk0_0_apply (c : Dev nD) (t : Fin cfg0.N) (n : Fin 4096) (e : Fin 1024) :
    (iblk0 V c 0 t : Vec Ideal S1x4096x1024 .bf16) (ix3 (0 : Fin 1) n e)
      = (V c main_v1 : S4x4096x1024.Idx → Elt Ideal .bf16) (ix3 (⟨t.val / 16, by have := t.isLt; have : cfg0.N = 64 := N_0; omega⟩ : Fin 4) n e) := by
  have hf := idx0 t
  unfold iblk0
  rw [View.read_apply]
  show V c main_v1 _ = V c main_v1 _
  congr 1
  funext a
  apply Fin.ext
  match a with
  | ⟨0, _⟩ => show win0_0.index t (0 : Fin 3) * 1 + 1 * 0 = t.val / 16; omega
  | ⟨1, _⟩ => show win0_0.index t (1 : Fin 3) * 4096 + 1 * n.val = n.val; omega
  | ⟨2, _⟩ => show win0_0.index t (2 : Fin 3) * 1024 + 1 * e.val = e.val; omega

/-- Window 1's block at point t is the matrix W^T of t's head. -/
theorem iblk0_1_apply (c : Dev nD) (t : Fin cfg0.N) (e : Fin 1024) (d : Fin 64) :
    (iblk0 V c 1 t : Vec Ideal S1x1024x64 .bf16) (ix3 (0 : Fin 1) e d)
      = (V c main_v3 : S16x1024x64.Idx → Elt Ideal .bf16) (ix3 (⟨t.val % 16, by omega⟩ : Fin 16) e d) := by
  have hf := idx0 t
  unfold iblk0
  rw [View.read_apply]
  show V c main_v3 _ = V c main_v3 _
  congr 1
  funext a
  apply Fin.ext
  match a with
  | ⟨0, _⟩ => show win0_1.index t (0 : Fin 3) * 1 + 1 * 0 = t.val % 16; omega
  | ⟨1, _⟩ => show win0_1.index t (1 : Fin 3) * 1024 + 1 * e.val = e.val; omega
  | ⟨2, _⟩ => show win0_1.index t (2 : Fin 3) * 64 + 1 * d.val = d.val; omega

/-- Window 2's block at point t is the bias row of t's head. -/
theorem iblk0_2_apply (c : Dev nD) (t : Fin cfg0.N) (d : Fin 64) :
    (iblk0 V c 2 t : Vec Ideal S1x1x64 .f32) (ix3 (0 : Fin 1) (0 : Fin 1) d)
      = (V c main_v4 : S16x1x64.Idx → Elt Ideal .f32) (ix3 (⟨t.val % 16, by omega⟩ : Fin 16) (0 : Fin 1) d) := by
  have hf := idx0 t
  unfold iblk0
  rw [View.read_apply]
  show V c main_v4 _ = V c main_v4 _
  congr 1
  funext a
  apply Fin.ext
  match a with
  | ⟨0, _⟩ => show win0_2.index t (0 : Fin 3) * 1 + 1 * 0 = t.val % 16; omega
  | ⟨1, _⟩ => show win0_2.index t (1 : Fin 3) * 1 + 1 * 0 = 0; omega
  | ⟨2, _⟩ => show win0_2.index t (2 : Fin 3) * 64 + 1 * d.val = d.val; omega

/-- Window 3's block is the whole averaging matrix at every point. -/
theorem iblk0_3_apply (c : Dev nD) (t : Fin cfg0.N) (l : Fin 64) (k : Fin 4096) :
    (iblk0 V c 3 t : Vec Ideal S64x4096 .bf16) (ix2 l k)
      = (V c main_v16 : S64x4096.Idx → Elt Ideal .bf16) (ix2 l k) := by
  have hf := idx0 t
  unfold iblk0
  rw [View.read_apply]
  show V c main_v16 _ = V c main_v16 _
  congr 1
  funext a
  apply Fin.ext
  match a with
  | ⟨0, _⟩ => show win0_3.index t (0 : Fin 2) * 64 + 1 * l.val = l.val; omega
  | ⟨1, _⟩ => show win0_3.index t (1 : Fin 2) * 4096 + 1 * k.val = k.val; omega

/-- The second call's window 0 at point t is the projection of t's batch and head. -/
theorem iblk1_0_apply (c : Dev nD) (t : Fin cfg1.N) (n : Fin 4096) (d : Fin 64) :
    (iblk1 V c 0 t : Vec Ideal S1x1x4096x64 .f32) (ix4 (0 : Fin 1) (0 : Fin 1) n d)
      = (V c main_v17_0 : S4x16x4096x64.Idx → Elt Ideal .f32) (ix4 (⟨t.val / 16, by have := t.isLt; have : cfg1.N = 64 := N_1; omega⟩ : Fin 4) (⟨t.val % 16, by omega⟩ : Fin 16) n d) := by
  have hf := idx1 t
  unfold iblk1
  rw [View.read_apply]
  show V c main_v17_0 _ = V c main_v17_0 _
  congr 1
  funext a
  apply Fin.ext
  match a with
  | ⟨0, _⟩ => show win1_0.index t (0 : Fin 4) * 1 + 1 * 0 = t.val / 16; omega
  | ⟨1, _⟩ => show win1_0.index t (1 : Fin 4) * 1 + 1 * 0 = t.val % 16; omega
  | ⟨2, _⟩ => show win1_0.index t (2 : Fin 4) * 4096 + 1 * n.val = n.val; omega
  | ⟨3, _⟩ => show win1_0.index t (3 : Fin 4) * 64 + 1 * d.val = d.val; omega

/-- Its window 1 at point t is the landmark means of t's batch and head. -/
theorem iblk1_1_apply (c : Dev nD) (t : Fin cfg1.N) (l : Fin 64) (d : Fin 64) :
    (iblk1 V c 1 t : Vec Ideal S1x1x64x64 .f32) (ix4 (0 : Fin 1) (0 : Fin 1) l d)
      = (V c main_v17_1 : S4x16x64x64.Idx → Elt Ideal .f32) (ix4 (⟨t.val / 16, by have := t.isLt; have : cfg1.N = 64 := N_1; omega⟩ : Fin 4) (⟨t.val % 16, by omega⟩ : Fin 16) l d) := by
  have hf := idx1 t
  unfold iblk1
  rw [View.read_apply]
  show V c main_v17_1 _ = V c main_v17_1 _
  congr 1
  funext a
  apply Fin.ext
  match a with
  | ⟨0, _⟩ => show win1_1.index t (0 : Fin 4) * 1 + 1 * 0 = t.val / 16; omega
  | ⟨1, _⟩ => show win1_1.index t (1 : Fin 4) * 1 + 1 * 0 = t.val % 16; omega
  | ⟨2, _⟩ => show win1_1.index t (2 : Fin 4) * 64 + 1 * l.val = l.val; omega
  | ⟨3, _⟩ => show win1_1.index t (3 : Fin 4) * 64 + 1 * d.val = d.val; omega

/-- Its window 2 at point t is the iterated pseudo-inverse of t's batch and head. -/
theorem iblk1_2_apply (c : Dev nD) (t : Fin cfg1.N) (l : Fin 64) (l' : Fin 64) :
    (iblk1 V c 2 t : Vec Ideal S1x1x64x64 .f32) (ix4 (0 : Fin 1) (0 : Fin 1) l l')
      = (V c main_v160 : S4x16x64x64.Idx → Elt Ideal .f32) (ix4 (⟨t.val / 16, by have := t.isLt; have : cfg1.N = 64 := N_1; omega⟩ : Fin 4) (⟨t.val % 16, by omega⟩ : Fin 16) l l') := by
  have hf := idx1 t
  unfold iblk1
  rw [View.read_apply]
  show V c main_v160 _ = V c main_v160 _
  congr 1
  funext a
  apply Fin.ext
  match a with
  | ⟨0, _⟩ => show win1_2.index t (0 : Fin 4) * 1 + 1 * 0 = t.val / 16; omega
  | ⟨1, _⟩ => show win1_2.index t (1 : Fin 4) * 1 + 1 * 0 = t.val % 16; omega
  | ⟨2, _⟩ => show win1_2.index t (2 : Fin 4) * 64 + 1 * l.val = l.val; omega
  | ⟨3, _⟩ => show win1_2.index t (3 : Fin 4) * 64 + 1 * l'.val = l'.val; omega

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- An index of a [1, 1, a, b] block by its two free coordinates. -/
theorem eq_ix4_11 {a b : ℕ} (j : (⟨4, ![1, 1, a, b]⟩ : Shape).Idx) : j = ix4 (0 : Fin 1) (0 : Fin 1) (j 2) (j 3) := by
  funext ax
  match ax with
  | ⟨0, _⟩ => exact Fin.ext (by have h0 : (j 0).val < 1 := (j 0).isLt; show (j 0).val = 0; omega)
  | ⟨1, _⟩ => exact Fin.ext (by have h1 : (j 1).val < 1 := (j 1).isLt; show (j 1).val = 0; omega)
  | ⟨2, _⟩ => rfl
  | ⟨3, _⟩ => rfl

end Cert.KernelIdeal.Hand

end
-- ==== Proof.LibLayerLaws.lean ====
/-
  A two-layer mean-aggregation network on the extended reals, read entry by entry.

  One layer sends node features `x`, neighbour sums `s` and a per-node scale to
      elu ( (∑ₖ mean(p,k) · Wl(k,q)) + b(q) + ∑ₖ x(p,k) · Wr(k,q) ),       elu y = y for y > 0, eʸ − 1 otherwise,
  where the mean is written either as the quotient `s(p,k) / c(p)` or as the product `s(p,k) · (1 / c(p))`.
  The two spellings agree whenever `c(p) ≠ 0`: on the extended reals a quotient by a non-zero `c` IS the product with
  `c⁻¹`, and `1 / c = c⁻¹`.  Nothing here distributes a product over a sum, so no entry needs to be finite.

  Also here: the exponential-linear unit in the two spellings a program writes it in, and a matrix product
  `[a, k] × [k, b]` contracting the inner axis, read at `(p, q)` as a sum over `Fin k`.
-/
import Idealize.ShloMosaic.Lib.ValueIdx
import Idealize.ShloMosaic.PureOps.Ideal.Laws
import Idealize.ShloMosaic.PureOps.IdealRules

noncomputable section

open scoped BigOperators

namespace Cert.LayerLaws

open Idealize.ShloMosaic Idealize.ShloMosaic.ValueIdx

/-! ## The exponential-linear unit -/

/-- `elu y = y` above zero, `eʸ − 1` at and below it. -/
def elu1 (y : EReal) : EReal := if 0 < y then y else Ideal.exp y - 1

/-- The binary32 word of `1.0` denotes `1`. -/
theorem one_f32 : Ideal.ofBits .f32 0x3F800000#32 = 1 := IdealRules.sign_bit.ideal_onePat .f32

/-- "select (y > 0) y (exp (min y 0) − 1)" is `elu`: off the positive side `min y 0 = y`. -/
theorem elu_min_form (y : EReal) :
    Scalar.select (Ideal.cmp .ogt y (Ideal.ofBits .f32 0x00000000#32)) y
        (Ideal.exp (min y (Ideal.ofBits .f32 0x00000000#32)) - Ideal.ofBits .f32 0x3F800000#32) = elu1 y := by
  rw [Ideal.ofBits_zero_f32, one_f32]
  unfold elu1 Scalar.select Ideal.cmp
  by_cases h : 0 < y
  · simp [h]
  · have hy : y ≤ 0 := not_lt.mp h
    simp [h, min_eq_left hy]

/-- "select (y > 0) y (1 · expm1 (select (y > 0) 0 y))" is `elu` too: `expm1 z = eᶻ − 1` and `1 · z = z`. -/
theorem elu_expm1_form (y : EReal) :
    Scalar.select (Ideal.cmp .ogt y (Ideal.ofBits .f32 0x00000000#32)) y
        (Ideal.ofBits .f32 0x3F800000#32 *
          (Ideal.exp (Scalar.select (Ideal.cmp .ogt y (Ideal.ofBits .f32 0x00000000#32)) (Ideal.ofBits .f32 0x00000000#32) y) - 1))
      = elu1 y := by
  rw [Ideal.ofBits_zero_f32, one_f32]
  unfold elu1 Scalar.select Ideal.cmp
  by_cases h : 0 < y
  · simp [h]
  · simp [h]

/-! ## Quotient and reciprocal -/

/-- A product with the reciprocal `1 / c` of a non-zero `c` is the quotient by `c`. -/
theorem mul_one_div (a c : EReal) (hc : c ≠ 0) :
    a * Ideal.div (Ideal.ofBits .f32 0x3F800000#32) c = Ideal.div a c := by
  rw [one_f32]
  unfold Ideal.div
  rw [if_neg hc, if_neg hc, one_mul]

/-- A maximum with `1.0` is not zero. -/
theorem max_one_ne_zero (a : EReal) : max a (Ideal.ofBits .f32 0x3F800000#32) ≠ 0 := by
  rw [one_f32]
  exact ne_of_gt (lt_of_lt_of_le zero_lt_one (le_max_right a 1))

/-! ## The layer, entry by entry -/

/-- Arrays of extended reals of shape `[n, k]`. -/
abbrev Mat (n k : ℕ) := (⟨2, ![n, k]⟩ : Shape).Idx → EReal

variable {n : ℕ}

/-- A layer before its activation at `(p, q)`, the mean written as a product with a per-row scale `[n, 1]`
    and the bias as a row `[1, 64]`. -/
def preMul (x s : Mat n 64) (inv : Mat n 1) (Wl : Mat 64 64) (b : Mat 1 64) (Wr : Mat 64 64) (p : Fin n) (q : Fin 64) : EReal :=
  (∑ k : Fin 64, (s (ix2 p k) * inv (ix2 p (0 : Fin 1))) * Wl (ix2 k q)) + b (ix2 (0 : Fin 1) q)
    + ∑ k : Fin 64, x (ix2 p k) * Wr (ix2 k q)

/-- The layer with that spelling, as an array. -/
def layerMul (x s : Mat n 64) (inv : Mat n 1) (Wl : Mat 64 64) (b : Mat 1 64) (Wr : Mat 64 64) : Mat n 64 :=
  fun i => elu1 (preMul x s inv Wl b Wr ⟨(i 0).val, idx2_lt0 i⟩ ⟨(i 1).val, idx2_lt1 i⟩)

theorem layerMul_apply (x s : Mat n 64) (inv : Mat n 1) (Wl : Mat 64 64) (b : Mat 1 64) (Wr : Mat 64 64) (p : Fin n) (q : Fin 64) :
    layerMul x s inv Wl b Wr (ix2 p q) = elu1 (preMul x s inv Wl b Wr p q) := rfl

/-- A final linear map of an `[n, 64]` array at `(p, q)`, its bias a row `[1, 64]`. -/
def linRow (h : Mat n 64) (W : Mat 64 64) (b : Mat 1 64) : Mat n 64 :=
  fun i => (∑ k : Fin 64, h (ix2 (⟨(i 0).val, idx2_lt0 i⟩ : Fin n) k) * W (ix2 k (⟨(i 1).val, idx2_lt1 i⟩ : Fin 64)))
    + b (ix2 (0 : Fin 1) (⟨(i 1).val, idx2_lt1 i⟩ : Fin 64))

theorem linRow_apply (h : Mat n 64) (W : Mat 64 64) (b : Mat 1 64) (p : Fin n) (q : Fin 64) :
    linRow h W b (ix2 p q) = (∑ k : Fin 64, h (ix2 p k) * W (ix2 k q)) + b (ix2 (0 : Fin 1) q) := rfl

/-- A layer before its activation at `(p, q)`, the mean written as a quotient by a per-node count `[n]`
    and the bias as a vector `[64]`. -/
def preDiv (x s : Mat n 64) (c : (⟨1, ![n]⟩ : Shape).Idx → EReal) (Wl : Mat 64 64) (b : (⟨1, ![64]⟩ : Shape).Idx → EReal)
    (Wr : Mat 64 64) (p : Fin n) (q : Fin 64) : EReal :=
  (∑ k : Fin 64, Ideal.div (s (ix2 p k)) (c (ix1 p)) * Wl (ix2 k q)) + b (ix1 q)
    + ∑ k : Fin 64, x (ix2 p k) * Wr (ix2 k q)

/-- The two spellings of a layer agree when the scale is the reciprocal of a count that is nowhere zero and the
    bias row is the bias vector. -/
theorem preMul_eq_preDiv (x s : Mat n 64) (inv : Mat n 1) (c : (⟨1, ![n]⟩ : Shape).Idx → EReal)
    (Wl : Mat 64 64) (b2 : Mat 1 64) (b : (⟨1, ![64]⟩ : Shape).Idx → EReal) (Wr : Mat 64 64) (p : Fin n) (q : Fin 64)
    (hinv : inv (ix2 p (0 : Fin 1)) = Ideal.div (Ideal.ofBits .f32 0x3F800000#32) (c (ix1 p))) (hc : c (ix1 p) ≠ 0)
    (hb : b2 (ix2 (0 : Fin 1) q) = b (ix1 q)) :
    preMul x s inv Wl b2 Wr p q = preDiv x s c Wl b Wr p q := by
  unfold preMul preDiv
  rw [hinv, hb]
  refine congrArg (· + _) (congrArg (· + _) (Finset.sum_congr rfl fun k _ => ?_))
  rw [mul_one_div _ _ hc]

/-! ## A matrix product contracting the inner axis -/

variable {a k b : ℕ} {φ₁ φ₂ : FTy}

/-- The contraction sum of `[a, k] × [k, b]` at entry `(p, q)`, re-indexed by the contracted coordinate — from four
    facts about the dimension record's operand indices, which each use proves by evaluating its record. -/
theorem sum_inner (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    ∑ q : D.contr.Idx, lhs (D.lhsIdx (ix2 p c) q) * rhs (D.rhsIdx (ix2 p c) q)
      = ∑ j : Fin k, lhs (ix2 p j) * rhs (ix2 j c) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 j c := funext fun ax => Fin.ext (by
    match ax with
    | ⟨0, _⟩ => exact (hr0 _ _).trans hk
    | ⟨1, _⟩ => exact hr1 _ _)
  rw [el, er]

end Cert.LayerLaws

end
-- ==== Proof.LibRowLayout.lean ====
/-
  Rows of a matrix read by coordinates: what the layout and reduction operations of a row-wise computation give at
  an index written `ix1 p` / `ix2 p j`.

  • a vector `[a]` cast to a column `[a, 1]` reads, at `(p, u)`, entry `p`;
  • a column `[a, 1]` broadcast to `[a, b]` reads, at `(p, j)`, the column's entry `(p, 0)`;
  • the index obtained from the reduced index `p` by putting coordinate `k` back on axis 1 is `(p, k)`;
  • hence a reduction of an `[a, b]` array over axis 1, read at `p`, runs over the row `j ↦ (p, j)`: a sum for an
    `add` reduction (the kernel's and the host's), a fold of `max` for a `maximumf` one (the kernel's and the host's).
-/
import Idealize.ShloMosaic.Lib.ValueLayout
import Idealize.ShloMosaic.Lib.ValueIdx
import Idealize.ShloMosaic.PureOps.Ideal.Laws
import Idealize.ShloMosaic.PureOps.Reduce

noncomputable section

open scoped BigOperators

namespace Cert.RowLayout

open Idealize.ShloMosaic Idealize.ShloMosaic.ValueIdx

variable {α : Type}

/-! ## The column forms of a cast and a broadcast -/

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, j)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (j : Fin b) :
    broadcastTo ⟨2, ![a, b]⟩ v h (ix2 p j) = v (ix2 p (0 : Fin 1)) := by
  refine broadcastTo_apply v h (ix2 p j) (ix2 p (0 : Fin 1)) fun ax => ?_
  match ax with
  | ⟨0, _⟩ =>
    show p.val = if a = 1 then 0 else p.val
    split
    · have := p.isLt; omega
    · rfl
  | ⟨1, _⟩ => rfl

/-! ## A reduction over axis 1 runs over the row -/

/-- The reduced index `p` with column `k` put back on axis 1 is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The kernel's `add` reduction of an `[a, b]` array over axis 1, read at row `p`: the sum over the row. -/
theorem multiReduction_add_row {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] (⟨1, ![a]⟩ : Shape) src acc h hφ hacc (ix1 p) = ∑ j : Fin b, src (ix2 p j) := by
  refine (Ideal.multiReduction_add_single src acc h hφ hacc (ix1 p)).trans ?_
  exact Finset.sum_congr rfl fun k _ => congrArg src (lift_row h p k)

/-- The kernel's `maximumf` reduction of an `[a, b]` array over axis 1, read at row `p`: the fold of `max` from the
    accumulator's value over the row. -/
theorem multiReduction_maximumf_row {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) src acc h hφ hacc (ix1 p)
      = (Finset.univ : Finset (Fin b)).fold max (Ideal.ofBits .f32 acc) fun j => src (ix2 p j) := by
  refine (Ideal.multiReduction_maximumf_single src acc h hφ hacc (ix1 p)).trans ?_
  have hf : (src ∘ h.lift (ix1 p)) = fun k : Fin b => src (ix2 p k) :=
    funext fun k => congrArg src (lift_row h p k)
  exact congrArg (fun f => Finset.fold max (Ideal.ofBits .f32 acc) f (Finset.univ : Finset (Fin b))) hf

/-- The host's reduce with a maximum body of an `[a, b]` array over axis 1, read at row `p`: the fold of `max` from the
    initial value's element over the row. -/
theorem hostReduce_maximumf_row {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) fun j => x (ix2 p j) := by
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Cert.RowLayout

end
-- ==== Proof.KLayout.lean ====
/-
  Layout and product readers the two kernel bodies need, beyond the library's:
  an [a, b] matrix cast to or from [1, 1, a, b]; a matrix product contracting the second axis of BOTH operands
  (A B^T), read at (p, q) as a sum over the shared axis; both product forms into a zero accumulator.
-/
import Idealize.ShloMosaic.Lib.ValueLayout
import Idealize.ShloMosaic.Lib.ValueIdx
import Idealize.ShloMosaic.Lib.Pipeline.Value
import Idealize.ShloMosaic.PureOps.Ideal.Laws
import proofs.«162784_j87548613362291_2_alg».proof.Proof.LibLayerLaws
import proofs.«162784_j87548613362291_2_alg».proof.Proof.LibRowLayout

noncomputable section

open scoped BigOperators

namespace Cert.KLayout

open Idealize.ShloMosaic Idealize.ShloMosaic.ValueIdx

variable {α : Type}

/-- An [a, b] matrix cast to [1, 1, a, b] reads, at (u, v, i, j), the matrix at (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- A [1, 1, a, b] array cast to [a, b] reads, at (i, j), the array at (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_two, Shape.rowMajor_val_four]
    show ((0 * 1 + 0) * a + i.val) * b + j.val = i.val * b + j.val
    simp only [Nat.zero_mul, Nat.zero_add])

variable {a b k : ℕ} {φ₁ φ₂ : FTy}

/-- A product A B^T ([a, k] with [b, k], both contracting their second axis) read at (p, c): the sum over the shared axis. -/
theorem sum_inner_T (D : DotDims ⟨2, ![a, k]⟩ ⟨2, ![b, k]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    ∑ q : D.contr.Idx, lhs (D.lhsIdx (ix2 p c) q) * rhs (D.rhsIdx (ix2 p c) q)
      = ∑ j : Fin k, lhs (ix2 p j) * rhs (ix2 c j) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 c j := funext fun ax => Fin.ext (by
    match ax with
    | ⟨0, _⟩ => exact hr0 _ _
    | ⟨1, _⟩ => exact (hr1 _ _).trans hk)
  rw [el, er]

/-- A B into a zero accumulator, at (p, c). -/
theorem matmul_zero_apply (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![a, k]⟩ φ₁) (rhs : FVec Ideal ⟨2, ![k, b]⟩ φ₂) (p : Fin a) (c : Fin b) :
    FloatOps.matmul D none lhs rhs (constant ⟨2, ![a, b]⟩ .f32 0x00000000#32) (ix2 p c) = ∑ j : Fin k, lhs (ix2 p j) * rhs (ix2 j c) :=
  (Ideal.matmul_constant_zero_apply D none lhs rhs (ix2 p c)).trans
    (Cert.LayerLaws.sum_inner D hr hs hl0 hl1 hr0 hr1 lhs rhs p c)

/-- A B^T into a zero accumulator, at (p, c). -/
theorem matmulT_zero_apply (D : DotDims ⟨2, ![a, k]⟩ ⟨2, ![b, k]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    FloatOps.matmul D none lhs rhs (constant ⟨2, ![a, b]⟩ .f32 0x00000000#32) (ix2 p c) = ∑ j : Fin k, lhs (ix2 p j) * rhs (ix2 c j) :=
  (Ideal.matmul_constant_zero_apply D none lhs rhs (ix2 p c)).trans
    (sum_inner_T D hr hs hl0 hl1 hr0 hr1 lhs rhs p c)

/-- A row-normalisation: an [a, b] array divided by its row sums (a lane sum from 0, cast to a column, broadcast back),
    read at (p, c). -/
theorem rownorm_apply (E : FVec Ideal ⟨2, ![a, b]⟩ .f32)
    (hred : (⟨2, ![a, b]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (c : Fin b) :
    divf E (broadcastTo ⟨2, ![a, b]⟩ (shapeCast ⟨2, ![a, 1]⟩
        (multiReduction .add [1] (⟨1, ![a]⟩ : Shape) E 0x00000000#32 hred hφ hacc) hc) hb) (ix2 p c)
      = Ideal.div (E (ix2 p c)) (∑ j : Fin b, E (ix2 p j)) := by
  rw [divf_apply, Cert.RowLayout.broadcastTo_a1_ab_apply, Cert.RowLayout.shapeCast_a_a1_apply,
    Cert.RowLayout.multiReduction_add_row]

/-- The exponential of a product A B^T scaled by a float word w, read at (p, c). -/
theorem expScaledT_apply (D : DotDims ⟨2, ![a, k]⟩ ⟨2, ![b, k]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (w : BitVec 32) (p : Fin a) (c : Fin b) :
    exp (mulf (FloatOps.matmul D none lhs rhs (constant ⟨2, ![a, b]⟩ .f32 0x00000000#32))
        (broadcast ⟨2, ![a, b]⟩ (Scalar.ofBits (F := Ideal) .f32 w))) (ix2 p c)
      = Ideal.exp ((∑ j : Fin k, lhs (ix2 p j) * rhs (ix2 c j)) * Ideal.ofBits .f32 w) := by
  show Ideal.exp (FloatOps.matmul D none lhs rhs (constant ⟨2, ![a, b]⟩ .f32 0x00000000#32) (ix2 p c) * Ideal.ofBits .f32 w) = _
  rw [matmulT_zero_apply D hr hs hl0 hl1 hr0 hr1]

end Cert.KLayout

end
-- ==== Proof.KPay0.lean ====
/-
  The first kernel body's three stored values, read entry by entry as functions of its four loaded blocks
  x0 = X^T of the batch [1, 4096, 1024], x1 = W^T of the head [1, 1024, 64], x2 = the head's bias row [1, 1, 64],
  x3 = the averaging matrix [64, 4096]:
    the projection  P(n, d) = sum_e x0(n, e) x1(e, d) + x2(d);
    the landmark means  M(l, d) = sum_k x3(l, k) P(k, d);
    the normalised landmark kernel  exp(s(l, l')) / sum_j exp(s(l, j)),  s(l, j) = (sum_d M(l, d) M(j, d)) * (1/8).
  A change of float format is the identity on the extended reals.
-/
import proofs.«162784_j87548613362291_2_alg».proof.Proof.Gen.KernelIdeal.Skeleton
import proofs.«162784_j87548613362291_2_alg».proof.Proof.KLayout
import proofs.«162784_j87548613362291_2_alg».proof.Proof.Spec

set_option maxRecDepth 16384

noncomputable section

open scoped BigOperators

namespace Cert.KernelIdeal.Hand

open Cert.KernelIdeal Cert.KernelIdeal.Gen
open Idealize.ShloMosaic Idealize.ShloMosaic.ValueIdx Cert.KLayout

/-- The projection of one (batch, head) at (n, d). -/
theorem pay2_apply (x0 : FVec Ideal S1x4096x1024 .bf16) (x1 : FVec Ideal S1x1024x64 .bf16) (x2 : FVec Ideal S1x1x64 .f32)
    (n : Fin 4096) (d : Fin 64) :
    k0_pay2 (F := Ideal) x0 x1 x2 (ix2 n d)
      = (∑ e : Fin 1024, x0 (ix3 (0 : Fin 1) n e) * x1 (ix3 (0 : Fin 1) e d)) + x2 (ix3 (0 : Fin 1) (0 : Fin 1) d) := by
  unfold k0_pay2
  try dsimp only
  rw [addf_apply]
  congr 1
  · refine (matmul_zero_apply dot_S4096x1024_S1024x64_S4096x64_1_0_0_1_n_n rfl rfl (fun _ _ => rfl) (fun _ _ => rfl)
      (fun _ _ => rfl) (fun _ _ => rfl) _ _ n d).trans ?_
    refine Finset.sum_congr rfl fun e _ => ?_
    rw [shapeCast_1ab_ab_apply, shapeCast_1ab_ab_apply]
  · rw [broadcastTo_1b_ab_apply, shapeCast_1ab_ab_apply]

/-- The stored projection at (0, 0, n, d). -/
theorem pay3_apply (x0 : FVec Ideal S1x4096x1024 .bf16) (x1 : FVec Ideal S1x1024x64 .bf16) (x2 : FVec Ideal S1x1x64 .f32)
    (n : Fin 4096) (d : Fin 64) :
    k0_pay3 (F := Ideal) x0 x1 x2 (ix4 (0 : Fin 1) (0 : Fin 1) n d) = k0_pay2 (F := Ideal) x0 x1 x2 (ix2 n d) := by
  unfold k0_pay3
  try dsimp only
  rw [shapeCast_ab_11ab_apply]

/-- The landmark means at (l, d): the averaging matrix times the projection. -/
theorem pay4_apply (x0 : FVec Ideal S1x4096x1024 .bf16) (x1 : FVec Ideal S1x1024x64 .bf16) (x2 : FVec Ideal S1x1x64 .f32)
    (x3 : FVec Ideal S64x4096 .bf16) (l : Fin 64) (d : Fin 64) :
    k0_pay4 (F := Ideal) x0 x1 x2 x3 (ix2 l d) = ∑ k : Fin 4096, x3 (ix2 l k) * k0_pay2 (F := Ideal) x0 x1 x2 (ix2 k d) := by
  unfold k0_pay4
  try dsimp only
  refine (matmul_zero_apply dot_S64x4096_S4096x64_S64x64_1_0_0_1_n_n rfl rfl (fun _ _ => rfl) (fun _ _ => rfl)
    (fun _ _ => rfl) (fun _ _ => rfl) _ _ l d).trans ?_
  refine Finset.sum_congr rfl fun k _ => ?_
  rw [shapeCast_self, truncf_apply]

/-- The stored landmark means at (0, 0, l, d). -/
theorem pay5_apply (x0 : FVec Ideal S1x4096x1024 .bf16) (x1 : FVec Ideal S1x1024x64 .bf16) (x2 : FVec Ideal S1x1x64 .f32)
    (x3 : FVec Ideal S64x4096 .bf16) (l : Fin 64) (d : Fin 64) :
    k0_pay5 (F := Ideal) x0 x1 x2 x3 (ix4 (0 : Fin 1) (0 : Fin 1) l d) = k0_pay4 (F := Ideal) x0 x1 x2 x3 (ix2 l d) := by
  unfold k0_pay5
  try dsimp only
  rw [shapeCast_ab_11ab_apply]

/-- The normalised landmark kernel at (l, l'), over the landmark means M. -/
theorem pay6_apply (x0 : FVec Ideal S1x4096x1024 .bf16) (x1 : FVec Ideal S1x1024x64 .bf16) (x2 : FVec Ideal S1x1x64 .f32)
    (x3 : FVec Ideal S64x4096 .bf16) (l l' : Fin 64) :
    k0_pay6 (F := Ideal) x0 x1 x2 x3 (ix2 l l')
      = Ideal.div (Ideal.exp ((∑ d : Fin 64, k0_pay4 (F := Ideal) x0 x1 x2 x3 (ix2 l d) * k0_pay4 (F := Ideal) x0 x1 x2 x3 (ix2 l' d)) * Cert.Nys.c8th))
          (∑ j : Fin 64, Ideal.exp ((∑ d : Fin 64, k0_pay4 (F := Ideal) x0 x1 x2 x3 (ix2 l d) * k0_pay4 (F := Ideal) x0 x1 x2 x3 (ix2 j d)) * Cert.Nys.c8th)) := by
  unfold k0_pay6
  try dsimp only
  refine (rownorm_apply _ _ _ _ _ _ l l').trans ?_
  have hE : ∀ j : Fin 64, exp (mulf (matmul dot_S64x64_S64x64_S64x64_1_1_0_0_n_n none (truncf .bf16 (k0_pay4 (F := Ideal) x0 x1 x2 x3) bitsLt_bf16_f32)
        (truncf .bf16 (k0_pay4 (F := Ideal) x0 x1 x2 x3) bitsLt_bf16_f32) (constant S64x64 .f32 0x00000000#32))
        (broadcast S64x64 (Scalar.ofBits (F := Ideal) .f32 0x3E000000#32))) (ix2 l j)
      = Ideal.exp ((∑ d : Fin 64, k0_pay4 (F := Ideal) x0 x1 x2 x3 (ix2 l d) * k0_pay4 (F := Ideal) x0 x1 x2 x3 (ix2 j d)) * Cert.Nys.c8th) := fun j =>
    expScaledT_apply dot_S64x64_S64x64_S64x64_1_1_0_0_n_n rfl rfl (fun _ _ => rfl) (fun _ _ => rfl) (fun _ _ => rfl) (fun _ _ => rfl) _ _ _ l j
  rw [hE l']
  exact congrArg _ (Finset.sum_congr rfl fun j _ => hE j)

/-- The stored normalised kernel at (0, 0, l, l'). -/
theorem pay1_apply (v : FVec Ideal S64x64 .f32) (l l' : Fin 64) :
    k0_pay1 (F := Ideal) v (ix4 (0 : Fin 1) (0 : Fin 1) l l') = v (ix2 l l') := by
  unfold k0_pay1
  try dsimp only
  rw [shapeCast_ab_11ab_apply]

end Cert.KernelIdeal.Hand

end
-- ==== Proof.KRegion0.lean ====
/-
  The first pipelined call's three result arrays, from entry contents V whose four operand arrays are X^T, W^T, the bias
  rows and the averaging matrix: the projection q, the landmark means (the averaging matrix times q), and the
  row-normalised exponential of the means' scaled Gram matrix — each written back one (batch, head) block per grid point.
-/
import proofs.«162784_j87548613362291_2_alg».proof.Proof.KBlocks
import proofs.«162784_j87548613362291_2_alg».proof.Proof.KPay0

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- Batch and head of a point of the first call's grid. -/
def pb (t : Fin cfg0.N) : Fin 4 := ⟨t.val / 16, by have := t.isLt; have : cfg0.N = 64 := N_0; omega⟩
def ph (t : Fin cfg0.N) : Fin 16 := ⟨t.val % 16, by omega⟩

variable (V : (c : Dev nD) → (b : Ref sig .tc) → Buf (Elt Ideal) ((c : Thread nD τ).loc b))
variable (c : Dev nD) (X : Cert.Nys.TX) (W : Cert.Nys.TW) (B : Cert.Nys.TB)
  (h0 : ∀ (b : Fin 4) (n : Fin 4096) (e : Fin 1024), (V c main_v1 : S4x4096x1024.Idx → Elt Ideal .bf16) (ix3 b n e) = X (ix3 b e n))
  (h1 : ∀ (h : Fin 16) (e : Fin 1024) (d : Fin 64), (V c main_v3 : S16x1024x64.Idx → Elt Ideal .bf16) (ix3 h e d) = W (ix3 h d e))
  (h2 : ∀ (h : Fin 16) (d : Fin 64), (V c main_v4 : S16x1x64.Idx → Elt Ideal .f32) (ix3 h (0 : Fin 1) d) = B (ix2 h d))
  (h3 : ∀ (l : Fin 64) (k : Fin 4096), (V c main_v16 : S64x4096.Idx → Elt Ideal .bf16) (ix2 l k) = Cert.Nys.avg l k)

include h0 h1 h2 in
/-- The projection's payload at point t is q of t's batch and head. -/
theorem proj_at (t : Fin cfg0.N) (n : Fin 4096) (d : Fin 64) :
    k0_pay2 (iblk0 V c 0 t) (iblk0 V c 1 t) (iblk0 V c 2 t) (ix2 n d) = Cert.Nys.q X W B (pb t) (ph t) n d := by
  rw [pay2_apply]
  unfold Cert.Nys.q
  rw [iblk0_2_apply, h2]
  refine congrArg (· + _) (Finset.sum_congr rfl fun e _ => ?_)
  rw [iblk0_0_apply, iblk0_1_apply, h0, h1]
  rfl

include h0 h1 h2 h3 in
/-- The landmark means' payload at point t. -/
theorem mean_at (t : Fin cfg0.N) (l : Fin 64) (d : Fin 64) :
    k0_pay4 (iblk0 V c 0 t) (iblk0 V c 1 t) (iblk0 V c 2 t) (iblk0 V c 3 t) (ix2 l d) = Cert.Nys.qtMat X W B (pb t) (ph t) l d := by
  rw [pay4_apply]
  unfold Cert.Nys.qtMat
  refine Finset.sum_congr rfl fun k _ => ?_
  rw [iblk0_3_apply, h3, proj_at V c X W B h0 h1 h2]

include h0 h1 h2 h3 in
/-- The normalised landmark kernel's payload at point t. -/
theorem gn_at (t : Fin cfg0.N) (l l' : Fin 64) :
    k0_pay6 (iblk0 V c 0 t) (iblk0 V c 1 t) (iblk0 V c 2 t) (iblk0 V c 3 t) (ix2 l l') = Cert.Nys.gn Cert.Nys.scMul (Cert.Nys.qtMat X W B) (pb t) (ph t) l l' := by
  rw [pay6_apply]
  unfold Cert.Nys.gn Cert.Nys.gam Cert.Nys.scMul
  simp only [mean_at V c X W B h0 h1 h2 h3]

include h0 h1 h2 h3

/-- What point t writes back through window 4 is its block of the projection q. -/
theorem flushed0_4_eq (t : Fin cfg0.N) :
    (dat0 V c).flushed 4 t = ((cfg0.win 4).blk t).view.read (Elt Ideal) (Cert.Nys.ofFn4 (Cert.Nys.q X W B) : S4x16x4096x64.Idx → Elt Ideal .f32) := by
  show (cfg0.win 4).cut (grid0.coords t) ((dat0 V c).after 4 t) = _
  rw [after0_4]
  unfold out0_4
  rw [View.canon_unit_zero hz4]
  simp only [View.ld_unit_zero (S := S1x4096x1024) hz3, View.ld_unit_zero (S := S1x1024x64) hz3, View.ld_unit_zero (S := S1x1x64) hz3, View.ld_unit_zero (S := S64x4096) hz2]
  funext j
  obtain ⟨n, d, rfl⟩ : ∃ (n : Fin 4096) (d : Fin 64), j = ix4 (0 : Fin 1) (0 : Fin 1) n d := ⟨j 2, j 3, eq_ix4_11 j⟩
  have hf := idx0 t
  have he : ((cfg0.win 4).blk t).view.emb (ix4 (0 : Fin 1) (0 : Fin 1) n d) = ix4 (pb t) (ph t) n d := by
    funext a
    apply Fin.ext
    match a with
    | ⟨0, _⟩ => show win0_4.index t (0 : Fin 4) * 1 + 1 * 0 = t.val / 16; omega
    | ⟨1, _⟩ => show win0_4.index t (1 : Fin 4) * 1 + 1 * 0 = t.val % 16; omega
    | ⟨2, _⟩ => show win0_4.index t (2 : Fin 4) * 4096 + 1 * n.val = n.val; omega
    | ⟨3, _⟩ => show win0_4.index t (3 : Fin 4) * 64 + 1 * d.val = d.val; omega
  show k0_pay3 (iblk0 V c 0 t) (iblk0 V c 1 t) (iblk0 V c 2 t) (ix4 (0 : Fin 1) (0 : Fin 1) n d) = (Cert.Nys.ofFn4 (Cert.Nys.q X W B)) (((cfg0.win 4).blk t).view.emb (ix4 (0 : Fin 1) (0 : Fin 1) n d))
  rw [he]
  rw [Cert.Nys.ofFn4_ix4, pay3_apply, proj_at V c X W B h0 h1 h2]

omit h0 h1 h2 h3 in
/-- Every index of window 4's array is in the block of the point of its batch and head. -/
theorem covered0_4 (i : S4x16x4096x64.Idx) :
    ∃ t : Fin cfg0.N, (cfg0.win 4).flush t = true ∧ i ∈ ((cfg0.win 4).blk t).view.set := by
  have hN : cfg0.N = 64 := N_0
  have i0 : (i 0).val < 4 := (i 0).isLt
  have i1 : (i 1).val < 16 := (i 1).isLt
  have i2 : (i 2).val < 4096 := (i 2).isLt
  have i3 : (i 3).val < 64 := (i 3).isLt
  have ht : (i 0).val * 16 + (i 1).val < cfg0.N := by omega
  obtain ⟨t, hv⟩ : ∃ t : Fin cfg0.N, t.val = (i 0).val * 16 + (i 1).val := ⟨⟨_, ht⟩, rfl⟩
  refine ⟨t, flush0_4 t, ?_⟩
  show i ∈ ((View.whole main_v17_0).slice (win0_4.rect t)).set
  rw [View.set_slice_whole, Rect.mem_set_unit]
  have hf := idx0 t
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 4096 ≤ (i 2).val ∧ (i 2).val < win0_4.index t (2 : Fin 4) * 4096 + 4096; omega
  | ⟨3, _⟩ => show win0_4.index t (3 : Fin 4) * 64 ≤ (i 3).val ∧ (i 3).val < win0_4.index t (3 : Fin 4) * 64 + 64; omega

/-- After the first call, window 4's array holds the projection q. -/
theorem arr0_4 : (dat0 V c).arrAt 4 cfg0.N = (Cert.Nys.ofFn4 (Cert.Nys.q X W B) : S4x16x4096x64.Idx → Elt Ideal .f32) :=
  (dat0 V c).arrAt_eq_of_cover 4 _ (fun t _ => flushed0_4_eq V c X W B h0 h1 h2 h3 t) covered0_4

/-- What point t writes back through window 5 is its block of the landmark means. -/
theorem flushed0_5_eq (t : Fin cfg0.N) :
    (dat0 V c).flushed 5 t = ((cfg0.win 5).blk t).view.read (Elt Ideal) (Cert.Nys.ofFn4 (Cert.Nys.qtMat X W B) : S4x16x64x64.Idx → Elt Ideal .f32) := by
  show (cfg0.win 5).cut (grid0.coords t) ((dat0 V c).after 5 t) = _
  rw [after0_5]
  unfold out0_5
  rw [View.canon_unit_zero hz4]
  simp only [View.ld_unit_zero (S := S1x4096x1024) hz3, View.ld_unit_zero (S := S1x1024x64) hz3, View.ld_unit_zero (S := S1x1x64) hz3, View.ld_unit_zero (S := S64x4096) hz2]
  funext j
  obtain ⟨l, d, rfl⟩ : ∃ (l : Fin 64) (d : Fin 64), j = ix4 (0 : Fin 1) (0 : Fin 1) l d := ⟨j 2, j 3, eq_ix4_11 j⟩
  have hf := idx0 t
  have he : ((cfg0.win 5).blk t).view.emb (ix4 (0 : Fin 1) (0 : Fin 1) l d) = ix4 (pb t) (ph t) l d := by
    funext a
    apply Fin.ext
    match a with
    | ⟨0, _⟩ => show win0_5.index t (0 : Fin 4) * 1 + 1 * 0 = t.val / 16; omega
    | ⟨1, _⟩ => show win0_5.index t (1 : Fin 4) * 1 + 1 * 0 = t.val % 16; omega
    | ⟨2, _⟩ => show win0_5.index t (2 : Fin 4) * 64 + 1 * l.val = l.val; omega
    | ⟨3, _⟩ => show win0_5.index t (3 : Fin 4) * 64 + 1 * d.val = d.val; omega
  show k0_pay5 (iblk0 V c 0 t) (iblk0 V c 1 t) (iblk0 V c 2 t) (iblk0 V c 3 t) (ix4 (0 : Fin 1) (0 : Fin 1) l d) = (Cert.Nys.ofFn4 (Cert.Nys.qtMat X W B)) (((cfg0.win 5).blk t).view.emb (ix4 (0 : Fin 1) (0 : Fin 1) l d))
  rw [he]
  rw [Cert.Nys.ofFn4_ix4, pay5_apply, mean_at V c X W B h0 h1 h2 h3]

omit h0 h1 h2 h3 in
/-- Every index of window 5's array is in the block of the point of its batch and head. -/
theorem covered0_5 (i : S4x16x64x64.Idx) :
    ∃ t : Fin cfg0.N, (cfg0.win 5).flush t = true ∧ i ∈ ((cfg0.win 5).blk t).view.set := by
  have hN : cfg0.N = 64 := N_0
  have i0 : (i 0).val < 4 := (i 0).isLt
  have i1 : (i 1).val < 16 := (i 1).isLt
  have i2 : (i 2).val < 64 := (i 2).isLt
  have i3 : (i 3).val < 64 := (i 3).isLt
  have ht : (i 0).val * 16 + (i 1).val < cfg0.N := by omega
  obtain ⟨t, hv⟩ : ∃ t : Fin cfg0.N, t.val = (i 0).val * 16 + (i 1).val := ⟨⟨_, ht⟩, rfl⟩
  refine ⟨t, flush0_5 t, ?_⟩
  show i ∈ ((View.whole main_v17_1).slice (win0_5.rect t)).set
  rw [View.set_slice_whole, Rect.mem_set_unit]
  have hf := idx0 t
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 64 ≤ (i 2).val ∧ (i 2).val < win0_5.index t (2 : Fin 4) * 64 + 64; omega
  | ⟨3, _⟩ => show win0_5.index t (3 : Fin 4) * 64 ≤ (i 3).val ∧ (i 3).val < win0_5.index t (3 : Fin 4) * 64 + 64; omega

/-- After the first call, window 5's array holds the landmark means. -/
theorem arr0_5 : (dat0 V c).arrAt 5 cfg0.N = (Cert.Nys.ofFn4 (Cert.Nys.qtMat X W B) : S4x16x64x64.Idx → Elt Ideal .f32) :=
  (dat0 V c).arrAt_eq_of_cover 5 _ (fun t _ => flushed0_5_eq V c X W B h0 h1 h2 h3 t) covered0_5

/-- What point t writes back through window 6 is its block of the normalised landmark kernel. -/
theorem flushed0_6_eq (t : Fin cfg0.N) :
    (dat0 V c).flushed 6 t = ((cfg0.win 6).blk t).view.read (Elt Ideal) (Cert.Nys.gnArr Cert.Nys.scMul (Cert.Nys.qtMat X W B) : S4x16x64x64.Idx → Elt Ideal .f32) := by
  show (cfg0.win 6).cut (grid0.coords t) ((dat0 V c).after 6 t) = _
  rw [after0_6]
  unfold out0_6
  rw [View.canon_unit_zero hz4]
  simp only [View.ld_unit_zero (S := S1x4096x1024) hz3, View.ld_unit_zero (S := S1x1024x64) hz3, View.ld_unit_zero (S := S1x1x64) hz3, View.ld_unit_zero (S := S64x4096) hz2]
  funext j
  obtain ⟨l, l', rfl⟩ : ∃ (l : Fin 64) (l' : Fin 64), j = ix4 (0 : Fin 1) (0 : Fin 1) l l' := ⟨j 2, j 3, eq_ix4_11 j⟩
  have hf := idx0 t
  have he : ((cfg0.win 6).blk t).view.emb (ix4 (0 : Fin 1) (0 : Fin 1) l l') = ix4 (pb t) (ph t) l l' := by
    funext a
    apply Fin.ext
    match a with
    | ⟨0, _⟩ => show win0_6.index t (0 : Fin 4) * 1 + 1 * 0 = t.val / 16; omega
    | ⟨1, _⟩ => show win0_6.index t (1 : Fin 4) * 1 + 1 * 0 = t.val % 16; omega
    | ⟨2, _⟩ => show win0_6.index t (2 : Fin 4) * 64 + 1 * l.val = l.val; omega
    | ⟨3, _⟩ => show win0_6.index t (3 : Fin 4) * 64 + 1 * l'.val = l'.val; omega
  show k0_pay1 (k0_pay6 (iblk0 V c 0 t) (iblk0 V c 1 t) (iblk0 V c 2 t) (iblk0 V c 3 t)) (ix4 (0 : Fin 1) (0 : Fin 1) l l') = (Cert.Nys.gnArr Cert.Nys.scMul (Cert.Nys.qtMat X W B)) (((cfg0.win 6).blk t).view.emb (ix4 (0 : Fin 1) (0 : Fin 1) l l'))
  rw [he]
  unfold Cert.Nys.gnArr
  rw [Cert.Nys.ofFn4_ix4, pay1_apply, gn_at V c X W B h0 h1 h2 h3]

omit h0 h1 h2 h3 in
/-- Every index of window 6's array is in the block of the point of its batch and head. -/
theorem covered0_6 (i : S4x16x64x64.Idx) :
    ∃ t : Fin cfg0.N, (cfg0.win 6).flush t = true ∧ i ∈ ((cfg0.win 6).blk t).view.set := by
  have hN : cfg0.N = 64 := N_0
  have i0 : (i 0).val < 4 := (i 0).isLt
  have i1 : (i 1).val < 16 := (i 1).isLt
  have i2 : (i 2).val < 64 := (i 2).isLt
  have i3 : (i 3).val < 64 := (i 3).isLt
  have ht : (i 0).val * 16 + (i 1).val < cfg0.N := by omega
  obtain ⟨t, hv⟩ : ∃ t : Fin cfg0.N, t.val = (i 0).val * 16 + (i 1).val := ⟨⟨_, ht⟩, rfl⟩
  refine ⟨t, flush0_6 t, ?_⟩
  show i ∈ ((View.whole main_v17_2).slice (win0_6.rect t)).set
  rw [View.set_slice_whole, Rect.mem_set_unit]
  have hf := idx0 t
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 1 ≤ (i 1).val ∧ (i 1).val < win0_6.index t (1 : Fin 4) * 1 + 1; omega
  | ⟨2, _⟩ => show win0_6.index t (2 : Fin 4) * 64 ≤ (i 2).val ∧ (i 2).val < win0_6.index t (2 : Fin 4) * 64 + 64; omega
  | ⟨3, _⟩ => show win0_6.index t (3 : Fin 4) * 64 ≤ (i 3).val ∧ (i 3).val < win0_6.index t (3 : Fin 4) * 64 + 64; omega

/-- After the first call, window 6's array holds the normalised landmark kernel. -/
theorem arr0_6 : (dat0 V c).arrAt 6 cfg0.N = (Cert.Nys.gnArr Cert.Nys.scMul (Cert.Nys.qtMat X W B) : S4x16x64x64.Idx → Elt Ideal .f32) :=
  (dat0 V c).arrAt_eq_of_cover 6 _ (fun t _ => flushed0_6_eq V c X W B h0 h1 h2 h3 t) covered0_6

end Cert.KernelIdeal.Hand

end
-- ==== Proof.KPay1.lean ====
/-
  The second kernel body's stored value, entry by entry, as a function of its three loaded blocks
  x0 = the projection Q of one (batch, head) [1, 1, 4096, 64], x1 = its landmark means T [1, 1, 64, 64], x2 = the iterated
  pseudo-inverse G [1, 1, 64, 64]:  out(n, d) = sum_l betD(n, l) * (sum_l' G(l, l') * dv(l', d)),
  betD the row-normalised exp((Q T^T) / 8), delD the row-normalised exp((T Q^T) / 8), dv = delD Q.
  A change of float format is the identity on the extended reals.
-/
import proofs.«162784_j87548613362291_2_alg».proof.Proof.Gen.KernelIdeal.Skeleton
import proofs.«162784_j87548613362291_2_alg».proof.Proof.KLayout
import proofs.«162784_j87548613362291_2_alg».proof.Proof.Spec

set_option maxRecDepth 16384

noncomputable section

open scoped BigOperators

namespace Cert.KernelIdeal.Hand

open Cert.KernelIdeal Cert.KernelIdeal.Gen
open Idealize.ShloMosaic Idealize.ShloMosaic.ValueIdx Cert.KLayout

theorem pay_out_apply (x0 : FVec Ideal S1x1x4096x64 .f32) (x1 x2 : FVec Ideal S1x1x64x64 .f32)
    (b : Fin 4) (h : Fin 16) (n : Fin 4096) (d : Fin 64) :
    k1_pay1 (F := Ideal) (k1_pay2 (F := Ideal) x0 x1 x2) (ix4 (0 : Fin 1) (0 : Fin 1) n d)
      = Cert.Nys.outRight Cert.Nys.scMul (fun _ _ n d => x0 (ix4 (0 : Fin 1) (0 : Fin 1) n d))
          (fun _ _ l d => x1 (ix4 (0 : Fin 1) (0 : Fin 1) l d)) (fun _ _ l l' => x2 (ix4 (0 : Fin 1) (0 : Fin 1) l l')) b h n d := by
  unfold k1_pay1
  try dsimp only
  rw [shapeCast_ab_11ab_apply]
  unfold k1_pay2
  try dsimp only
  refine (matmul_zero_apply dot_S4096x64_S64x64_S4096x64_1_0_0_1_n_n rfl rfl (fun _ _ => rfl) (fun _ _ => rfl)
    (fun _ _ => rfl) (fun _ _ => rfl) _ _ n d).trans ?_
  unfold Cert.Nys.outRight
  refine Finset.sum_congr rfl fun l _ => ?_
  rw [truncf_apply, truncf_apply]
  have eB := fun (L : FVec Ideal S4096x64 .bf16) (R : FVec Ideal S64x64 .bf16) (p : Fin 4096) (c : Fin 64) =>
    expScaledT_apply dot_S4096x64_S64x64_S4096x64_1_1_0_0_n_n rfl rfl (fun _ _ => rfl) (fun _ _ => rfl) (fun _ _ => rfl) (fun _ _ => rfl) L R 0x3E000000#32 p c
  have eD := fun (L : FVec Ideal S64x64 .bf16) (R : FVec Ideal S4096x64 .bf16) (p : Fin 64) (c : Fin 4096) =>
    expScaledT_apply dot_S64x64_S4096x64_S64x4096_1_1_0_0_n_n rfl rfl (fun _ _ => rfl) (fun _ _ => rfl) (fun _ _ => rfl) (fun _ _ => rfl) L R 0x3E000000#32 p c
  have mV := fun (L : FVec Ideal S64x4096 .bf16) (R : FVec Ideal S4096x64 .bf16) (p : Fin 64) (c : Fin 64) =>
    matmul_zero_apply dot_S64x4096_S4096x64_S64x64_1_0_0_1_n_n rfl rfl (fun _ _ => rfl) (fun _ _ => rfl) (fun _ _ => rfl) (fun _ _ => rfl) L R p c
  have mG := fun (L : FVec Ideal S64x64 .bf16) (R : FVec Ideal S64x64 .bf16) (p : Fin 64) (c : Fin 64) =>
    matmul_zero_apply dot_S64x64_S64x64_S64x64_1_0_0_1_n_n rfl rfl (fun _ _ => rfl) (fun _ _ => rfl) (fun _ _ => rfl) (fun _ _ => rfl) L R p c
  congr 1
  · refine (rownorm_apply _ _ _ _ _ _ n l).trans ?_
    unfold Cert.Nys.betD Cert.Nys.bet Cert.Nys.scMul
    simp only [eB, truncf_apply, shapeCast_11ab_ab_apply]
  · refine (mG _ _ l d).trans ?_
    refine Finset.sum_congr rfl fun l' _ => ?_
    rw [truncf_apply, truncf_apply, shapeCast_11ab_ab_apply]
    congr 1
    refine (mV _ _ l' d).trans ?_
    unfold Cert.Nys.dv
    refine Finset.sum_congr rfl fun n' _ => ?_
    rw [truncf_apply, truncf_apply, shapeCast_11ab_ab_apply]
    congr 1
    refine (rownorm_apply _ _ _ _ _ _ l' n').trans ?_
    unfold Cert.Nys.delD Cert.Nys.del Cert.Nys.scMul
    simp only [eD, truncf_apply, shapeCast_11ab_ab_apply]

end Cert.KernelIdeal.Hand

end
-- ==== Proof.KRegion1.lean ====
/-
  The second pipelined call's result array, from entry contents V whose three operand arrays are the projection Q, the
  landmark means T and the iterated pseudo-inverse G: the output betD . (G . dv) of every (batch, head), written back one
  block per grid point.
-/
import proofs.«162784_j87548613362291_2_alg».proof.Proof.KBlocks
import proofs.«162784_j87548613362291_2_alg».proof.Proof.KPay1

set_option maxRecDepth 16384

noncomputable section

open scoped BigOperators

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

/-- Batch and head of a point of the second call's grid. -/
def pb1 (t : Fin cfg1.N) : Fin 4 := ⟨t.val / 16, by have := t.isLt; have : cfg1.N = 64 := N_1; omega⟩
def ph1 (t : Fin cfg1.N) : Fin 16 := ⟨t.val % 16, by omega⟩

variable (V : (c : Dev nD) → (b : Ref sig .tc) → Buf (Elt Ideal) ((c : Thread nD τ).loc b))
variable (c : Dev nD) (Q : Fin 4 → Fin 16 → Fin 4096 → Fin 64 → EReal) (T G : Fin 4 → Fin 16 → Fin 64 → Fin 64 → EReal)
  (g0 : ∀ (b : Fin 4) (h : Fin 16) (n : Fin 4096) (d : Fin 64), (V c main_v17_0 : S4x16x4096x64.Idx → Elt Ideal .f32) (ix4 b h n d) = Q b h n d)
  (g1 : ∀ (b : Fin 4) (h : Fin 16) (l d : Fin 64), (V c main_v17_1 : S4x16x64x64.Idx → Elt Ideal .f32) (ix4 b h l d) = T b h l d)
  (g2 : ∀ (b : Fin 4) (h : Fin 16) (l l' : Fin 64), (V c main_v160 : S4x16x64x64.Idx → Elt Ideal .f32) (ix4 b h l l') = G b h l l')

include g0 g1 g2

/-- The body's payload at point t is the output of t's batch and head. -/
theorem out_at (t : Fin cfg1.N) (n : Fin 4096) (d : Fin 64) :
    k1_pay1 (F := Ideal) (k1_pay2 (F := Ideal) (iblk1 V c 0 t) (iblk1 V c 1 t) (iblk1 V c 2 t)) (ix4 (0 : Fin 1) (0 : Fin 1) n d)
      = Cert.Nys.outRight Cert.Nys.scMul Q T G (pb1 t) (ph1 t) n d := by
  rw [pay_out_apply _ _ _ (pb1 t) (ph1 t)]
  simp only [iblk1_0_apply, iblk1_1_apply, iblk1_2_apply, g0, g1, g2]
  rfl

/-- What point t writes back is its block of the output. -/
theorem flushed1_3_eq (t : Fin cfg1.N) :
    (dat1 V c).flushed 3 t = ((cfg1.win 3).blk t).view.read (Elt Ideal)
      (Cert.Nys.ofFn4 (Cert.Nys.outRight Cert.Nys.scMul Q T G) : S4x16x4096x64.Idx → Elt Ideal .f32) := by
  show (cfg1.win 3).cut (grid1.coords t) ((dat1 V c).after 3 t) = _
  rw [after1_3]
  unfold out1_3
  rw [View.canon_unit_zero hz4]
  simp only [View.ld_unit_zero (S := S1x1x4096x64) hz4, View.ld_unit_zero (S := S1x1x64x64) hz4]
  funext j
  obtain ⟨n, d, rfl⟩ : ∃ (n : Fin 4096) (d : Fin 64), j = ix4 (0 : Fin 1) (0 : Fin 1) n d := ⟨j 2, j 3, eq_ix4_11 j⟩
  have hf := idx1 t
  have he : ((cfg1.win 3).blk t).view.emb (ix4 (0 : Fin 1) (0 : Fin 1) n d) = ix4 (pb1 t) (ph1 t) n d := by
    funext a
    apply Fin.ext
    match a with
    | ⟨0, _⟩ => show win1_3.index t (0 : Fin 4) * 1 + 1 * 0 = t.val / 16; omega
    | ⟨1, _⟩ => show win1_3.index t (1 : Fin 4) * 1 + 1 * 0 = t.val % 16; omega
    | ⟨2, _⟩ => show win1_3.index t (2 : Fin 4) * 4096 + 1 * n.val = n.val; omega
    | ⟨3, _⟩ => show win1_3.index t (3 : Fin 4) * 64 + 1 * d.val = d.val; omega
  show k1_pay1 (F := Ideal) (k1_pay2 (F := Ideal) (iblk1 V c 0 t) (iblk1 V c 1 t) (iblk1 V c 2 t)) (ix4 (0 : Fin 1) (0 : Fin 1) n d)
    = (Cert.Nys.ofFn4 (Cert.Nys.outRight Cert.Nys.scMul Q T G)) (((cfg1.win 3).blk t).view.emb (ix4 (0 : Fin 1) (0 : Fin 1) n d))
  rw [he, Cert.Nys.ofFn4_ix4, out_at V c Q T G g0 g1 g2]

omit g0 g1 g2 in
/-- Every index of the result array is in the block of the point of its batch and head. -/
theorem covered1_3 (i : S4x16x4096x64.Idx) :
    ∃ t : Fin cfg1.N, (cfg1.win 3).flush t = true ∧ i ∈ ((cfg1.win 3).blk t).view.set := by
  have hN : cfg1.N = 64 := N_1
  have i0 : (i 0).val < 4 := (i 0).isLt
  have i1 : (i 1).val < 16 := (i 1).isLt
  have i2 : (i 2).val < 4096 := (i 2).isLt
  have i3 : (i 3).val < 64 := (i 3).isLt
  have ht : (i 0).val * 16 + (i 1).val < cfg1.N := by omega
  obtain ⟨t, hv⟩ : ∃ t : Fin cfg1.N, t.val = (i 0).val * 16 + (i 1).val := ⟨⟨_, ht⟩, rfl⟩
  refine ⟨t, flush1_3 t, ?_⟩
  show i ∈ ((View.whole main_v161).slice (win1_3.rect t)).set
  rw [View.set_slice_whole, Rect.mem_set_unit]
  have hf := idx1 t
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 4096 ≤ (i 2).val ∧ (i 2).val < win1_3.index t (2 : Fin 4) * 4096 + 4096; omega
  | ⟨3, _⟩ => show win1_3.index t (3 : Fin 4) * 64 ≤ (i 3).val ∧ (i 3).val < win1_3.index t (3 : Fin 4) * 64 + 64; omega

/-- After the second call the result array holds the output of every batch and head. -/
theorem arr1_3 : (dat1 V c).arrAt 3 cfg1.N
    = (Cert.Nys.ofFn4 (Cert.Nys.outRight Cert.Nys.scMul Q T G) : S4x16x4096x64.Idx → Elt Ideal .f32) :=
  (dat1 V c).arrAt_eq_of_cover 3 _ (fun t _ => flushed1_3_eq V c Q T G g0 g1 g2 t) covered1_3

end Cert.KernelIdeal.Hand

end
-- ==== Proof.KHostArgs.lean ====
/-
  The host operations the kernel's program applies to its three arguments before its first region: the first two
  arguments have their last two axes swapped and their float format narrowed (the identity on extended reals), the
  third gains a unit axis.  Each is read here at an index written by coordinates.
-/
import proofs.«162784_j87548613362291_2_alg».proof.Proof.Gen.KernelIdeal.Frame
import proofs.«162784_j87548613362291_2_alg».proof.Proof.Spec
import Idealize.ShloMosaic.Lib.ValueLayout
import Idealize.ShloMosaic.Lib.IdealHost

set_option maxRecDepth 16384

noncomputable section

namespace Cert.KHost

open Idealize.ShloMosaic Idealize.ShloMosaic.ValueIdx Idealize.ShloMosaic.StableHlo Idealize.ShloMosaic.TcCoe
open Cert.KernelIdeal Cert.KernelIdeal.Facts₀ Cert.KernelIdeal.Facts

variable (m : (ℓ : Loc nD τ sig) → Buf (Elt Ideal) ℓ) (ρ : Dev nD → PrngReg) (c : Dev nD)

/-! ## The two layout operations at an index, over variables of literal types -/

/-- A stack of matrices, each transposed, then narrowed: entry (k, j, i) is the operand's entry (k, i, j). -/
theorem narrow_transpose_apply {p a b : ℕ} (x : FVec Ideal ⟨3, ![p, a, b]⟩ .f32)
    (h : (⟨3, ![p, a, b]⟩ : Shape).Transposes [0, 2, 1] ⟨3, ![p, b, a]⟩) (hb : FTy.bits .bf16 < FTy.bits .f32)
    (k : Fin p) (j : Fin b) (i : Fin a) :
    truncf (F := Ideal) .bf16 (transpose ⟨3, ![p, b, a]⟩ [0, 2, 1] x h) hb (ix3 k j i) = x (ix3 k i j) :=
  transpose_ix3_021_apply x h k j i

/-- An [a, b] array reshaped to [a, 1, b]: entry (p, 0, d) is the operand's entry (p, d). -/
theorem addMiddleUnit_apply {a b : ℕ} (x : FVec Ideal ⟨2, ![a, b]⟩ .f32)
    (h : (⟨2, ![a, b]⟩ : Shape).ShapeCasts ⟨3, ![a, 1, b]⟩) (p : Fin a) (d : Fin b) :
    shapeCast ⟨3, ![a, 1, b]⟩ x h (ix3 p (0 : Fin 1) d) = x (ix2 p d) :=
  shapeCast_apply x h _ _ (by
    rw [Shape.rowMajor_val_two, Shape.rowMajor_val_three]
    show p.val * b + d.val = (p.val * 1 + 0) * b + d.val
    rw [Nat.mul_one, Nat.add_zero])

/-! ## The three buffers as terms -/

/-- The first argument after the host operations, as a term: transposed, then narrowed. -/
theorem v1_term :
    (Gen.W3 (F := Ideal) m ρ c (Proc.devRef .tc main_v1) : FVec Ideal S4x4096x1024 .bf16)
      = truncf (F := Ideal) .bf16 (transpose S4x4096x1024 [0, 2, 1]
          (m ((c.tc : Thread nD τ).loc main_arg0) : FVec Ideal S4x1024x4096 .f32)
          transposes_S4x1024x4096_S4x4096x1024_0_2_1) bitsLt_bf16_f32 := by
  dsimp only [Gen.W3, Gen.W2, Gen.W1, Gen.W0]
  simp only [Gen.hostOps0, Gen.hostOps0_1, Gen.hostOps0_2]
  after_results

/-- The second argument after the host operations, as a term: transposed, then narrowed. -/
theorem v3_term :
    (Gen.W3 (F := Ideal) m ρ c (Proc.devRef .tc main_v3) : FVec Ideal S16x1024x64 .bf16)
      = truncf (F := Ideal) .bf16 (transpose S16x1024x64 [0, 2, 1]
          (m ((c.tc : Thread nD τ).loc main_arg1) : FVec Ideal S16x64x1024 .f32)
          transposes_S16x64x1024_S16x1024x64_0_2_1) bitsLt_bf16_f32 := by
  dsimp only [Gen.W3, Gen.W2, Gen.W1, Gen.W0]
  simp only [Gen.hostOps0, Gen.hostOps0_1, Gen.hostOps0_2]
  after_results

/-- The third argument after the host operations, as a term: reshaped from [16, 64] to [16, 1, 64]. -/
theorem v4_term :
    (Gen.W3 (F := Ideal) m ρ c (Proc.devRef .tc main_v4) : FVec Ideal S16x1x64 .f32)
      = shapeCast S16x1x64 (m ((c.tc : Thread nD τ).loc main_arg2) : FVec Ideal S16x64 .f32)
          shapeCasts_S16x64_S16x1x64 := by
  dsimp only [Gen.W3, Gen.W2, Gen.W1, Gen.W0]
  simp only [Gen.hostOps0, Gen.hostOps0_1, Gen.hostOps0_2]
  after_results
  rfl

/-! ## The three buffers at an index -/

/-- Entry (b, n, e) of the transposed first argument is entry (b, e, n) of the argument. -/
theorem W3_main_v1 (b : Fin 4) (n : Fin 4096) (e : Fin 1024) :
    Gen.W3 (F := Ideal) m ρ c (Proc.devRef .tc main_v1) (ix3 b n e)
      = m ((c.tc : Thread nD τ).loc main_arg0) (ix3 b e n) :=
  (congrFun (v1_term m ρ c) (ix3 b n e)).trans
    (narrow_transpose_apply (p := 4) (a := 1024) (b := 4096) (m ((c.tc : Thread nD τ).loc main_arg0))
      transposes_S4x1024x4096_S4x4096x1024_0_2_1 bitsLt_bf16_f32 b n e)

/-- Entry (h, e, d) of the transposed second argument is entry (h, d, e) of the argument. -/
theorem W3_main_v3 (h : Fin 16) (e : Fin 1024) (d : Fin 64) :
    Gen.W3 (F := Ideal) m ρ c (Proc.devRef .tc main_v3) (ix3 h e d)
      = m ((c.tc : Thread nD τ).loc main_arg1) (ix3 h d e) :=
  (congrFun (v3_term m ρ c) (ix3 h e d)).trans
    (narrow_transpose_apply (p := 16) (a := 64) (b := 1024) (m ((c.tc : Thread nD τ).loc main_arg1))
      transposes_S16x64x1024_S16x1024x64_0_2_1 bitsLt_bf16_f32 h e d)

/-- Entry (h, 0, d) of the reshaped third argument is entry (h, d) of the argument. -/
theorem W3_main_v4 (h : Fin 16) (d : Fin 64) :
    Gen.W3 (F := Ideal) m ρ c (Proc.devRef .tc main_v4) (ix3 h (0 : Fin 1) d)
      = m ((c.tc : Thread nD τ).loc main_arg2) (ix2 h d) :=
  (congrFun (v4_term m ρ c) (ix3 h (0 : Fin 1) d)).trans
    (addMiddleUnit_apply (a := 16) (b := 64) (m ((c.tc : Thread nD τ).loc main_arg2))
      shapeCasts_S16x64_S16x1x64 h d)

end Cert.KHost

end
-- ==== Proof.KHostFloor.lean ====
/-
  Floor division by 64 on 32-bit words, as it is lowered for the host: the quotient rounded toward zero, less one
  when the operands' signs differ and the remainder is not zero.  On the words of the numbers 0 … 4095 it is the
  number's quotient by 64: the signs differ only at 0, where the remainder is zero.
-/
import Idealize.ShloMosaic.PureOps.Vector

namespace Cert.KHost

open Idealize.ShloMosaic

/-- The sign word of a 32-bit word: 0, −1 or 1. -/
def sgn (x : BitVec 32) : BitVec 32 := if x = 0 then 0 else if x.msb then -1 else 1

/-- Floor division by 64 as lowered. -/
def fdWord (x : BitVec 32) : BitVec 32 :=
  Scalar.select
    (IntOp.andi (IntOp.cmpi .ne (sgn x) (sgn 64#32)) (IntOp.cmpi .ne (IntOp.remsi .host x 64#32) 0#32))
    (IntOp.subi (IntOp.divsi .host x 64#32) 1#32)
    (IntOp.divsi .host x 64#32)

/-- On the word of 64 a + b with a, b below 64 it is the word of a (checked case by case: 64 times 64 cases). -/
theorem fdWord_block : ∀ a b : Fin 64, fdWord (BitVec.ofNat 32 (a.val * 64 + b.val)) = BitVec.ofNat 32 a.val := by
  decide +kernel

/-- On the word of k below 4096 it is the word of k / 64. -/
theorem fdWord_ofNat (k : Fin 4096) : fdWord (BitVec.ofNat 32 k.val) = BitVec.ofNat 32 (k.val / 64) := by
  have h := fdWord_block ⟨k.val / 64, by omega⟩ ⟨k.val % 64, Nat.mod_lt _ (by decide)⟩
  have e : k.val / 64 * 64 + k.val % 64 = k.val := Nat.div_add_mod' k.val 64
  simp only [e] at h
  exact h

end Cert.KHost
-- ==== Proof.KHostAvg.lean ====
/-
  The landmark-averaging matrix as the kernel's program builds it on the host: position k's group number is the
  floor division of k by 64 on 32-bit words, entry (l, k) compares it with l, turns the comparison's bit into a
  float and divides by 64.  Read at an index, entry (l, k) is (1 if k / 64 = l else 0) / 64.
-/
import proofs.«162784_j87548613362291_2_alg».proof.Proof.Gen.KernelIdeal.Frame
import proofs.«162784_j87548613362291_2_alg».proof.Proof.Spec
import proofs.«162784_j87548613362291_2_alg».proof.Proof.KHostFloor
import Idealize.ShloMosaic.Lib.ValueLayout
import Idealize.ShloMosaic.Lib.IdealHost

set_option maxRecDepth 16384

noncomputable section

namespace Cert.KHost

open Idealize.ShloMosaic Idealize.ShloMosaic.ValueIdx Idealize.ShloMosaic.StableHlo Idealize.ShloMosaic.TcCoe
open Cert.KernelIdeal Cert.KernelIdeal.Facts₀ Cert.KernelIdeal.Facts

variable (m : (ℓ : Loc nD τ sig) → Buf (Elt Ideal) ℓ) (ρ : Dev nD → PrngReg) (c : Dev nD)

/-! ## The two stretches as functions of what they read -/

/-- The group numbers: floor division of the position words `i` by the scalar `cc`, as lowered. -/
def fdOf (i : IVec S4096 32) (cc : IVec S_ 32) : IVec S4096 32 :=
  select
    (andi (cmpi .ne (signi i) (broadcastInDim S4096 ![] bcast_S_S4096 (signi cc)))
      (cmpi .ne (Host.remsi i (broadcastInDim S4096 ![] bcast_S_S4096 cc))
        (broadcastInDim S4096 ![] bcast_S_S4096 (constantI S_ 32 0#32))))
    (subi (Host.divsi i (broadcastInDim S4096 ![] bcast_S_S4096 cc))
      (broadcastInDim S4096 ![] bcast_S_S4096 (constantI S_ 32 1#32)))
    (Host.divsi i (broadcastInDim S4096 ![] bcast_S_S4096 cc))

/-- The matrix from the group numbers `g`: entry (l, k) is the bit of "g k = l" as a float, divided by 64. -/
def avgOf (g : IVec S4096 32) : FVec Ideal S64x4096 .bf16 :=
  truncf (F := Ideal) .bf16
    (Host.divf (F := Ideal)
      (uitofp (F := Ideal) .f32
        (cmpi .eq
          (broadcastInDim S64x4096 ![0, 1] bcast_S1x4096_S64x4096_0_1 (broadcastInDim S1x4096 ![1] bcast_S4096_S1x4096_1 g))
          (broadcastInDim S64x4096 ![0, 1] bcast_S64x1_S64x4096_0_1
            (broadcastInDim S64x1 ![0] bcast_S64_S64x1_0 (iotaInDim S64 32 0)))))
      (broadcastInDim S64x4096 ![] bcast_S_S64x4096 (constant (F := Ideal) S_ .f32 0x42800000#32)))
    bitsLt_bf16_f32

/-- The last host stretch before the first region leaves, in the matrix's buffer, `avgOf` of the group numbers'
    buffer. -/
theorem after2_v16 (V : Valuation τ sig (Elt Ideal)) :
    (StableHlo.after (Gen.hostOps0_2 (F := Ideal)) V (Proc.devRef .tc main_v16) : FVec Ideal S64x4096 .bf16)
      = avgOf (V (Proc.devRef .tc main_v6)) := by
  simp only [Gen.hostOps0_2]
  after_results
  rfl

/-- The floor-division stretch leaves, in the group numbers' buffer, `fdOf` of the positions' and the divisor's
    buffers. -/
theorem after1_v6 (V : Valuation τ sig (Elt Ideal)) :
    (StableHlo.after (Gen.hostOps0_1 (F := Ideal)) V (Proc.devRef .tc main_v6) : IVec S4096 32)
      = fdOf (V (Proc.devRef .tc main_v5)) (V (Proc.devRef .tc main_c)) := by
  simp only [Gen.hostOps0_1]
  after_results
  rfl

/-- The first stretch leaves the position words 0 … 4095 … -/
theorem after0_v5 (V : Valuation τ sig (Elt Ideal)) :
    (StableHlo.after (Gen.hostOps0 (F := Ideal)) V (Proc.devRef .tc main_v5) : IVec S4096 32) = iotaInDim S4096 32 0 := by
  simp only [Gen.hostOps0]
  after_results

/-- … and the word 64. -/
theorem after0_c (V : Valuation τ sig (Elt Ideal)) :
    (StableHlo.after (Gen.hostOps0 (F := Ideal)) V (Proc.devRef .tc main_c) : IVec S_ 32) = constantI S_ 32 64#32 := by
  simp only [Gen.hostOps0]
  after_results

/-! ## At an index -/

/-- The group number of position k is the word of k / 64. -/
theorem fdOf_apply (k : Fin 4096) :
    fdOf (iotaInDim S4096 32 0) (constantI S_ 32 64#32) (ix1 k) = BitVec.ofNat 32 (k.val / 64) := by
  have hb : ∀ x : IVec S_ 32, broadcastInDim S4096 ![] bcast_S_S4096 x (ix1 k) = x ix0 :=
    fun x => broadcastInDim_scalar_apply _ x _
  refine Eq.trans ?_ (fdWord_ofNat k)
  show Scalar.select
      (IntOp.andi
        (IntOp.cmpi .ne (signi (iotaInDim S4096 32 0) (ix1 k))
          (broadcastInDim S4096 ![] bcast_S_S4096 (signi (constantI S_ 32 64#32)) (ix1 k)))
        (IntOp.cmpi .ne
          (IntOp.remsi .host (iotaInDim S4096 32 0 (ix1 k))
            (broadcastInDim S4096 ![] bcast_S_S4096 (constantI S_ 32 64#32) (ix1 k)))
          (broadcastInDim S4096 ![] bcast_S_S4096 (constantI S_ 32 0#32) (ix1 k))))
      (IntOp.subi
        (IntOp.divsi .host (iotaInDim S4096 32 0 (ix1 k))
          (broadcastInDim S4096 ![] bcast_S_S4096 (constantI S_ 32 64#32) (ix1 k)))
        (broadcastInDim S4096 ![] bcast_S_S4096 (constantI S_ 32 1#32) (ix1 k)))
      (IntOp.divsi .host (iotaInDim S4096 32 0 (ix1 k))
        (broadcastInDim S4096 ![] bcast_S_S4096 (constantI S_ 32 64#32) (ix1 k))) = _
  simp only [hb]
  rfl

/-- Two numbers below 2^32 have equal words exactly when they are equal; the comparison's bit as a float. -/
theorem eq_word_real (a b : ℕ) (ha : a < 2 ^ 32) (hb : b < 2 ^ 32) :
    ((((IntOp.cmpi .eq (BitVec.ofNat 32 a) (BitVec.ofNat 32 b)).toNat : ℕ) : ℝ) : EReal) = if a = b then 1 else 0 := by
  have hne : a ≠ b → BitVec.ofNat 32 a ≠ BitVec.ofNat 32 b := fun h e => h (by
    have := congrArg BitVec.toNat e
    simp only [BitVec.toNat_ofNat] at this
    omega)
  by_cases h : a = b
  · subst h; simp [IntOp.cmpi]
  · simp [IntOp.cmpi, h, hne h]

/-- Entry (l, k) of the matrix built from group numbers `g`. -/
theorem avgOf_apply (g : IVec S4096 32) (l : Fin 64) (k : Fin 4096) :
    avgOf g (ix2 l k)
      = Ideal.div ((((IntOp.cmpi .eq (g (ix1 k)) (BitVec.ofNat 32 l.val)).toNat : ℕ) : ℝ) : EReal) Cert.Nys.c64 := by
  have e1 : broadcastInDim S64x4096 ![0, 1] bcast_S1x4096_S64x4096_0_1
      (broadcastInDim S1x4096 ![1] bcast_S4096_S1x4096_1 g) (ix2 l k) = g (ix1 k) :=
    (broadcastInDim_apply _ _ _ (ix2 l k) (ix2 (0 : Fin 1) k)
        (fun a => match a with | ⟨0, _⟩ => rfl | ⟨1, _⟩ => rfl)).trans
      (broadcastInDim_apply _ _ _ (ix2 (0 : Fin 1) k) (ix1 k) (fun a => match a with | ⟨0, _⟩ => rfl))
  have e2 : broadcastInDim S64x4096 ![0, 1] bcast_S64x1_S64x4096_0_1
      (broadcastInDim S64x1 ![0] bcast_S64_S64x1_0 (iotaInDim S64 32 0)) (ix2 l k) = BitVec.ofNat 32 l.val :=
    (broadcastInDim_apply _ _ _ (ix2 l k) (ix2 l (0 : Fin 1))
        (fun a => match a with | ⟨0, _⟩ => rfl | ⟨1, _⟩ => rfl)).trans
      ((broadcastInDim_apply _ _ _ (ix2 l (0 : Fin 1)) (ix1 l) (fun a => match a with | ⟨0, _⟩ => rfl)).trans rfl)
  have e3 : broadcastInDim S64x4096 ![] bcast_S_S64x4096 (constant (F := Ideal) S_ .f32 0x42800000#32) (ix2 l k)
      = Cert.Nys.c64 := (broadcastInDim_scalar_apply _ _ _).trans rfl
  show Ideal.div
      ((((IntOp.cmpi .eq
          (broadcastInDim S64x4096 ![0, 1] bcast_S1x4096_S64x4096_0_1
            (broadcastInDim S1x4096 ![1] bcast_S4096_S1x4096_1 g) (ix2 l k))
          (broadcastInDim S64x4096 ![0, 1] bcast_S64x1_S64x4096_0_1
            (broadcastInDim S64x1 ![0] bcast_S64_S64x1_0 (iotaInDim S64 32 0)) (ix2 l k))).toNat : ℕ) : ℝ) : EReal)
      (broadcastInDim S64x4096 ![] bcast_S_S64x4096 (constant (F := Ideal) S_ .f32 0x42800000#32) (ix2 l k)) = _
  rw [e1, e2, e3]

/-! ## The buffer the first region reads -/

/-- Entry (l, k) of the averaging matrix's buffer when the first region is entered: 1/64 on landmark l's run of 64
    positions, 0 elsewhere. -/
theorem W3_main_v16 (l : Fin 64) (k : Fin 4096) :
    Gen.W3 (F := Ideal) m ρ c (Proc.devRef .tc main_v16) (ix2 l k) = Cert.Nys.avg l k := by
  have hg : (Gen.W2 (F := Ideal) m ρ c (Proc.devRef .tc main_v6) : IVec S4096 32)
      = fdOf (iotaInDim S4096 32 0) (constantI S_ 32 64#32) := by
    refine (after1_v6 (Gen.W1 (F := Ideal) m ρ c)).trans ?_
    rw [show (Gen.W1 (F := Ideal) m ρ c (Proc.devRef .tc main_v5) : IVec S4096 32) = _ from after0_v5 (Gen.W0 m ρ c),
      show (Gen.W1 (F := Ideal) m ρ c (Proc.devRef .tc main_c) : IVec S_ 32) = _ from after0_c (Gen.W0 m ρ c)]
  refine (congrFun (after2_v16 (Gen.W2 (F := Ideal) m ρ c)) (ix2 l k)).trans ?_
  rw [avgOf_apply, hg, fdOf_apply, eq_word_real _ _ (by have := k.isLt; omega) (by have := l.isLt; omega)]
  rfl

end Cert.KHost

end
-- ==== Proof.KHost.lean ====
/-
  What the kernel's program holds, when its first region is entered, in the four buffers the host wrote from the
  arguments and from constants: the two transposed arguments, the reshaped third argument and the
  landmark-averaging matrix.  The statements are in the two modules imported here.
-/
import proofs.«162784_j87548613362291_2_alg».proof.Proof.KHostArgs
import proofs.«162784_j87548613362291_2_alg».proof.Proof.KHostAvg
-- ==== Proof.NSKernel0.lean ====
/-
  The kernel program's host operations between its two custom calls, part 1 of 8: the iteration's pieces written over
  the kernel program's shape and dimension records (the same bodies as the reference program's), and the first
  23 operations: they build the identity matrix and the starting point of the iteration from the first custom
  call's third result.
-/
import proofs.«162784_j87548613362291_2_alg».proof.Proof.Gen.KernelIdeal.Launch
import Idealize.ShloMosaic.Lib.StableHlo.Run
import Idealize.ShloMosaic.Lib.Pipeline.Frame

noncomputable section

namespace Cert.NS

open Idealize.ShloMosaic Idealize.ShloMosaic.TcCoe Idealize.SL.Sem Idealize.ShloMosaic.StableHlo Cert.KernelIdeal Cert.KernelIdeal.Gen

variable {F : FTy → Type} [FloatOps F]

/-- The 64 × 64 identity matrix, as the kernel program's host operations build it. -/
def kEye : FVec F S64x64 .f32 :=
  uitofp .f32 (cmpi .eq (addi (iotaInDim S64x64 32 0) (broadcastInDim S64x64 ![] bcast_S_S64x64 (constantI S_ 32 0#32))) (iotaInDim S64x64 32 1))

/-- The starting point: K's transpose over the product of the two norms' maxima. -/
def kStart (K : FVec F S4x16x64x64 .f32) : FVec F S4x16x64x64 .f32 :=
  mulf (broadcastInDim S4x16x64x64 ![] bcast_S_S4x16x64x64 (Host.divf (constant S_ .f32 0x3F800000#32) (mulf (Host.reduce FloatOps.maximumf (Host.reduceAdd (Host.absf K) (constant S_ .f32 0x00000000#32) reducesTo_S4x16x64x64_S4x16x64_d2 h_S_) (constant S_ .f32 0xFF800000#32) reducesTo_S4x16x64_S_d0_1_2 h_S_) (Host.reduce FloatOps.maximumf (Host.reduceAdd (Host.absf K) (constant S_ .f32 0x00000000#32) reducesTo_S4x16x64x64_S4x16x64_d3 h_S_) (constant S_ .f32 0xFF800000#32) reducesTo_S4x16x64_S_d0_1_2 h_S_)))) (transpose S4x16x64x64 [0, 1, 3, 2] K transposes_S4x16x64x64_S4x16x64x64_0_1_3_2)

/-- K V, per batch and head. -/
def kKv (K V : FVec F S4x16x64x64 .f32) : FVec F S4x16x64x64 .f32 :=
  Host.dotGeneral dot_S4x16x64x64_S4x16x64x64_S4x16x64x64_3_2_2_3_01_01 none K V

/-- One step of the iteration, over a given matrix E in the identity's place. -/
def kStepE (E : FVec F S64x64 .f32) (K V : FVec F S4x16x64x64 .f32) : FVec F S4x16x64x64 .f32 :=
  Host.dotGeneral dot_S4x16x64x64_S4x16x64x64_S4x16x64x64_3_2_2_3_01_01 none (mulf (broadcastInDim S4x16x64x64 ![] bcast_S_S4x16x64x64 (constant S_ .f32 0x3E800000#32)) V) (subf (broadcastInDim S4x16x64x64 ![0, 1, 2, 3] bcast_S1x1x64x64_S4x16x64x64_0_1_2_3 (broadcastInDim S1x1x64x64 ![2, 3] bcast_S64x64_S1x1x64x64_2_3 (mulf (broadcastInDim S64x64 ![] bcast_S_S64x64 (constant S_ .f32 0x41500000#32)) E))) (Host.dotGeneral dot_S4x16x64x64_S4x16x64x64_S4x16x64x64_3_2_2_3_01_01 none (kKv K V) (subf (broadcastInDim S4x16x64x64 ![0, 1, 2, 3] bcast_S1x1x64x64_S4x16x64x64_0_1_2_3 (broadcastInDim S1x1x64x64 ![2, 3] bcast_S64x64_S1x1x64x64_2_3 (mulf (broadcastInDim S64x64 ![] bcast_S_S64x64 (constant S_ .f32 0x41700000#32)) E))) (Host.dotGeneral dot_S4x16x64x64_S4x16x64x64_S4x16x64x64_3_2_2_3_01_01 none (kKv K V) (subf (broadcastInDim S4x16x64x64 ![0, 1, 2, 3] bcast_S1x1x64x64_S4x16x64x64_0_1_2_3 (broadcastInDim S1x1x64x64 ![2, 3] bcast_S64x64_S1x1x64x64_2_3 (mulf (broadcastInDim S64x64 ![] bcast_S_S64x64 (constant S_ .f32 0x40E00000#32)) E))) (kKv K V))))))

/-- Operations 1 … 23 of the 173 host operations between the two custom calls, in order. -/
abbrev w0 : List (HloOp τ sig (Elt F)) :=
  [ StableHlo.nullary main_v18 (iotaInDim S64x64 32 0),
    StableHlo.nullary main_v19 (iotaInDim S64x64 32 1),
    StableHlo.nullary main_c_0 (constantI S_ 32 0#32),
    StableHlo.unary main_c_0 main_v20 (broadcastInDim S64x64 ![] bcast_S_S64x64 : (⟨S_, .i32⟩ : BufTy).Contents (Elt F) → (⟨S64x64, .i32⟩ : BufTy).Contents (Elt F)),
    StableHlo.binary main_v18 main_v20 main_v21 (addi : (⟨S64x64, .i32⟩ : BufTy).Contents (Elt F) → (⟨S64x64, .i32⟩ : BufTy).Contents (Elt F) → (⟨S64x64, .i32⟩ : BufTy).Contents (Elt F)),
    StableHlo.binary main_v21 main_v19 main_v22 (cmpi .eq : (⟨S64x64, .i32⟩ : BufTy).Contents (Elt F) → (⟨S64x64, .i32⟩ : BufTy).Contents (Elt F) → (⟨S64x64, .i1⟩ : BufTy).Contents (Elt F)),
    StableHlo.unary main_v22 main_v23 (uitofp .f32 : (⟨S64x64, .i1⟩ : BufTy).Contents (Elt F) → (⟨S64x64, .f32⟩ : BufTy).Contents (Elt F)),
    StableHlo.unary main_v17_2 main_v24 (Host.absf : (⟨S4x16x64x64, .f32⟩ : BufTy).Contents (Elt F) → (⟨S4x16x64x64, .f32⟩ : BufTy).Contents (Elt F)),
    StableHlo.nullary main_cst_1 (constant S_ .f32 0x00000000#32),
    StableHlo.binary main_v24 main_cst_1 main_v25 ((fun x v => Host.reduceAdd x v reducesTo_S4x16x64x64_S4x16x64_d2 h_S_) : (⟨S4x16x64x64, .f32⟩ : BufTy).Contents (Elt F) → (⟨S_, .f32⟩ : BufTy).Contents (Elt F) → (⟨S4x16x64, .f32⟩ : BufTy).Contents (Elt F)),
    StableHlo.nullary main_cst_2 (constant S_ .f32 0xFF800000#32),
    StableHlo.binary main_v25 main_cst_2 main_v26 ((fun x v => Host.reduce FloatOps.maximumf x v reducesTo_S4x16x64_S_d0_1_2 h_S_) : (⟨S4x16x64, .f32⟩ : BufTy).Contents (Elt F) → (⟨S_, .f32⟩ : BufTy).Contents (Elt F) → (⟨S_, .f32⟩ : BufTy).Contents (Elt F)),
    StableHlo.unary main_v17_2 main_v27 (Host.absf : (⟨S4x16x64x64, .f32⟩ : BufTy).Contents (Elt F) → (⟨S4x16x64x64, .f32⟩ : BufTy).Contents (Elt F)),
    StableHlo.nullary main_cst_3 (constant S_ .f32 0x00000000#32),
    StableHlo.binary main_v27 main_cst_3 main_v28 ((fun x v => Host.reduceAdd x v reducesTo_S4x16x64x64_S4x16x64_d3 h_S_) : (⟨S4x16x64x64, .f32⟩ : BufTy).Contents (Elt F) → (⟨S_, .f32⟩ : BufTy).Contents (Elt F) → (⟨S4x16x64, .f32⟩ : BufTy).Contents (Elt F)),
    StableHlo.nullary main_cst_4 (constant S_ .f32 0xFF800000#32),
    StableHlo.binary main_v28 main_cst_4 main_v29 ((fun x v => Host.reduce FloatOps.maximumf x v reducesTo_S4x16x64_S_d0_1_2 h_S_) : (⟨S4x16x64, .f32⟩ : BufTy).Contents (Elt F) → (⟨S_, .f32⟩ : BufTy).Contents (Elt F) → (⟨S_, .f32⟩ : BufTy).Contents (Elt F)),
    StableHlo.binary main_v26 main_v29 main_v30 (mulf : (⟨S_, .f32⟩ : BufTy).Contents (Elt F) → (⟨S_, .f32⟩ : BufTy).Contents (Elt F) → (⟨S_, .f32⟩ : BufTy).Contents (Elt F)),
    StableHlo.nullary main_cst_5 (constant S_ .f32 0x3F800000#32),
    StableHlo.binary main_cst_5 main_v30 main_v31 (Host.divf : (⟨S_, .f32⟩ : BufTy).Contents (Elt F) → (⟨S_, .f32⟩ : BufTy).Contents (Elt F) → (⟨S_, .f32⟩ : BufTy).Contents (Elt F)),
    StableHlo.unary main_v17_2 main_v32 ((transpose S4x16x64x64 [0, 1, 3, 2] · transposes_S4x16x64x64_S4x16x64x64_0_1_3_2) : (⟨S4x16x64x64, .f32⟩ : BufTy).Contents (Elt F) → (⟨S4x16x64x64, .f32⟩ : BufTy).Contents (Elt F)),
    StableHlo.unary main_v31 main_v33 (broadcastInDim S4x16x64x64 ![] bcast_S_S4x16x64x64 : (⟨S_, .f32⟩ : BufTy).Contents (Elt F) → (⟨S4x16x64x64, .f32⟩ : BufTy).Contents (Elt F)),
    StableHlo.binary main_v33 main_v32 main_v34 (mulf : (⟨S4x16x64x64, .f32⟩ : BufTy).Contents (Elt F) → (⟨S4x16x64x64, .f32⟩ : BufTy).Contents (Elt F) → (⟨S4x16x64x64, .f32⟩ : BufTy).Contents (Elt F)) ]
/-- The buffers these operations write. -/
abbrev w0_W : List (Ref sig .tc) := [main_v18, main_v19, main_c_0, main_v20, main_v21, main_v22, main_v23, main_v24, main_cst_1, main_v25, main_cst_2, main_v26, main_v27, main_cst_3, main_v28, main_cst_4, main_v29, main_v30, main_cst_5, main_v31, main_v32, main_v33, main_v34]
set_option maxRecDepth 8192 in
theorem w0_writes : (w0 : List (HloOp τ sig (Elt F))).Forall fun op => op.writes ⊆ (w0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_⟩ <;>
    (simp only [nullary_writes, unary_writes, binary_writes, Finset.singleton_subset_iff, List.mem_toFinset]; exact List.mem_map_of_mem (by decide))
/-- A buffer these operations do not write keeps its contents through them. -/
theorem w0_keep (W : Valuation τ sig (Elt F)) (r : Ref sig .tc) (h : r ∉ w0_W) :
    after w0 W (Proc.devRef .tc r) = W (Proc.devRef .tc r) :=
  after_of_writes_sub w0 _ w0_writes h

set_option maxRecDepth 8192 in
set_option maxHeartbeats 2000000 in
theorem w0_v23 (W : Valuation τ sig (Elt F)) : after w0 W (Proc.devRef .tc main_v23) = kEye := by
  simp only [w0]
  after_results_simp
  rfl

set_option maxRecDepth 8192 in
set_option maxHeartbeats 2000000 in
theorem w0_v34 (W : Valuation τ sig (Elt F)) : after w0 W (Proc.devRef .tc main_v34) = kStart (W (Proc.devRef .tc main_v17_2)) := by
  simp only [w0]
  after_results_simp
  rfl

end Cert.NS

end
-- ==== Proof.NSKernel1.lean ====
/-
  The kernel program's host operations between its two custom calls, part 2 of 8: operations 24 … 48,
  one step of the iteration (from the iterate in %v34 to the next in %v55).
-/
import proofs.«162784_j87548613362291_2_alg».proof.Proof.NSKernel0

noncomputable section

namespace Cert.NS

open Idealize.ShloMosaic Idealize.ShloMosaic.TcCoe Idealize.SL.Sem Idealize.ShloMosaic.StableHlo Cert.KernelIdeal Cert.KernelIdeal.Gen

variable {F : FTy → Type} [FloatOps F]

/-- Operations 24 … 48 of the 173 host operations between the two custom calls, in order. -/
abbrev w1 : List (HloOp τ sig (Elt F)) :=
  [ StableHlo.binary main_v17_2 main_v34 main_v35 ((fun l r => Host.dotGeneral dot_S4x16x64x64_S4x16x64x64_S4x16x64x64_3_2_2_3_01_01 none l r) : (⟨S4x16x64x64, .f32⟩ : BufTy).Contents (Elt F) → (⟨S4x16x64x64, .f32⟩ : BufTy).Contents (Elt F) → (⟨S4x16x64x64, .f32⟩ : BufTy).Contents (Elt F)),
    StableHlo.nullary main_cst_6 (constant S_ .f32 0x3E800000#32),
    StableHlo.unary main_cst_6 main_v36 (broadcastInDim S4x16x64x64 ![] bcast_S_S4x16x64x64 : (⟨S_, .f32⟩ : BufTy).Contents (Elt F) → (⟨S4x16x64x64, .f32⟩ : BufTy).Contents (Elt F)),
    StableHlo.binary main_v36 main_v34 main_v37 (mulf : (⟨S4x16x64x64, .f32⟩ : BufTy).Contents (Elt F) → (⟨S4x16x64x64, .f32⟩ : BufTy).Contents (Elt F) → (⟨S4x16x64x64, .f32⟩ : BufTy).Contents (Elt F)),
    StableHlo.nullary main_cst_7 (constant S_ .f32 0x41500000#32),
    StableHlo.unary main_cst_7 main_v38 (broadcastInDim S64x64 ![] bcast_S_S64x64 : (⟨S_, .f32⟩ : BufTy).Contents (Elt F) → (⟨S64x64, .f32⟩ : BufTy).Contents (Elt F)),
    StableHlo.binary main_v38 main_v23 main_v39 (mulf : (⟨S64x64, .f32⟩ : BufTy).Contents (Elt F) → (⟨S64x64, .f32⟩ : BufTy).Contents (Elt F) → (⟨S64x64, .f32⟩ : BufTy).Contents (Elt F)),
    StableHlo.nullary main_cst_8 (constant S_ .f32 0x41700000#32),
    StableHlo.unary main_cst_8 main_v40 (broadcastInDim S64x64 ![] bcast_S_S64x64 : (⟨S_, .f32⟩ : BufTy).Contents (Elt F) → (⟨S64x64, .f32⟩ : BufTy).Contents (Elt F)),
    StableHlo.binary main_v40 main_v23 main_v41 (mulf : (⟨S64x64, .f32⟩ : BufTy).Contents (Elt F) → (⟨S64x64, .f32⟩ : BufTy).Contents (Elt F) → (⟨S64x64, .f32⟩ : BufTy).Contents (Elt F)),
    StableHlo.nullary main_cst_9 (constant S_ .f32 0x40E00000#32),
    StableHlo.unary main_cst_9 main_v42 (broadcastInDim S64x64 ![] bcast_S_S64x64 : (⟨S_, .f32⟩ : BufTy).Contents (Elt F) → (⟨S64x64, .f32⟩ : BufTy).Contents (Elt F)),
    StableHlo.binary main_v42 main_v23 main_v43 (mulf : (⟨S64x64, .f32⟩ : BufTy).Contents (Elt F) → (⟨S64x64, .f32⟩ : BufTy).Contents (Elt F) → (⟨S64x64, .f32⟩ : BufTy).Contents (Elt F)),
    StableHlo.unary main_v43 main_v44 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v44 main_v45 (broadcastInDim S4x16x64x64 ![0, 1, 2, 3] bcast_S1x1x64x64_S4x16x64x64_0_1_2_3 : (⟨S1x1x64x64, .f32⟩ : BufTy).Contents (Elt F) → (⟨S4x16x64x64, .f32⟩ : BufTy).Contents (Elt F)),
    StableHlo.binary main_v45 main_v35 main_v46 (subf : (⟨S4x16x64x64, .f32⟩ : BufTy).Contents (Elt F) → (⟨S4x16x64x64, .f32⟩ : BufTy).Contents (Elt F) → (⟨S4x16x64x64, .f32⟩ : BufTy).Contents (Elt F)),
    StableHlo.binary main_v35 main_v46 main_v47 ((fun l r => Host.dotGeneral dot_S4x16x64x64_S4x16x64x64_S4x16x64x64_3_2_2_3_01_01 none l r) : (⟨S4x16x64x64, .f32⟩ : BufTy).Contents (Elt F) → (⟨S4x16x64x64, .f32⟩ : BufTy).Contents (Elt F) → (⟨S4x16x64x64, .f32⟩ : BufTy).Contents (Elt F)),
    StableHlo.unary main_v41 main_v48 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v48 main_v49 (broadcastInDim S4x16x64x64 ![0, 1, 2, 3] bcast_S1x1x64x64_S4x16x64x64_0_1_2_3 : (⟨S1x1x64x64, .f32⟩ : BufTy).Contents (Elt F) → (⟨S4x16x64x64, .f32⟩ : BufTy).Contents (Elt F)),
    StableHlo.binary main_v49 main_v47 main_v50 (subf : (⟨S4x16x64x64, .f32⟩ : BufTy).Contents (Elt F) → (⟨S4x16x64x64, .f32⟩ : BufTy).Contents (Elt F) → (⟨S4x16x64x64, .f32⟩ : BufTy).Contents (Elt F)),
    StableHlo.binary main_v35 main_v50 main_v51 ((fun l r => Host.dotGeneral dot_S4x16x64x64_S4x16x64x64_S4x16x64x64_3_2_2_3_01_01 none l r) : (⟨S4x16x64x64, .f32⟩ : BufTy).Contents (Elt F) → (⟨S4x16x64x64, .f32⟩ : BufTy).Contents (Elt F) → (⟨S4x16x64x64, .f32⟩ : BufTy).Contents (Elt F)),
    StableHlo.unary main_v39 main_v52 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v52 main_v53 (broadcastInDim S4x16x64x64 ![0, 1, 2, 3] bcast_S1x1x64x64_S4x16x64x64_0_1_2_3 : (⟨S1x1x64x64, .f32⟩ : BufTy).Contents (Elt F) → (⟨S4x16x64x64, .f32⟩ : BufTy).Contents (Elt F)),
    StableHlo.binary main_v53 main_v51 main_v54 (subf : (⟨S4x16x64x64, .f32⟩ : BufTy).Contents (Elt F) → (⟨S4x16x64x64, .f32⟩ : BufTy).Contents (Elt F) → (⟨S4x16x64x64, .f32⟩ : BufTy).Contents (Elt F)),
    StableHlo.binary main_v37 main_v54 main_v55 ((fun l r => Host.dotGeneral dot_S4x16x64x64_S4x16x64x64_S4x16x64x64_3_2_2_3_01_01 none l r) : (⟨S4x16x64x64, .f32⟩ : BufTy).Contents (Elt F) → (⟨S4x16x64x64, .f32⟩ : BufTy).Contents (Elt F) → (⟨S4x16x64x64, .f32⟩ : BufTy).Contents (Elt F)) ]
/-- The buffers these operations write. -/
abbrev w1_W : List (Ref sig .tc) := [main_v35, main_cst_6, main_v36, main_v37, main_cst_7, main_v38, main_v39, main_cst_8, main_v40, main_v41, main_cst_9, main_v42, main_v43, main_v44, main_v45, main_v46, main_v47, main_v48, main_v49, main_v50, main_v51, main_v52, main_v53, main_v54, main_v55]
set_option maxRecDepth 8192 in
theorem w1_writes : (w1 : List (HloOp τ sig (Elt F))).Forall fun op => op.writes ⊆ (w1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, Finset.singleton_subset_iff, List.mem_toFinset]; exact List.mem_map_of_mem (by decide))
/-- A buffer these operations do not write keeps its contents through them. -/
theorem w1_keep (W : Valuation τ sig (Elt F)) (r : Ref sig .tc) (h : r ∉ w1_W) :
    after w1 W (Proc.devRef .tc r) = W (Proc.devRef .tc r) :=
  after_of_writes_sub w1 _ w1_writes h

set_option maxRecDepth 8192 in
set_option maxHeartbeats 2000000 in
theorem w1_v55 (W : Valuation τ sig (Elt F)) : after w1 W (Proc.devRef .tc main_v55) = kStepE (W (Proc.devRef .tc main_v23)) (W (Proc.devRef .tc main_v17_2)) (W (Proc.devRef .tc main_v34)) := by
  simp only [w1]
  after_results_simp
  rfl

end Cert.NS

end
-- ==== Proof.NSKernel2.lean ====
/-
  The kernel program's host operations between its two custom calls, part 3 of 8: operations 49 … 73,
  one step of the iteration (from the iterate in %v55 to the next in %v76).
-/
import proofs.«162784_j87548613362291_2_alg».proof.Proof.NSKernel0

noncomputable section

namespace Cert.NS

open Idealize.ShloMosaic Idealize.ShloMosaic.TcCoe Idealize.SL.Sem Idealize.ShloMosaic.StableHlo Cert.KernelIdeal Cert.KernelIdeal.Gen

variable {F : FTy → Type} [FloatOps F]

/-- Operations 49 … 73 of the 173 host operations between the two custom calls, in order. -/
abbrev w2 : List (HloOp τ sig (Elt F)) :=
  [ StableHlo.binary main_v17_2 main_v55 main_v56 ((fun l r => Host.dotGeneral dot_S4x16x64x64_S4x16x64x64_S4x16x64x64_3_2_2_3_01_01 none l r) : (⟨S4x16x64x64, .f32⟩ : BufTy).Contents (Elt F) → (⟨S4x16x64x64, .f32⟩ : BufTy).Contents (Elt F) → (⟨S4x16x64x64, .f32⟩ : BufTy).Contents (Elt F)),
    StableHlo.nullary main_cst_10 (constant S_ .f32 0x3E800000#32),
    StableHlo.unary main_cst_10 main_v57 (broadcastInDim S4x16x64x64 ![] bcast_S_S4x16x64x64 : (⟨S_, .f32⟩ : BufTy).Contents (Elt F) → (⟨S4x16x64x64, .f32⟩ : BufTy).Contents (Elt F)),
    StableHlo.binary main_v57 main_v55 main_v58 (mulf : (⟨S4x16x64x64, .f32⟩ : BufTy).Contents (Elt F) → (⟨S4x16x64x64, .f32⟩ : BufTy).Contents (Elt F) → (⟨S4x16x64x64, .f32⟩ : BufTy).Contents (Elt F)),
    StableHlo.nullary main_cst_11 (constant S_ .f32 0x41500000#32),
    StableHlo.unary main_cst_11 main_v59 (broadcastInDim S64x64 ![] bcast_S_S64x64 : (⟨S_, .f32⟩ : BufTy).Contents (Elt F) → (⟨S64x64, .f32⟩ : BufTy).Contents (Elt F)),
    StableHlo.binary main_v59 main_v23 main_v60 (mulf : (⟨S64x64, .f32⟩ : BufTy).Contents (Elt F) → (⟨S64x64, .f32⟩ : BufTy).Contents (Elt F) → (⟨S64x64, .f32⟩ : BufTy).Contents (Elt F)),
    StableHlo.nullary main_cst_12 (constant S_ .f32 0x41700000#32),
    StableHlo.unary main_cst_12 main_v61 (broadcastInDim S64x64 ![] bcast_S_S64x64 : (⟨S_, .f32⟩ : BufTy).Contents (Elt F) → (⟨S64x64, .f32⟩ : BufTy).Contents (Elt F)),
    StableHlo.binary main_v61 main_v23 main_v62 (mulf : (⟨S64x64, .f32⟩ : BufTy).Contents (Elt F) → (⟨S64x64, .f32⟩ : BufTy).Contents (Elt F) → (⟨S64x64, .f32⟩ : BufTy).Contents (Elt F)),
    StableHlo.nullary main_cst_13 (constant S_ .f32 0x40E00000#32),
    StableHlo.unary main_cst_13 main_v63 (broadcastInDim S64x64 ![] bcast_S_S64x64 : (⟨S_, .f32⟩ : BufTy).Contents (Elt F) → (⟨S64x64, .f32⟩ : BufTy).Contents (Elt F)),
    StableHlo.binary main_v63 main_v23 main_v64 (mulf : (⟨S64x64, .f32⟩ : BufTy).Contents (Elt F) → (⟨S64x64, .f32⟩ : BufTy).Contents (Elt F) → (⟨S64x64, .f32⟩ : BufTy).Contents (Elt F)),
    StableHlo.unary main_v64 main_v65 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v65 main_v66 (broadcastInDim S4x16x64x64 ![0, 1, 2, 3] bcast_S1x1x64x64_S4x16x64x64_0_1_2_3 : (⟨S1x1x64x64, .f32⟩ : BufTy).Contents (Elt F) → (⟨S4x16x64x64, .f32⟩ : BufTy).Contents (Elt F)),
    StableHlo.binary main_v66 main_v56 main_v67 (subf : (⟨S4x16x64x64, .f32⟩ : BufTy).Contents (Elt F) → (⟨S4x16x64x64, .f32⟩ : BufTy).Contents (Elt F) → (⟨S4x16x64x64, .f32⟩ : BufTy).Contents (Elt F)),
    StableHlo.binary main_v56 main_v67 main_v68 ((fun l r => Host.dotGeneral dot_S4x16x64x64_S4x16x64x64_S4x16x64x64_3_2_2_3_01_01 none l r) : (⟨S4x16x64x64, .f32⟩ : BufTy).Contents (Elt F) → (⟨S4x16x64x64, .f32⟩ : BufTy).Contents (Elt F) → (⟨S4x16x64x64, .f32⟩ : BufTy).Contents (Elt F)),
    StableHlo.unary main_v62 main_v69 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v69 main_v70 (broadcastInDim S4x16x64x64 ![0, 1, 2, 3] bcast_S1x1x64x64_S4x16x64x64_0_1_2_3 : (⟨S1x1x64x64, .f32⟩ : BufTy).Contents (Elt F) → (⟨S4x16x64x64, .f32⟩ : BufTy).Contents (Elt F)),
    StableHlo.binary main_v70 main_v68 main_v71 (subf : (⟨S4x16x64x64, .f32⟩ : BufTy).Contents (Elt F) → (⟨S4x16x64x64, .f32⟩ : BufTy).Contents (Elt F) → (⟨S4x16x64x64, .f32⟩ : BufTy).Contents (Elt F)),
    StableHlo.binary main_v56 main_v71 main_v72 ((fun l r => Host.dotGeneral dot_S4x16x64x64_S4x16x64x64_S4x16x64x64_3_2_2_3_01_01 none l r) : (⟨S4x16x64x64, .f32⟩ : BufTy).Contents (Elt F) → (⟨S4x16x64x64, .f32⟩ : BufTy).Contents (Elt F) → (⟨S4x16x64x64, .f32⟩ : BufTy).Contents (Elt F)),
    StableHlo.unary main_v60 main_v73 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v73 main_v74 (broadcastInDim S4x16x64x64 ![0, 1, 2, 3] bcast_S1x1x64x64_S4x16x64x64_0_1_2_3 : (⟨S1x1x64x64, .f32⟩ : BufTy).Contents (Elt F) → (⟨S4x16x64x64, .f32⟩ : BufTy).Contents (Elt F)),
    StableHlo.binary main_v74 main_v72 main_v75 (subf : (⟨S4x16x64x64, .f32⟩ : BufTy).Contents (Elt F) → (⟨S4x16x64x64, .f32⟩ : BufTy).Contents (Elt F) → (⟨S4x16x64x64, .f32⟩ : BufTy).Contents (Elt F)),
    StableHlo.binary main_v58 main_v75 main_v76 ((fun l r => Host.dotGeneral dot_S4x16x64x64_S4x16x64x64_S4x16x64x64_3_2_2_3_01_01 none l r) : (⟨S4x16x64x64, .f32⟩ : BufTy).Contents (Elt F) → (⟨S4x16x64x64, .f32⟩ : BufTy).Contents (Elt F) → (⟨S4x16x64x64, .f32⟩ : BufTy).Contents (Elt F)) ]
/-- The buffers these operations write. -/
abbrev w2_W : List (Ref sig .tc) := [main_v56, main_cst_10, main_v57, main_v58, main_cst_11, main_v59, main_v60, main_cst_12, main_v61, main_v62, main_cst_13, main_v63, main_v64, main_v65, main_v66, main_v67, main_v68, main_v69, main_v70, main_v71, main_v72, main_v73, main_v74, main_v75, main_v76]
set_option maxRecDepth 8192 in
theorem w2_writes : (w2 : List (HloOp τ sig (Elt F))).Forall fun op => op.writes ⊆ (w2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, Finset.singleton_subset_iff, List.mem_toFinset]; exact List.mem_map_of_mem (by decide))
/-- A buffer these operations do not write keeps its contents through them. -/
theorem w2_keep (W : Valuation τ sig (Elt F)) (r : Ref sig .tc) (h : r ∉ w2_W) :
    after w2 W (Proc.devRef .tc r) = W (Proc.devRef .tc r) :=
  after_of_writes_sub w2 _ w2_writes h

set_option maxRecDepth 8192 in
set_option maxHeartbeats 2000000 in
theorem w2_v76 (W : Valuation τ sig (Elt F)) : after w2 W (Proc.devRef .tc main_v76) = kStepE (W (Proc.devRef .tc main_v23)) (W (Proc.devRef .tc main_v17_2)) (W (Proc.devRef .tc main_v55)) := by
  simp only [w2]
  after_results_simp
  rfl

end Cert.NS

end
-- ==== Proof.NSKernel3.lean ====
/-
  The kernel program's host operations between its two custom calls, part 4 of 8: operations 74 … 98,
  one step of the iteration (from the iterate in %v76 to the next in %v97).
-/
import proofs.«162784_j87548613362291_2_alg».proof.Proof.NSKernel0

noncomputable section

namespace Cert.NS

open Idealize.ShloMosaic Idealize.ShloMosaic.TcCoe Idealize.SL.Sem Idealize.ShloMosaic.StableHlo Cert.KernelIdeal Cert.KernelIdeal.Gen

variable {F : FTy → Type} [FloatOps F]

/-- Operations 74 … 98 of the 173 host operations between the two custom calls, in order. -/
abbrev w3 : List (HloOp τ sig (Elt F)) :=
  [ StableHlo.binary main_v17_2 main_v76 main_v77 ((fun l r => Host.dotGeneral dot_S4x16x64x64_S4x16x64x64_S4x16x64x64_3_2_2_3_01_01 none l r) : (⟨S4x16x64x64, .f32⟩ : BufTy).Contents (Elt F) → (⟨S4x16x64x64, .f32⟩ : BufTy).Contents (Elt F) → (⟨S4x16x64x64, .f32⟩ : BufTy).Contents (Elt F)),
    StableHlo.nullary main_cst_14 (constant S_ .f32 0x3E800000#32),
    StableHlo.unary main_cst_14 main_v78 (broadcastInDim S4x16x64x64 ![] bcast_S_S4x16x64x64 : (⟨S_, .f32⟩ : BufTy).Contents (Elt F) → (⟨S4x16x64x64, .f32⟩ : BufTy).Contents (Elt F)),
    StableHlo.binary main_v78 main_v76 main_v79 (mulf : (⟨S4x16x64x64, .f32⟩ : BufTy).Contents (Elt F) → (⟨S4x16x64x64, .f32⟩ : BufTy).Contents (Elt F) → (⟨S4x16x64x64, .f32⟩ : BufTy).Contents (Elt F)),
    StableHlo.nullary main_cst_15 (constant S_ .f32 0x41500000#32),
    StableHlo.unary main_cst_15 main_v80 (broadcastInDim S64x64 ![] bcast_S_S64x64 : (⟨S_, .f32⟩ : BufTy).Contents (Elt F) → (⟨S64x64, .f32⟩ : BufTy).Contents (Elt F)),
    StableHlo.binary main_v80 main_v23 main_v81 (mulf : (⟨S64x64, .f32⟩ : BufTy).Contents (Elt F) → (⟨S64x64, .f32⟩ : BufTy).Contents (Elt F) → (⟨S64x64, .f32⟩ : BufTy).Contents (Elt F)),
    StableHlo.nullary main_cst_16 (constant S_ .f32 0x41700000#32),
    StableHlo.unary main_cst_16 main_v82 (broadcastInDim S64x64 ![] bcast_S_S64x64 : (⟨S_, .f32⟩ : BufTy).Contents (Elt F) → (⟨S64x64, .f32⟩ : BufTy).Contents (Elt F)),
    StableHlo.binary main_v82 main_v23 main_v83 (mulf : (⟨S64x64, .f32⟩ : BufTy).Contents (Elt F) → (⟨S64x64, .f32⟩ : BufTy).Contents (Elt F) → (⟨S64x64, .f32⟩ : BufTy).Contents (Elt F)),
    StableHlo.nullary main_cst_17 (constant S_ .f32 0x40E00000#32),
    StableHlo.unary main_cst_17 main_v84 (broadcastInDim S64x64 ![] bcast_S_S64x64 : (⟨S_, .f32⟩ : BufTy).Contents (Elt F) → (⟨S64x64, .f32⟩ : BufTy).Contents (Elt F)),
    StableHlo.binary main_v84 main_v23 main_v85 (mulf : (⟨S64x64, .f32⟩ : BufTy).Contents (Elt F) → (⟨S64x64, .f32⟩ : BufTy).Contents (Elt F) → (⟨S64x64, .f32⟩ : BufTy).Contents (Elt F)),
    StableHlo.unary main_v85 main_v86 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v86 main_v87 (broadcastInDim S4x16x64x64 ![0, 1, 2, 3] bcast_S1x1x64x64_S4x16x64x64_0_1_2_3 : (⟨S1x1x64x64, .f32⟩ : BufTy).Contents (Elt F) → (⟨S4x16x64x64, .f32⟩ : BufTy).Contents (Elt F)),
    StableHlo.binary main_v87 main_v77 main_v88 (subf : (⟨S4x16x64x64, .f32⟩ : BufTy).Contents (Elt F) → (⟨S4x16x64x64, .f32⟩ : BufTy).Contents (Elt F) → (⟨S4x16x64x64, .f32⟩ : BufTy).Contents (Elt F)),
    StableHlo.binary main_v77 main_v88 main_v89 ((fun l r => Host.dotGeneral dot_S4x16x64x64_S4x16x64x64_S4x16x64x64_3_2_2_3_01_01 none l r) : (⟨S4x16x64x64, .f32⟩ : BufTy).Contents (Elt F) → (⟨S4x16x64x64, .f32⟩ : BufTy).Contents (Elt F) → (⟨S4x16x64x64, .f32⟩ : BufTy).Contents (Elt F)),
    StableHlo.unary main_v83 main_v90 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v90 main_v91 (broadcastInDim S4x16x64x64 ![0, 1, 2, 3] bcast_S1x1x64x64_S4x16x64x64_0_1_2_3 : (⟨S1x1x64x64, .f32⟩ : BufTy).Contents (Elt F) → (⟨S4x16x64x64, .f32⟩ : BufTy).Contents (Elt F)),
    StableHlo.binary main_v91 main_v89 main_v92 (subf : (⟨S4x16x64x64, .f32⟩ : BufTy).Contents (Elt F) → (⟨S4x16x64x64, .f32⟩ : BufTy).Contents (Elt F) → (⟨S4x16x64x64, .f32⟩ : BufTy).Contents (Elt F)),
    StableHlo.binary main_v77 main_v92 main_v93 ((fun l r => Host.dotGeneral dot_S4x16x64x64_S4x16x64x64_S4x16x64x64_3_2_2_3_01_01 none l r) : (⟨S4x16x64x64, .f32⟩ : BufTy).Contents (Elt F) → (⟨S4x16x64x64, .f32⟩ : BufTy).Contents (Elt F) → (⟨S4x16x64x64, .f32⟩ : BufTy).Contents (Elt F)),
    StableHlo.unary main_v81 main_v94 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v94 main_v95 (broadcastInDim S4x16x64x64 ![0, 1, 2, 3] bcast_S1x1x64x64_S4x16x64x64_0_1_2_3 : (⟨S1x1x64x64, .f32⟩ : BufTy).Contents (Elt F) → (⟨S4x16x64x64, .f32⟩ : BufTy).Contents (Elt F)),
    StableHlo.binary main_v95 main_v93 main_v96 (subf : (⟨S4x16x64x64, .f32⟩ : BufTy).Contents (Elt F) → (⟨S4x16x64x64, .f32⟩ : BufTy).Contents (Elt F) → (⟨S4x16x64x64, .f32⟩ : BufTy).Contents (Elt F)),
    StableHlo.binary main_v79 main_v96 main_v97 ((fun l r => Host.dotGeneral dot_S4x16x64x64_S4x16x64x64_S4x16x64x64_3_2_2_3_01_01 none l r) : (⟨S4x16x64x64, .f32⟩ : BufTy).Contents (Elt F) → (⟨S4x16x64x64, .f32⟩ : BufTy).Contents (Elt F) → (⟨S4x16x64x64, .f32⟩ : BufTy).Contents (Elt F)) ]
/-- The buffers these operations write. -/
abbrev w3_W : List (Ref sig .tc) := [main_v77, main_cst_14, main_v78, main_v79, main_cst_15, main_v80, main_v81, main_cst_16, main_v82, main_v83, main_cst_17, main_v84, main_v85, main_v86, main_v87, main_v88, main_v89, main_v90, main_v91, main_v92, main_v93, main_v94, main_v95, main_v96, main_v97]
set_option maxRecDepth 8192 in
theorem w3_writes : (w3 : List (HloOp τ sig (Elt F))).Forall fun op => op.writes ⊆ (w3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, Finset.singleton_subset_iff, List.mem_toFinset]; exact List.mem_map_of_mem (by decide))
/-- A buffer these operations do not write keeps its contents through them. -/
theorem w3_keep (W : Valuation τ sig (Elt F)) (r : Ref sig .tc) (h : r ∉ w3_W) :
    after w3 W (Proc.devRef .tc r) = W (Proc.devRef .tc r) :=
  after_of_writes_sub w3 _ w3_writes h

set_option maxRecDepth 8192 in
set_option maxHeartbeats 2000000 in
theorem w3_v97 (W : Valuation τ sig (Elt F)) : after w3 W (Proc.devRef .tc main_v97) = kStepE (W (Proc.devRef .tc main_v23)) (W (Proc.devRef .tc main_v17_2)) (W (Proc.devRef .tc main_v76)) := by
  simp only [w3]
  after_results_simp
  rfl

end Cert.NS

end
-- ==== Proof.NSKernel4.lean ====
/-
  The kernel program's host operations between its two custom calls, part 5 of 8: operations 99 … 123,
  one step of the iteration (from the iterate in %v97 to the next in %v118).
-/
import proofs.«162784_j87548613362291_2_alg».proof.Proof.NSKernel0

noncomputable section

namespace Cert.NS

open Idealize.ShloMosaic Idealize.ShloMosaic.TcCoe Idealize.SL.Sem Idealize.ShloMosaic.StableHlo Cert.KernelIdeal Cert.KernelIdeal.Gen

variable {F : FTy → Type} [FloatOps F]

/-- Operations 99 … 123 of the 173 host operations between the two custom calls, in order. -/
abbrev w4 : List (HloOp τ sig (Elt F)) :=
  [ StableHlo.binary main_v17_2 main_v97 main_v98 ((fun l r => Host.dotGeneral dot_S4x16x64x64_S4x16x64x64_S4x16x64x64_3_2_2_3_01_01 none l r) : (⟨S4x16x64x64, .f32⟩ : BufTy).Contents (Elt F) → (⟨S4x16x64x64, .f32⟩ : BufTy).Contents (Elt F) → (⟨S4x16x64x64, .f32⟩ : BufTy).Contents (Elt F)),
    StableHlo.nullary main_cst_18 (constant S_ .f32 0x3E800000#32),
    StableHlo.unary main_cst_18 main_v99 (broadcastInDim S4x16x64x64 ![] bcast_S_S4x16x64x64 : (⟨S_, .f32⟩ : BufTy).Contents (Elt F) → (⟨S4x16x64x64, .f32⟩ : BufTy).Contents (Elt F)),
    StableHlo.binary main_v99 main_v97 main_v100 (mulf : (⟨S4x16x64x64, .f32⟩ : BufTy).Contents (Elt F) → (⟨S4x16x64x64, .f32⟩ : BufTy).Contents (Elt F) → (⟨S4x16x64x64, .f32⟩ : BufTy).Contents (Elt F)),
    StableHlo.nullary main_cst_19 (constant S_ .f32 0x41500000#32),
    StableHlo.unary main_cst_19 main_v101 (broadcastInDim S64x64 ![] bcast_S_S64x64 : (⟨S_, .f32⟩ : BufTy).Contents (Elt F) → (⟨S64x64, .f32⟩ : BufTy).Contents (Elt F)),
    StableHlo.binary main_v101 main_v23 main_v102 (mulf : (⟨S64x64, .f32⟩ : BufTy).Contents (Elt F) → (⟨S64x64, .f32⟩ : BufTy).Contents (Elt F) → (⟨S64x64, .f32⟩ : BufTy).Contents (Elt F)),
    StableHlo.nullary main_cst_20 (constant S_ .f32 0x41700000#32),
    StableHlo.unary main_cst_20 main_v103 (broadcastInDim S64x64 ![] bcast_S_S64x64 : (⟨S_, .f32⟩ : BufTy).Contents (Elt F) → (⟨S64x64, .f32⟩ : BufTy).Contents (Elt F)),
    StableHlo.binary main_v103 main_v23 main_v104 (mulf : (⟨S64x64, .f32⟩ : BufTy).Contents (Elt F) → (⟨S64x64, .f32⟩ : BufTy).Contents (Elt F) → (⟨S64x64, .f32⟩ : BufTy).Contents (Elt F)),
    StableHlo.nullary main_cst_21 (constant S_ .f32 0x40E00000#32),
    StableHlo.unary main_cst_21 main_v105 (broadcastInDim S64x64 ![] bcast_S_S64x64 : (⟨S_, .f32⟩ : BufTy).Contents (Elt F) → (⟨S64x64, .f32⟩ : BufTy).Contents (Elt F)),
    StableHlo.binary main_v105 main_v23 main_v106 (mulf : (⟨S64x64, .f32⟩ : BufTy).Contents (Elt F) → (⟨S64x64, .f32⟩ : BufTy).Contents (Elt F) → (⟨S64x64, .f32⟩ : BufTy).Contents (Elt F)),
    StableHlo.unary main_v106 main_v107 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v107 main_v108 (broadcastInDim S4x16x64x64 ![0, 1, 2, 3] bcast_S1x1x64x64_S4x16x64x64_0_1_2_3 : (⟨S1x1x64x64, .f32⟩ : BufTy).Contents (Elt F) → (⟨S4x16x64x64, .f32⟩ : BufTy).Contents (Elt F)),
    StableHlo.binary main_v108 main_v98 main_v109 (subf : (⟨S4x16x64x64, .f32⟩ : BufTy).Contents (Elt F) → (⟨S4x16x64x64, .f32⟩ : BufTy).Contents (Elt F) → (⟨S4x16x64x64, .f32⟩ : BufTy).Contents (Elt F)),
    StableHlo.binary main_v98 main_v109 main_v110 ((fun l r => Host.dotGeneral dot_S4x16x64x64_S4x16x64x64_S4x16x64x64_3_2_2_3_01_01 none l r) : (⟨S4x16x64x64, .f32⟩ : BufTy).Contents (Elt F) → (⟨S4x16x64x64, .f32⟩ : BufTy).Contents (Elt F) → (⟨S4x16x64x64, .f32⟩ : BufTy).Contents (Elt F)),
    StableHlo.unary main_v104 main_v111 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v111 main_v112 (broadcastInDim S4x16x64x64 ![0, 1, 2, 3] bcast_S1x1x64x64_S4x16x64x64_0_1_2_3 : (⟨S1x1x64x64, .f32⟩ : BufTy).Contents (Elt F) → (⟨S4x16x64x64, .f32⟩ : BufTy).Contents (Elt F)),
    StableHlo.binary main_v112 main_v110 main_v113 (subf : (⟨S4x16x64x64, .f32⟩ : BufTy).Contents (Elt F) → (⟨S4x16x64x64, .f32⟩ : BufTy).Contents (Elt F) → (⟨S4x16x64x64, .f32⟩ : BufTy).Contents (Elt F)),
    StableHlo.binary main_v98 main_v113 main_v114 ((fun l r => Host.dotGeneral dot_S4x16x64x64_S4x16x64x64_S4x16x64x64_3_2_2_3_01_01 none l r) : (⟨S4x16x64x64, .f32⟩ : BufTy).Contents (Elt F) → (⟨S4x16x64x64, .f32⟩ : BufTy).Contents (Elt F) → (⟨S4x16x64x64, .f32⟩ : BufTy).Contents (Elt F)),
    StableHlo.unary main_v102 main_v115 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v115 main_v116 (broadcastInDim S4x16x64x64 ![0, 1, 2, 3] bcast_S1x1x64x64_S4x16x64x64_0_1_2_3 : (⟨S1x1x64x64, .f32⟩ : BufTy).Contents (Elt F) → (⟨S4x16x64x64, .f32⟩ : BufTy).Contents (Elt F)),
    StableHlo.binary main_v116 main_v114 main_v117 (subf : (⟨S4x16x64x64, .f32⟩ : BufTy).Contents (Elt F) → (⟨S4x16x64x64, .f32⟩ : BufTy).Contents (Elt F) → (⟨S4x16x64x64, .f32⟩ : BufTy).Contents (Elt F)),
    StableHlo.binary main_v100 main_v117 main_v118 ((fun l r => Host.dotGeneral dot_S4x16x64x64_S4x16x64x64_S4x16x64x64_3_2_2_3_01_01 none l r) : (⟨S4x16x64x64, .f32⟩ : BufTy).Contents (Elt F) → (⟨S4x16x64x64, .f32⟩ : BufTy).Contents (Elt F) → (⟨S4x16x64x64, .f32⟩ : BufTy).Contents (Elt F)) ]
/-- The buffers these operations write. -/
abbrev w4_W : List (Ref sig .tc) := [main_v98, main_cst_18, main_v99, main_v100, main_cst_19, main_v101, main_v102, main_cst_20, main_v103, main_v104, main_cst_21, main_v105, main_v106, main_v107, main_v108, main_v109, main_v110, main_v111, main_v112, main_v113, main_v114, main_v115, main_v116, main_v117, main_v118]
set_option maxRecDepth 8192 in
theorem w4_writes : (w4 : List (HloOp τ sig (Elt F))).Forall fun op => op.writes ⊆ (w4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, Finset.singleton_subset_iff, List.mem_toFinset]; exact List.mem_map_of_mem (by decide))
/-- A buffer these operations do not write keeps its contents through them. -/
theorem w4_keep (W : Valuation τ sig (Elt F)) (r : Ref sig .tc) (h : r ∉ w4_W) :
    after w4 W (Proc.devRef .tc r) = W (Proc.devRef .tc r) :=
  after_of_writes_sub w4 _ w4_writes h

set_option maxRecDepth 8192 in
set_option maxHeartbeats 2000000 in
theorem w4_v118 (W : Valuation τ sig (Elt F)) : after w4 W (Proc.devRef .tc main_v118) = kStepE (W (Proc.devRef .tc main_v23)) (W (Proc.devRef .tc main_v17_2)) (W (Proc.devRef .tc main_v97)) := by
  simp only [w4]
  after_results_simp
  rfl

end Cert.NS

end
-- ==== Proof.NSKernel5.lean ====
/-
  The kernel program's host operations between its two custom calls, part 6 of 8: operations 124 … 148,
  one step of the iteration (from the iterate in %v118 to the next in %v139).
-/
import proofs.«162784_j87548613362291_2_alg».proof.Proof.NSKernel0

noncomputable section

namespace Cert.NS

open Idealize.ShloMosaic Idealize.ShloMosaic.TcCoe Idealize.SL.Sem Idealize.ShloMosaic.StableHlo Cert.KernelIdeal Cert.KernelIdeal.Gen

variable {F : FTy → Type} [FloatOps F]

/-- Operations 124 … 148 of the 173 host operations between the two custom calls, in order. -/
abbrev w5 : List (HloOp τ sig (Elt F)) :=
  [ StableHlo.binary main_v17_2 main_v118 main_v119 ((fun l r => Host.dotGeneral dot_S4x16x64x64_S4x16x64x64_S4x16x64x64_3_2_2_3_01_01 none l r) : (⟨S4x16x64x64, .f32⟩ : BufTy).Contents (Elt F) → (⟨S4x16x64x64, .f32⟩ : BufTy).Contents (Elt F) → (⟨S4x16x64x64, .f32⟩ : BufTy).Contents (Elt F)),
    StableHlo.nullary main_cst_22 (constant S_ .f32 0x3E800000#32),
    StableHlo.unary main_cst_22 main_v120 (broadcastInDim S4x16x64x64 ![] bcast_S_S4x16x64x64 : (⟨S_, .f32⟩ : BufTy).Contents (Elt F) → (⟨S4x16x64x64, .f32⟩ : BufTy).Contents (Elt F)),
    StableHlo.binary main_v120 main_v118 main_v121 (mulf : (⟨S4x16x64x64, .f32⟩ : BufTy).Contents (Elt F) → (⟨S4x16x64x64, .f32⟩ : BufTy).Contents (Elt F) → (⟨S4x16x64x64, .f32⟩ : BufTy).Contents (Elt F)),
    StableHlo.nullary main_cst_23 (constant S_ .f32 0x41500000#32),
    StableHlo.unary main_cst_23 main_v122 (broadcastInDim S64x64 ![] bcast_S_S64x64 : (⟨S_, .f32⟩ : BufTy).Contents (Elt F) → (⟨S64x64, .f32⟩ : BufTy).Contents (Elt F)),
    StableHlo.binary main_v122 main_v23 main_v123 (mulf : (⟨S64x64, .f32⟩ : BufTy).Contents (Elt F) → (⟨S64x64, .f32⟩ : BufTy).Contents (Elt F) → (⟨S64x64, .f32⟩ : BufTy).Contents (Elt F)),
    StableHlo.nullary main_cst_24 (constant S_ .f32 0x41700000#32),
    StableHlo.unary main_cst_24 main_v124 (broadcastInDim S64x64 ![] bcast_S_S64x64 : (⟨S_, .f32⟩ : BufTy).Contents (Elt F) → (⟨S64x64, .f32⟩ : BufTy).Contents (Elt F)),
    StableHlo.binary main_v124 main_v23 main_v125 (mulf : (⟨S64x64, .f32⟩ : BufTy).Contents (Elt F) → (⟨S64x64, .f32⟩ : BufTy).Contents (Elt F) → (⟨S64x64, .f32⟩ : BufTy).Contents (Elt F)),
    StableHlo.nullary main_cst_25 (constant S_ .f32 0x40E00000#32),
    StableHlo.unary main_cst_25 main_v126 (broadcastInDim S64x64 ![] bcast_S_S64x64 : (⟨S_, .f32⟩ : BufTy).Contents (Elt F) → (⟨S64x64, .f32⟩ : BufTy).Contents (Elt F)),
    StableHlo.binary main_v126 main_v23 main_v127 (mulf : (⟨S64x64, .f32⟩ : BufTy).Contents (Elt F) → (⟨S64x64, .f32⟩ : BufTy).Contents (Elt F) → (⟨S64x64, .f32⟩ : BufTy).Contents (Elt F)),
    StableHlo.unary main_v127 main_v128 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v128 main_v129 (broadcastInDim S4x16x64x64 ![0, 1, 2, 3] bcast_S1x1x64x64_S4x16x64x64_0_1_2_3 : (⟨S1x1x64x64, .f32⟩ : BufTy).Contents (Elt F) → (⟨S4x16x64x64, .f32⟩ : BufTy).Contents (Elt F)),
    StableHlo.binary main_v129 main_v119 main_v130 (subf : (⟨S4x16x64x64, .f32⟩ : BufTy).Contents (Elt F) → (⟨S4x16x64x64, .f32⟩ : BufTy).Contents (Elt F) → (⟨S4x16x64x64, .f32⟩ : BufTy).Contents (Elt F)),
    StableHlo.binary main_v119 main_v130 main_v131 ((fun l r => Host.dotGeneral dot_S4x16x64x64_S4x16x64x64_S4x16x64x64_3_2_2_3_01_01 none l r) : (⟨S4x16x64x64, .f32⟩ : BufTy).Contents (Elt F) → (⟨S4x16x64x64, .f32⟩ : BufTy).Contents (Elt F) → (⟨S4x16x64x64, .f32⟩ : BufTy).Contents (Elt F)),
    StableHlo.unary main_v125 main_v132 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v132 main_v133 (broadcastInDim S4x16x64x64 ![0, 1, 2, 3] bcast_S1x1x64x64_S4x16x64x64_0_1_2_3 : (⟨S1x1x64x64, .f32⟩ : BufTy).Contents (Elt F) → (⟨S4x16x64x64, .f32⟩ : BufTy).Contents (Elt F)),
    StableHlo.binary main_v133 main_v131 main_v134 (subf : (⟨S4x16x64x64, .f32⟩ : BufTy).Contents (Elt F) → (⟨S4x16x64x64, .f32⟩ : BufTy).Contents (Elt F) → (⟨S4x16x64x64, .f32⟩ : BufTy).Contents (Elt F)),
    StableHlo.binary main_v119 main_v134 main_v135 ((fun l r => Host.dotGeneral dot_S4x16x64x64_S4x16x64x64_S4x16x64x64_3_2_2_3_01_01 none l r) : (⟨S4x16x64x64, .f32⟩ : BufTy).Contents (Elt F) → (⟨S4x16x64x64, .f32⟩ : BufTy).Contents (Elt F) → (⟨S4x16x64x64, .f32⟩ : BufTy).Contents (Elt F)),
    StableHlo.unary main_v123 main_v136 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v136 main_v137 (broadcastInDim S4x16x64x64 ![0, 1, 2, 3] bcast_S1x1x64x64_S4x16x64x64_0_1_2_3 : (⟨S1x1x64x64, .f32⟩ : BufTy).Contents (Elt F) → (⟨S4x16x64x64, .f32⟩ : BufTy).Contents (Elt F)),
    StableHlo.binary main_v137 main_v135 main_v138 (subf : (⟨S4x16x64x64, .f32⟩ : BufTy).Contents (Elt F) → (⟨S4x16x64x64, .f32⟩ : BufTy).Contents (Elt F) → (⟨S4x16x64x64, .f32⟩ : BufTy).Contents (Elt F)),
    StableHlo.binary main_v121 main_v138 main_v139 ((fun l r => Host.dotGeneral dot_S4x16x64x64_S4x16x64x64_S4x16x64x64_3_2_2_3_01_01 none l r) : (⟨S4x16x64x64, .f32⟩ : BufTy).Contents (Elt F) → (⟨S4x16x64x64, .f32⟩ : BufTy).Contents (Elt F) → (⟨S4x16x64x64, .f32⟩ : BufTy).Contents (Elt F)) ]
/-- The buffers these operations write. -/
abbrev w5_W : List (Ref sig .tc) := [main_v119, main_cst_22, main_v120, main_v121, main_cst_23, main_v122, main_v123, main_cst_24, main_v124, main_v125, main_cst_25, main_v126, main_v127, main_v128, main_v129, main_v130, main_v131, main_v132, main_v133, main_v134, main_v135, main_v136, main_v137, main_v138, main_v139]
set_option maxRecDepth 8192 in
theorem w5_writes : (w5 : List (HloOp τ sig (Elt F))).Forall fun op => op.writes ⊆ (w5_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, Finset.singleton_subset_iff, List.mem_toFinset]; exact List.mem_map_of_mem (by decide))
/-- A buffer these operations do not write keeps its contents through them. -/
theorem w5_keep (W : Valuation τ sig (Elt F)) (r : Ref sig .tc) (h : r ∉ w5_W) :
    after w5 W (Proc.devRef .tc r) = W (Proc.devRef .tc r) :=
  after_of_writes_sub w5 _ w5_writes h

set_option maxRecDepth 8192 in
set_option maxHeartbeats 2000000 in
theorem w5_v139 (W : Valuation τ sig (Elt F)) : after w5 W (Proc.devRef .tc main_v139) = kStepE (W (Proc.devRef .tc main_v23)) (W (Proc.devRef .tc main_v17_2)) (W (Proc.devRef .tc main_v118)) := by
  simp only [w5]
  after_results_simp
  rfl

end Cert.NS

end
-- ==== Proof.NSKernel6.lean ====
/-
  The kernel program's host operations between its two custom calls, part 7 of 8: operations 149 … 173,
  one step of the iteration (from the iterate in %v139 to the next in %v160).
-/
import proofs.«162784_j87548613362291_2_alg».proof.Proof.NSKernel0

noncomputable section

namespace Cert.NS

open Idealize.ShloMosaic Idealize.ShloMosaic.TcCoe Idealize.SL.Sem Idealize.ShloMosaic.StableHlo Cert.KernelIdeal Cert.KernelIdeal.Gen

variable {F : FTy → Type} [FloatOps F]

/-- Operations 149 … 173 of the 173 host operations between the two custom calls, in order. -/
abbrev w6 : List (HloOp τ sig (Elt F)) :=
  [ StableHlo.binary main_v17_2 main_v139 main_v140 ((fun l r => Host.dotGeneral dot_S4x16x64x64_S4x16x64x64_S4x16x64x64_3_2_2_3_01_01 none l r) : (⟨S4x16x64x64, .f32⟩ : BufTy).Contents (Elt F) → (⟨S4x16x64x64, .f32⟩ : BufTy).Contents (Elt F) → (⟨S4x16x64x64, .f32⟩ : BufTy).Contents (Elt F)),
    StableHlo.nullary main_cst_26 (constant S_ .f32 0x3E800000#32),
    StableHlo.unary main_cst_26 main_v141 (broadcastInDim S4x16x64x64 ![] bcast_S_S4x16x64x64 : (⟨S_, .f32⟩ : BufTy).Contents (Elt F) → (⟨S4x16x64x64, .f32⟩ : BufTy).Contents (Elt F)),
    StableHlo.binary main_v141 main_v139 main_v142 (mulf : (⟨S4x16x64x64, .f32⟩ : BufTy).Contents (Elt F) → (⟨S4x16x64x64, .f32⟩ : BufTy).Contents (Elt F) → (⟨S4x16x64x64, .f32⟩ : BufTy).Contents (Elt F)),
    StableHlo.nullary main_cst_27 (constant S_ .f32 0x41500000#32),
    StableHlo.unary main_cst_27 main_v143 (broadcastInDim S64x64 ![] bcast_S_S64x64 : (⟨S_, .f32⟩ : BufTy).Contents (Elt F) → (⟨S64x64, .f32⟩ : BufTy).Contents (Elt F)),
    StableHlo.binary main_v143 main_v23 main_v144 (mulf : (⟨S64x64, .f32⟩ : BufTy).Contents (Elt F) → (⟨S64x64, .f32⟩ : BufTy).Contents (Elt F) → (⟨S64x64, .f32⟩ : BufTy).Contents (Elt F)),
    StableHlo.nullary main_cst_28 (constant S_ .f32 0x41700000#32),
    StableHlo.unary main_cst_28 main_v145 (broadcastInDim S64x64 ![] bcast_S_S64x64 : (⟨S_, .f32⟩ : BufTy).Contents (Elt F) → (⟨S64x64, .f32⟩ : BufTy).Contents (Elt F)),
    StableHlo.binary main_v145 main_v23 main_v146 (mulf : (⟨S64x64, .f32⟩ : BufTy).Contents (Elt F) → (⟨S64x64, .f32⟩ : BufTy).Contents (Elt F) → (⟨S64x64, .f32⟩ : BufTy).Contents (Elt F)),
    StableHlo.nullary main_cst_29 (constant S_ .f32 0x40E00000#32),
    StableHlo.unary main_cst_29 main_v147 (broadcastInDim S64x64 ![] bcast_S_S64x64 : (⟨S_, .f32⟩ : BufTy).Contents (Elt F) → (⟨S64x64, .f32⟩ : BufTy).Contents (Elt F)),
    StableHlo.binary main_v147 main_v23 main_v148 (mulf : (⟨S64x64, .f32⟩ : BufTy).Contents (Elt F) → (⟨S64x64, .f32⟩ : BufTy).Contents (Elt F) → (⟨S64x64, .f32⟩ : BufTy).Contents (Elt F)),
    StableHlo.unary main_v148 main_v149 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v149 main_v150 (broadcastInDim S4x16x64x64 ![0, 1, 2, 3] bcast_S1x1x64x64_S4x16x64x64_0_1_2_3 : (⟨S1x1x64x64, .f32⟩ : BufTy).Contents (Elt F) → (⟨S4x16x64x64, .f32⟩ : BufTy).Contents (Elt F)),
    StableHlo.binary main_v150 main_v140 main_v151 (subf : (⟨S4x16x64x64, .f32⟩ : BufTy).Contents (Elt F) → (⟨S4x16x64x64, .f32⟩ : BufTy).Contents (Elt F) → (⟨S4x16x64x64, .f32⟩ : BufTy).Contents (Elt F)),
    StableHlo.binary main_v140 main_v151 main_v152 ((fun l r => Host.dotGeneral dot_S4x16x64x64_S4x16x64x64_S4x16x64x64_3_2_2_3_01_01 none l r) : (⟨S4x16x64x64, .f32⟩ : BufTy).Contents (Elt F) → (⟨S4x16x64x64, .f32⟩ : BufTy).Contents (Elt F) → (⟨S4x16x64x64, .f32⟩ : BufTy).Contents (Elt F)),
    StableHlo.unary main_v146 main_v153 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v153 main_v154 (broadcastInDim S4x16x64x64 ![0, 1, 2, 3] bcast_S1x1x64x64_S4x16x64x64_0_1_2_3 : (⟨S1x1x64x64, .f32⟩ : BufTy).Contents (Elt F) → (⟨S4x16x64x64, .f32⟩ : BufTy).Contents (Elt F)),
    StableHlo.binary main_v154 main_v152 main_v155 (subf : (⟨S4x16x64x64, .f32⟩ : BufTy).Contents (Elt F) → (⟨S4x16x64x64, .f32⟩ : BufTy).Contents (Elt F) → (⟨S4x16x64x64, .f32⟩ : BufTy).Contents (Elt F)),
    StableHlo.binary main_v140 main_v155 main_v156 ((fun l r => Host.dotGeneral dot_S4x16x64x64_S4x16x64x64_S4x16x64x64_3_2_2_3_01_01 none l r) : (⟨S4x16x64x64, .f32⟩ : BufTy).Contents (Elt F) → (⟨S4x16x64x64, .f32⟩ : BufTy).Contents (Elt F) → (⟨S4x16x64x64, .f32⟩ : BufTy).Contents (Elt F)),
    StableHlo.unary main_v144 main_v157 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v157 main_v158 (broadcastInDim S4x16x64x64 ![0, 1, 2, 3] bcast_S1x1x64x64_S4x16x64x64_0_1_2_3 : (⟨S1x1x64x64, .f32⟩ : BufTy).Contents (Elt F) → (⟨S4x16x64x64, .f32⟩ : BufTy).Contents (Elt F)),
    StableHlo.binary main_v158 main_v156 main_v159 (subf : (⟨S4x16x64x64, .f32⟩ : BufTy).Contents (Elt F) → (⟨S4x16x64x64, .f32⟩ : BufTy).Contents (Elt F) → (⟨S4x16x64x64, .f32⟩ : BufTy).Contents (Elt F)),
    StableHlo.binary main_v142 main_v159 main_v160 ((fun l r => Host.dotGeneral dot_S4x16x64x64_S4x16x64x64_S4x16x64x64_3_2_2_3_01_01 none l r) : (⟨S4x16x64x64, .f32⟩ : BufTy).Contents (Elt F) → (⟨S4x16x64x64, .f32⟩ : BufTy).Contents (Elt F) → (⟨S4x16x64x64, .f32⟩ : BufTy).Contents (Elt F)) ]
/-- The buffers these operations write. -/
abbrev w6_W : List (Ref sig .tc) := [main_v140, main_cst_26, main_v141, main_v142, main_cst_27, main_v143, main_v144, main_cst_28, main_v145, main_v146, main_cst_29, main_v147, main_v148, main_v149, main_v150, main_v151, main_v152, main_v153, main_v154, main_v155, main_v156, main_v157, main_v158, main_v159, main_v160]
set_option maxRecDepth 8192 in
theorem w6_writes : (w6 : List (HloOp τ sig (Elt F))).Forall fun op => op.writes ⊆ (w6_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, Finset.singleton_subset_iff, List.mem_toFinset]; exact List.mem_map_of_mem (by decide))
/-- A buffer these operations do not write keeps its contents through them. -/
theorem w6_keep (W : Valuation τ sig (Elt F)) (r : Ref sig .tc) (h : r ∉ w6_W) :
    after w6 W (Proc.devRef .tc r) = W (Proc.devRef .tc r) :=
  after_of_writes_sub w6 _ w6_writes h

set_option maxRecDepth 8192 in
set_option maxHeartbeats 2000000 in
theorem w6_v160 (W : Valuation τ sig (Elt F)) : after w6 W (Proc.devRef .tc main_v160) = kStepE (W (Proc.devRef .tc main_v23)) (W (Proc.devRef .tc main_v17_2)) (W (Proc.devRef .tc main_v139)) := by
  simp only [w6]
  after_results_simp
  rfl

end Cert.NS

end
-- ==== Proof.NSKernel.lean ====
/-
  The kernel program's host operations between its two custom calls, part 8 of 8: the seven groups of operations
  run one after the other. After the first group the identity matrix and the iteration's starting point are in place;
  each further group makes one step of the iteration from the previous iterate, reading only that iterate, the
  identity and the landmark kernel K (the first custom call's third result, which no operation writes). The sixth
  iterate is the Newton–Schulz value ns K of NSDef; the first custom call's other two results are not written.
-/
import proofs.«162784_j87548613362291_2_alg».proof.Proof.NSKernel1
import proofs.«162784_j87548613362291_2_alg».proof.Proof.NSKernel2
import proofs.«162784_j87548613362291_2_alg».proof.Proof.NSKernel3
import proofs.«162784_j87548613362291_2_alg».proof.Proof.NSKernel4
import proofs.«162784_j87548613362291_2_alg».proof.Proof.NSKernel5
import proofs.«162784_j87548613362291_2_alg».proof.Proof.NSKernel6
import proofs.«162784_j87548613362291_2_alg».proof.Proof.NSDef
import Idealize.ShloMosaic.PureOps.Ideal

noncomputable section

namespace Cert.NS

open Idealize.ShloMosaic Idealize.ShloMosaic.TcCoe Idealize.SL.Sem Idealize.ShloMosaic.StableHlo Cert.KernelIdeal Cert.KernelIdeal.Gen

variable {F : FTy → Type} [FloatOps F]

set_option maxRecDepth 8192 in
set_option maxHeartbeats 4000000 in
/-- The 173 operations are the seven groups, in order. -/
theorem hostOps1_split : (hostOps1 : List (HloOp τ sig (Elt F))) = w0 ++ (w1 ++ (w2 ++ (w3 ++ (w4 ++ (w5 ++ w6))))) := rfl

/-- The buffer contents after the first group, the first two groups, …, all seven. -/
def hv1 (W : Valuation τ sig (Elt F)) : Valuation τ sig (Elt F) := after w0 W
def hv2 (W : Valuation τ sig (Elt F)) : Valuation τ sig (Elt F) := after w1 (hv1 W)
def hv3 (W : Valuation τ sig (Elt F)) : Valuation τ sig (Elt F) := after w2 (hv2 W)
def hv4 (W : Valuation τ sig (Elt F)) : Valuation τ sig (Elt F) := after w3 (hv3 W)
def hv5 (W : Valuation τ sig (Elt F)) : Valuation τ sig (Elt F) := after w4 (hv4 W)
def hv6 (W : Valuation τ sig (Elt F)) : Valuation τ sig (Elt F) := after w5 (hv5 W)
def hv7 (W : Valuation τ sig (Elt F)) : Valuation τ sig (Elt F) := after w6 (hv6 W)

theorem after_hostOps1 (W : Valuation τ sig (Elt F)) : after hostOps1 W = hv7 W := by
  rw [hostOps1_split]
  simp only [after_append]
  rfl

/-- A buffer none of the groups writes keeps its contents. -/
theorem hv7_keep (W : Valuation τ sig (Elt F)) (r : Ref sig .tc) (h0 : r ∉ w0_W) (h1 : r ∉ w1_W) (h2 : r ∉ w2_W) (h3 : r ∉ w3_W) (h4 : r ∉ w4_W) (h5 : r ∉ w5_W) (h6 : r ∉ w6_W) :
    hv7 W (Proc.devRef .tc r) = W (Proc.devRef .tc r) :=
  (w6_keep _ r h6).trans ((w5_keep _ r h5).trans ((w4_keep _ r h4).trans ((w3_keep _ r h3).trans ((w2_keep _ r h2).trans ((w1_keep _ r h1).trans (w0_keep _ r h0))))))

theorem hv1_eye (W : Valuation τ sig (Elt F)) : hv1 W (Proc.devRef .tc main_v23) = kEye := w0_v23 W
theorem hv1_K (W : Valuation τ sig (Elt F)) : hv1 W (Proc.devRef .tc main_v17_2) = W (Proc.devRef .tc main_v17_2) := w0_keep W main_v17_2 (by decide)
theorem hv1_it (W : Valuation τ sig (Elt F)) : hv1 W (Proc.devRef .tc main_v34) = kStart (W (Proc.devRef .tc main_v17_2)) := w0_v34 W

theorem hv2_eye (W : Valuation τ sig (Elt F)) : hv2 W (Proc.devRef .tc main_v23) = kEye := (w1_keep (hv1 W) main_v23 (by decide)).trans (hv1_eye W)
theorem hv2_K (W : Valuation τ sig (Elt F)) : hv2 W (Proc.devRef .tc main_v17_2) = W (Proc.devRef .tc main_v17_2) := (w1_keep (hv1 W) main_v17_2 (by decide)).trans (hv1_K W)
theorem hv2_it (W : Valuation τ sig (Elt F)) : hv2 W (Proc.devRef .tc main_v55) = kStepE kEye (W (Proc.devRef .tc main_v17_2)) (kStart (W (Proc.devRef .tc main_v17_2))) := by
  unfold hv2
  rw [w1_v55 (hv1 W), hv1_eye, hv1_K, hv1_it]

theorem hv3_eye (W : Valuation τ sig (Elt F)) : hv3 W (Proc.devRef .tc main_v23) = kEye := (w2_keep (hv2 W) main_v23 (by decide)).trans (hv2_eye W)
theorem hv3_K (W : Valuation τ sig (Elt F)) : hv3 W (Proc.devRef .tc main_v17_2) = W (Proc.devRef .tc main_v17_2) := (w2_keep (hv2 W) main_v17_2 (by decide)).trans (hv2_K W)
theorem hv3_it (W : Valuation τ sig (Elt F)) : hv3 W (Proc.devRef .tc main_v76) = kStepE kEye (W (Proc.devRef .tc main_v17_2)) (kStepE kEye (W (Proc.devRef .tc main_v17_2)) (kStart (W (Proc.devRef .tc main_v17_2)))) := by
  unfold hv3
  rw [w2_v76 (hv2 W), hv2_eye, hv2_K, hv2_it]

theorem hv4_eye (W : Valuation τ sig (Elt F)) : hv4 W (Proc.devRef .tc main_v23) = kEye := (w3_keep (hv3 W) main_v23 (by decide)).trans (hv3_eye W)
theorem hv4_K (W : Valuation τ sig (Elt F)) : hv4 W (Proc.devRef .tc main_v17_2) = W (Proc.devRef .tc main_v17_2) := (w3_keep (hv3 W) main_v17_2 (by decide)).trans (hv3_K W)
theorem hv4_it (W : Valuation τ sig (Elt F)) : hv4 W (Proc.devRef .tc main_v97) = kStepE kEye (W (Proc.devRef .tc main_v17_2)) (kStepE kEye (W (Proc.devRef .tc main_v17_2)) (kStepE kEye (W (Proc.devRef .tc main_v17_2)) (kStart (W (Proc.devRef .tc main_v17_2))))) := by
  unfold hv4
  rw [w3_v97 (hv3 W), hv3_eye, hv3_K, hv3_it]

theorem hv5_eye (W : Valuation τ sig (Elt F)) : hv5 W (Proc.devRef .tc main_v23) = kEye := (w4_keep (hv4 W) main_v23 (by decide)).trans (hv4_eye W)
theorem hv5_K (W : Valuation τ sig (Elt F)) : hv5 W (Proc.devRef .tc main_v17_2) = W (Proc.devRef .tc main_v17_2) := (w4_keep (hv4 W) main_v17_2 (by decide)).trans (hv4_K W)
theorem hv5_it (W : Valuation τ sig (Elt F)) : hv5 W (Proc.devRef .tc main_v118) = kStepE kEye (W (Proc.devRef .tc main_v17_2)) (kStepE kEye (W (Proc.devRef .tc main_v17_2)) (kStepE kEye (W (Proc.devRef .tc main_v17_2)) (kStepE kEye (W (Proc.devRef .tc main_v17_2)) (kStart (W (Proc.devRef .tc main_v17_2)))))) := by
  unfold hv5
  rw [w4_v118 (hv4 W), hv4_eye, hv4_K, hv4_it]

theorem hv6_eye (W : Valuation τ sig (Elt F)) : hv6 W (Proc.devRef .tc main_v23) = kEye := (w5_keep (hv5 W) main_v23 (by decide)).trans (hv5_eye W)
theorem hv6_K (W : Valuation τ sig (Elt F)) : hv6 W (Proc.devRef .tc main_v17_2) = W (Proc.devRef .tc main_v17_2) := (w5_keep (hv5 W) main_v17_2 (by decide)).trans (hv5_K W)
theorem hv6_it (W : Valuation τ sig (Elt F)) : hv6 W (Proc.devRef .tc main_v139) = kStepE kEye (W (Proc.devRef .tc main_v17_2)) (kStepE kEye (W (Proc.devRef .tc main_v17_2)) (kStepE kEye (W (Proc.devRef .tc main_v17_2)) (kStepE kEye (W (Proc.devRef .tc main_v17_2)) (kStepE kEye (W (Proc.devRef .tc main_v17_2)) (kStart (W (Proc.devRef .tc main_v17_2))))))) := by
  unfold hv6
  rw [w5_v139 (hv5 W), hv5_eye, hv5_K, hv5_it]

theorem hv7_eye (W : Valuation τ sig (Elt F)) : hv7 W (Proc.devRef .tc main_v23) = kEye := (w6_keep (hv6 W) main_v23 (by decide)).trans (hv6_eye W)
theorem hv7_K (W : Valuation τ sig (Elt F)) : hv7 W (Proc.devRef .tc main_v17_2) = W (Proc.devRef .tc main_v17_2) := (w6_keep (hv6 W) main_v17_2 (by decide)).trans (hv6_K W)
theorem hv7_it (W : Valuation τ sig (Elt F)) : hv7 W (Proc.devRef .tc main_v160) = kStepE kEye (W (Proc.devRef .tc main_v17_2)) (kStepE kEye (W (Proc.devRef .tc main_v17_2)) (kStepE kEye (W (Proc.devRef .tc main_v17_2)) (kStepE kEye (W (Proc.devRef .tc main_v17_2)) (kStepE kEye (W (Proc.devRef .tc main_v17_2)) (kStepE kEye (W (Proc.devRef .tc main_v17_2)) (kStart (W (Proc.devRef .tc main_v17_2)))))))) := by
  unfold hv7
  rw [w6_v160 (hv6 W), hv6_eye, hv6_K, hv6_it]

/-! The kernel program's records are the reference program's, with the same bodies. -/
theorem kEye_eq : (kEye : FVec F S64x64 .f32) = eye := rfl
theorem kStart_eq (K : FVec F S4x16x64x64 .f32) : kStart K = start K := rfl
theorem kStep_eq (K V : FVec F S4x16x64x64 .f32) : kStepE kEye K V = step K V := rfl

/-- After the host operations between the two custom calls, %160 holds the Newton–Schulz value of the first custom
    call's third result. -/
theorem kernel_v160 (W : Valuation Cert.KernelIdeal.τ Cert.KernelIdeal.sig (Elt Ideal)) :
    StableHlo.after (Cert.KernelIdeal.Gen.hostOps1 (F := Ideal)) W (Proc.devRef .tc Cert.KernelIdeal.main_v160) = ns (F := Ideal) (W (Proc.devRef .tc Cert.KernelIdeal.main_v17_2)) := by
  rw [after_hostOps1, hv7_it, kStart_eq, kStep_eq, kStep_eq, kStep_eq, kStep_eq, kStep_eq, kStep_eq] <;> rfl

/-- The first custom call's first result is not written by them. -/
theorem kernel_keep_v17_0 (W : Valuation Cert.KernelIdeal.τ Cert.KernelIdeal.sig (Elt Ideal)) :
    StableHlo.after (Cert.KernelIdeal.Gen.hostOps1 (F := Ideal)) W (Proc.devRef .tc Cert.KernelIdeal.main_v17_0) = W (Proc.devRef .tc Cert.KernelIdeal.main_v17_0) := by
  rw [after_hostOps1]
  exact hv7_keep W main_v17_0 (by decide) (by decide) (by decide) (by decide) (by decide) (by decide) (by decide)

/-- Nor is its second result. -/
theorem kernel_keep_v17_1 (W : Valuation Cert.KernelIdeal.τ Cert.KernelIdeal.sig (Elt Ideal)) :
    StableHlo.after (Cert.KernelIdeal.Gen.hostOps1 (F := Ideal)) W (Proc.devRef .tc Cert.KernelIdeal.main_v17_1) = W (Proc.devRef .tc Cert.KernelIdeal.main_v17_1) := by
  rw [after_hostOps1]
  exact hv7_keep W main_v17_1 (by decide) (by decide) (by decide) (by decide) (by decide) (by decide) (by decide)

end Cert.NS

end
-- ==== Proof.KValue.lean ====
/-
  The kernel program's value: its result array is Spec's kernelOut of the three argument arrays.
  The first call leaves the projection q, the landmark means (averaging matrix times q) and the normalised landmark
  kernel gn; the host stretch between the calls keeps the first two and turns gn into its iterated pseudo-inverse ns gn;
  the second call leaves betD . (ns gn . dv) at every batch and head.
-/
import proofs.«162784_j87548613362291_2_alg».proof.Proof.KRun
import proofs.«162784_j87548613362291_2_alg».proof.Proof.KRegion0
import proofs.«162784_j87548613362291_2_alg».proof.Proof.KRegion1
import proofs.«162784_j87548613362291_2_alg».proof.Proof.KHost
import proofs.«162784_j87548613362291_2_alg».proof.Proof.NSKernel

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The three argument arrays on device c. -/
abbrev aX (c : Dev nD) : Cert.Nys.TX := m ((c.tc : Thread nD τ).loc main_arg0)
abbrev aW (c : Dev nD) : Cert.Nys.TW := m ((c.tc : Thread nD τ).loc main_arg1)
abbrev aB (c : Dev nD) : Cert.Nys.TB := m ((c.tc : Thread nD τ).loc main_arg2)

/-- After the first call: the projection. -/
theorem first_q (c : Dev nD) : (dat0 (V3 (F := Ideal) m ρ) c).arrAt 4 cfg0.N = Cert.Nys.ofFn4 (Cert.Nys.q (aX m c) (aW m c) (aB m c)) :=
  arr0_4 (V3 (F := Ideal) m ρ) c (aX m c) (aW m c) (aB m c) (Cert.KHost.W3_main_v1 m ρ c) (Cert.KHost.W3_main_v3 m ρ c)
    (Cert.KHost.W3_main_v4 m ρ c) (Cert.KHost.W3_main_v16 m ρ c)

/-- After the first call: the landmark means. -/
theorem first_qt (c : Dev nD) : (dat0 (V3 (F := Ideal) m ρ) c).arrAt 5 cfg0.N = Cert.Nys.ofFn4 (Cert.Nys.qtMat (aX m c) (aW m c) (aB m c)) :=
  arr0_5 (V3 (F := Ideal) m ρ) c (aX m c) (aW m c) (aB m c) (Cert.KHost.W3_main_v1 m ρ c) (Cert.KHost.W3_main_v3 m ρ c)
    (Cert.KHost.W3_main_v4 m ρ c) (Cert.KHost.W3_main_v16 m ρ c)

/-- After the first call: the normalised landmark kernel. -/
theorem first_gn (c : Dev nD) : (dat0 (V3 (F := Ideal) m ρ) c).arrAt 6 cfg0.N
    = Cert.Nys.gnArr Cert.Nys.scMul (Cert.Nys.qtMat (aX m c) (aW m c) (aB m c)) :=
  arr0_6 (V3 (F := Ideal) m ρ) c (aX m c) (aW m c) (aB m c) (Cert.KHost.W3_main_v1 m ρ c) (Cert.KHost.W3_main_v3 m ρ c)
    (Cert.KHost.W3_main_v4 m ρ c) (Cert.KHost.W3_main_v16 m ρ c)

/-- The second call finds the projection where the first left it: the host stretch between the calls does not write it. -/
theorem second_q (c : Dev nD) (b : Fin 4) (h : Fin 16) (n : Fin 4096) (d : Fin 64) :
    (V5 (F := Ideal) m ρ c main_v17_0 : S4x16x4096x64.Idx → Elt Ideal .f32) (ix4 b h n d) = Cert.Nys.q (aX m c) (aW m c) (aB m c) b h n d := by
  show StableHlo.after (hostOps1 (F := Ideal)) (W4 m ρ c) (Proc.devRef .tc main_v17_0) (ix4 b h n d) = _
  rw [Cert.NS.kernel_keep_v17_0]
  have e : W4 (F := Ideal) m ρ c (Proc.devRef .tc main_v17_0) = (dat0 (V3 (F := Ideal) m ρ) c).arrAt 4 cfg0.N := W4_arr m ρ c 4
  rw [e, first_q]
  rfl

/-- … and the landmark means. -/
theorem second_qt (c : Dev nD) (b : Fin 4) (h : Fin 16) (l d : Fin 64) :
    (V5 (F := Ideal) m ρ c main_v17_1 : S4x16x64x64.Idx → Elt Ideal .f32) (ix4 b h l d) = Cert.Nys.qtMat (aX m c) (aW m c) (aB m c) b h l d := by
  show StableHlo.after (hostOps1 (F := Ideal)) (W4 m ρ c) (Proc.devRef .tc main_v17_1) (ix4 b h l d) = _
  rw [Cert.NS.kernel_keep_v17_1]
  have e : W4 (F := Ideal) m ρ c (Proc.devRef .tc main_v17_1) = (dat0 (V3 (F := Ideal) m ρ) c).arrAt 5 cfg0.N := W4_arr m ρ c 5
  rw [e, first_qt]
  rfl

/-- … and, in place of the normalised landmark kernel, its iterated pseudo-inverse. -/
theorem second_gd (c : Dev nD) (b : Fin 4) (h : Fin 16) (l l' : Fin 64) :
    (V5 (F := Ideal) m ρ c main_v160 : S4x16x64x64.Idx → Elt Ideal .f32) (ix4 b h l l')
      = Cert.Nys.fn4 (Cert.NS.ns (F := Ideal) (Cert.Nys.gnArr Cert.Nys.scMul (Cert.Nys.qtMat (aX m c) (aW m c) (aB m c)))) b h l l' := by
  show StableHlo.after (hostOps1 (F := Ideal)) (W4 m ρ c) (Proc.devRef .tc main_v160) (ix4 b h l l') = _
  rw [Cert.NS.kernel_v160]
  have e : W4 (F := Ideal) m ρ c (Proc.devRef .tc main_v17_2) = (dat0 (V3 (F := Ideal) m ρ) c).arrAt 6 cfg0.N := W4_arr m ρ c 6
  rw [e, first_gn]
  rfl

/-- The last boundary's contents at the result buffer: the layer's output. -/
theorem W6_out (c : Dev nD) : W6 (F := Ideal) m ρ c (Proc.devRef .tc main_v161)
    = Cert.Nys.kernelOut (Cert.NS.ns (F := Ideal)) (aX m c) (aW m c) (aB m c) := by
  have e : W6 (F := Ideal) m ρ c (Proc.devRef .tc main_v161) = (dat1 (V5 (F := Ideal) m ρ) c).arrAt 3 cfg1.N := W6_arr m ρ c 3
  rw [e, arr1_3 (V5 (F := Ideal) m ρ) c _ _ _ (second_q m ρ c) (second_qt m ρ c) (second_gd m ρ c)]
  rfl

/-- The kernel program's run: the result at the layer's output, the arguments as launched. -/
theorem kernel_value : θ_run (defs (F := Ideal)) (onTc (τ := τ) (main (F := Ideal))) ⟨m, fun _ => 0, ρ⟩ (fun r => ∀ c : Dev nD,
      r.2.mem ((c.tc : Thread nD τ).loc main_v161) = Cert.Nys.kernelOut (Cert.NS.ns (F := Ideal)) (aX m c) (aW m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run (defs (F := Ideal)) _ _).mono (fun r h c => ⟨(h c).1.trans (W6_out m ρ c), (h c).2⟩) (run_out (F := Ideal) m ρ)

end Cert.KernelIdeal.Hand

end
-- ==== Proof.RefValueDot.lean ====
/-
  Host operations of a batched, per-head matrix computation read at an index written by coordinates:
  the three kinds of contraction (a projection without batch axes, and the batched products "left times right
  transposed" and "left times right"), the two transposes, the broadcasts of a bias and of a row statistic,
  the split of one axis into runs, and sums over one axis.
-/
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import Idealize.ShloMosaic.PureOps.Reduce

noncomputable section

open scoped BigOperators

namespace Cert.RefValue

open Idealize.ShloMosaic Idealize.ShloMosaic.ValueIdx

variable {α : Type}

/-! ## Contractions -/

/-- Batched "left times right transposed": [A, B, M, K] and [A, B, N, K] contracted on their last axes, batch axes 0 and 1;
    entry (a, b, m, n) is the sum over c of L (a, b, m, c) · R (a, b, n, c). -/
theorem dotNT_apply {A B M N K : ℕ} {φ₁ φ₂ : FTy}
    (w : DotDims.WF ⟨4, ![A, B, M, K]⟩ ⟨4, ![A, B, N, K]⟩ ⟨4, ![A, B, M, N]⟩ [3] [3] [2] [2] [0, 1] [0, 1])
    (prec : Option ContractPrecision) (L : FVec Ideal ⟨4, ![A, B, M, K]⟩ φ₁) (R : FVec Ideal ⟨4, ![A, B, N, K]⟩ φ₂)
    (a : Fin A) (b : Fin B) (m : Fin M) (n : Fin N) :
    Host.dotGeneral (⟨[3], [3], [2], [2], [0, 1], [0, 1], w⟩ : DotDims _ _ _) prec L R (ix4 a b m n)
      = ∑ c : Fin K, L (ix4 a b m c) * R (ix4 a b n c) := by
  show FloatOps.dotGeneral _ prec _ L R (ix4 a b m n) = _
  rw [Ideal.dotGeneral_apply,
    ← Equiv.sum_comp (contrEquiv1 (⟨[3], [3], [2], [2], [0, 1], [0, 1], w⟩ : DotDims _ _ _) K rfl rfl).symm]
  refine Finset.sum_congr rfl fun c _ => ?_
  have c3 := contrEquiv1_symm_val
    (⟨[3], [3], [2], [2], [0, 1], [0, 1], w⟩ : DotDims ⟨4, ![A, B, M, K]⟩ ⟨4, ![A, B, N, K]⟩ ⟨4, ![A, B, M, N]⟩) K rfl rfl c
  have l3 : (⟨[3], [3], [2], [2], [0, 1], [0, 1], w⟩ : DotDims ⟨4, ![A, B, M, K]⟩ ⟨4, ![A, B, N, K]⟩ ⟨4, ![A, B, M, N]⟩).lhsIdx
      (ix4 a b m n) ((contrEquiv1 _ K rfl rfl).symm c) = ix4 a b m c := by
    funext ax; apply Fin.ext
    match ax with
    | ⟨0, _⟩ => rfl
    | ⟨1, _⟩ => rfl
    | ⟨2, _⟩ => rfl
    | ⟨3, _⟩ => exact c3
  have r3 : (⟨[3], [3], [2], [2], [0, 1], [0, 1], w⟩ : DotDims ⟨4, ![A, B, M, K]⟩ ⟨4, ![A, B, N, K]⟩ ⟨4, ![A, B, M, N]⟩).rhsIdx
      (ix4 a b m n) ((contrEquiv1 _ K rfl rfl).symm c) = ix4 a b n c := by
    funext ax; apply Fin.ext
    match ax with
    | ⟨0, _⟩ => rfl
    | ⟨1, _⟩ => rfl
    | ⟨2, _⟩ => rfl
    | ⟨3, _⟩ => exact c3
  rw [l3, r3]

/-- Batched "left times right": [A, B, M, K] and [A, B, K, N], the left operand's last axis contracted with the right
    operand's axis 2, batch axes 0 and 1; entry (a, b, m, n) is the sum over c of L (a, b, m, c) · R (a, b, c, n). -/
theorem dotNN_apply {A B M N K : ℕ} {φ₁ φ₂ : FTy}
    (w : DotDims.WF ⟨4, ![A, B, M, K]⟩ ⟨4, ![A, B, K, N]⟩ ⟨4, ![A, B, M, N]⟩ [3] [2] [2] [3] [0, 1] [0, 1])
    (prec : Option ContractPrecision) (L : FVec Ideal ⟨4, ![A, B, M, K]⟩ φ₁) (R : FVec Ideal ⟨4, ![A, B, K, N]⟩ φ₂)
    (a : Fin A) (b : Fin B) (m : Fin M) (n : Fin N) :
    Host.dotGeneral (⟨[3], [2], [2], [3], [0, 1], [0, 1], w⟩ : DotDims _ _ _) prec L R (ix4 a b m n)
      = ∑ c : Fin K, L (ix4 a b m c) * R (ix4 a b c n) := by
  show FloatOps.dotGeneral _ prec _ L R (ix4 a b m n) = _
  rw [Ideal.dotGeneral_apply,
    ← Equiv.sum_comp (contrEquiv1 (⟨[3], [2], [2], [3], [0, 1], [0, 1], w⟩ : DotDims _ _ _) K rfl rfl).symm]
  refine Finset.sum_congr rfl fun c _ => ?_
  have c3 := contrEquiv1_symm_val
    (⟨[3], [2], [2], [3], [0, 1], [0, 1], w⟩ : DotDims ⟨4, ![A, B, M, K]⟩ ⟨4, ![A, B, K, N]⟩ ⟨4, ![A, B, M, N]⟩) K rfl rfl c
  have l3 : (⟨[3], [2], [2], [3], [0, 1], [0, 1], w⟩ : DotDims ⟨4, ![A, B, M, K]⟩ ⟨4, ![A, B, K, N]⟩ ⟨4, ![A, B, M, N]⟩).lhsIdx
      (ix4 a b m n) ((contrEquiv1 _ K rfl rfl).symm c) = ix4 a b m c := by
    funext ax; apply Fin.ext
    match ax with
    | ⟨0, _⟩ => rfl
    | ⟨1, _⟩ => rfl
    | ⟨2, _⟩ => rfl
    | ⟨3, _⟩ => exact c3
  have r3 : (⟨[3], [2], [2], [3], [0, 1], [0, 1], w⟩ : DotDims ⟨4, ![A, B, M, K]⟩ ⟨4, ![A, B, K, N]⟩ ⟨4, ![A, B, M, N]⟩).rhsIdx
      (ix4 a b m n) ((contrEquiv1 _ K rfl rfl).symm c) = ix4 a b c n := by
    funext ax; apply Fin.ext
    match ax with
    | ⟨0, _⟩ => rfl
    | ⟨1, _⟩ => rfl
    | ⟨2, _⟩ => exact c3
    | ⟨3, _⟩ => rfl
  rw [l3, r3]

/-- A projection without batch axes: [H, D, E] and [T, N, E] contracted on their last axes; entry (h, d, t, n) is the sum
    over e of L (h, d, e) · R (t, n, e). -/
theorem dotProj_apply {H D T N E : ℕ} {φ₁ φ₂ : FTy}
    (w : DotDims.WF ⟨3, ![H, D, E]⟩ ⟨3, ![T, N, E]⟩ ⟨4, ![H, D, T, N]⟩ [2] [2] [0, 1] [0, 1] [] [])
    (prec : Option ContractPrecision) (L : FVec Ideal ⟨3, ![H, D, E]⟩ φ₁) (R : FVec Ideal ⟨3, ![T, N, E]⟩ φ₂)
    (h : Fin H) (d : Fin D) (t : Fin T) (n : Fin N) :
    Host.dotGeneral (⟨[2], [2], [0, 1], [0, 1], [], [], w⟩ : DotDims _ _ _) prec L R (ix4 h d t n)
      = ∑ e : Fin E, L (ix3 h d e) * R (ix3 t n e) := by
  show FloatOps.dotGeneral _ prec _ L R (ix4 h d t n) = _
  rw [Ideal.dotGeneral_apply,
    ← Equiv.sum_comp (contrEquiv1 (⟨[2], [2], [0, 1], [0, 1], [], [], w⟩ : DotDims _ _ _) E rfl rfl).symm]
  refine Finset.sum_congr rfl fun e _ => ?_
  have c3 := contrEquiv1_symm_val
    (⟨[2], [2], [0, 1], [0, 1], [], [], w⟩ : DotDims ⟨3, ![H, D, E]⟩ ⟨3, ![T, N, E]⟩ ⟨4, ![H, D, T, N]⟩) E rfl rfl e
  have l3 : (⟨[2], [2], [0, 1], [0, 1], [], [], w⟩ : DotDims ⟨3, ![H, D, E]⟩ ⟨3, ![T, N, E]⟩ ⟨4, ![H, D, T, N]⟩).lhsIdx
      (ix4 h d t n) ((contrEquiv1 _ E rfl rfl).symm e) = ix3 h d e := by
    funext ax; apply Fin.ext
    match ax with
    | ⟨0, _⟩ => rfl
    | ⟨1, _⟩ => rfl
    | ⟨2, _⟩ => exact c3
  have r3 : (⟨[2], [2], [0, 1], [0, 1], [], [], w⟩ : DotDims ⟨3, ![H, D, E]⟩ ⟨3, ![T, N, E]⟩ ⟨4, ![H, D, T, N]⟩).rhsIdx
      (ix4 h d t n) ((contrEquiv1 _ E rfl rfl).symm e) = ix3 t n e := by
    funext ax; apply Fin.ext
    match ax with
    | ⟨0, _⟩ => rfl
    | ⟨1, _⟩ => rfl
    | ⟨2, _⟩ => exact c3
  rw [l3, r3]

end Cert.RefValue

end
-- ==== Proof.RefValueLayout.lean ====
/-
  Layout operations of a batched, per-head computation read at an index written by coordinates: the transpose that
  brings a projection [H, D, T, N] to [T, H, N, D]; a bias [H, D] broadcast over [T, H, N, D]; a row statistic
  [A, B, C] broadcast along a new last axis; the split of axis 2 of a [4, 16, 4096, 64] array into 64 runs of 64;
  and the host's sum over one axis of a rank-4 and of a rank-5 array.
-/
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws
import Idealize.ShloMosaic.PureOps.Reduce

noncomputable section

open scoped BigOperators

namespace Cert.RefValue

open Idealize.ShloMosaic Idealize.ShloMosaic.ValueIdx

variable {α : Type}

/-! ## A transpose -/

/-- An [H, D, T, N] array transposed with permutation [2, 0, 3, 1] reads, at (t, h, n, d), the operand at (h, d, t, n). -/
theorem transpose_2031_apply {H D T N : ℕ} (x : (⟨4, ![H, D, T, N]⟩ : Shape).Idx → α)
    (hT : (⟨4, ![H, D, T, N]⟩ : Shape).Transposes [2, 0, 3, 1] ⟨4, ![T, H, N, D]⟩)
    (t : Fin T) (h : Fin H) (n : Fin N) (d : Fin D) :
    transpose ⟨4, ![T, H, N, D]⟩ [2, 0, 3, 1] x hT (ix4 t h n d) = x (ix4 h d t n) :=
  transpose_apply _ x hT _ _ fun c => match c with | ⟨0, _⟩ => rfl | ⟨1, _⟩ => rfl | ⟨2, _⟩ => rfl | ⟨3, _⟩ => rfl

/-! ## Broadcasts in dimensions -/

/-- A bias [H, D] placed on axes 1 and 3 of [1, H, 1, D] reads, at (u, h, v, d), entry (h, d). -/
theorem bcast_bias_apply {H D : ℕ} (x : (⟨2, ![H, D]⟩ : Shape).Idx → α)
    (hB : (⟨2, ![H, D]⟩ : Shape).BroadcastsInDim ⟨4, ![1, H, 1, D]⟩ ![1, 3]) (u : Fin 1) (h : Fin H) (v : Fin 1) (d : Fin D) :
    broadcastInDim ⟨4, ![1, H, 1, D]⟩ ![1, 3] hB x (ix4 u h v d) = x (ix2 h d) :=
  broadcastInDim_apply _ hB x _ _ (fun ax => by
    match ax with
    | ⟨0, _⟩ =>
      show h.val = if H = 1 then 0 else h.val
      split
      · have := h.isLt; omega
      · rfl
    | ⟨1, _⟩ =>
      show d.val = if D = 1 then 0 else d.val
      split
      · have := d.isLt; omega
      · rfl)

/-- A [1, H, 1, D] array broadcast over [T, H, N, D] reads, at (t, h, n, d), the operand at (0, h, 0, d). -/
theorem bcast_1h1d_apply {T H N D : ℕ} (x : (⟨4, ![1, H, 1, D]⟩ : Shape).Idx → α)
    (hB : (⟨4, ![1, H, 1, D]⟩ : Shape).BroadcastsInDim ⟨4, ![T, H, N, D]⟩ ![0, 1, 2, 3])
    (t : Fin T) (h : Fin H) (n : Fin N) (d : Fin D) :
    broadcastInDim ⟨4, ![T, H, N, D]⟩ ![0, 1, 2, 3] hB x (ix4 t h n d) = x (ix4 (0 : Fin 1) h (0 : Fin 1) d) :=
  broadcastInDim_apply _ hB x _ _ (fun ax => by
    match ax with
    | ⟨0, _⟩ => rfl
    | ⟨1, _⟩ =>
      show h.val = if H = 1 then 0 else h.val
      split
      · have := h.isLt; omega
      · rfl
    | ⟨2, _⟩ => rfl
    | ⟨3, _⟩ =>
      show d.val = if D = 1 then 0 else d.val
      split
      · have := d.isLt; omega
      · rfl)

/-- An [A, B, C] array given a trailing unit axis reads, at (a, b, c, u), entry (a, b, c). -/
theorem bcast_abc_abc1_apply {A B C : ℕ} (x : (⟨3, ![A, B, C]⟩ : Shape).Idx → α)
    (hB : (⟨3, ![A, B, C]⟩ : Shape).BroadcastsInDim ⟨4, ![A, B, C, 1]⟩ ![0, 1, 2])
    (a : Fin A) (b : Fin B) (c : Fin C) (u : Fin 1) :
    broadcastInDim ⟨4, ![A, B, C, 1]⟩ ![0, 1, 2] hB x (ix4 a b c u) = x (ix3 a b c) :=
  broadcastInDim_apply _ hB x _ _ (fun ax => by
    match ax with
    | ⟨0, _⟩ =>
      show a.val = if A = 1 then 0 else a.val
      split
      · have := a.isLt; omega
      · rfl
    | ⟨1, _⟩ =>
      show b.val = if B = 1 then 0 else b.val
      split
      · have := b.isLt; omega
      · rfl
    | ⟨2, _⟩ =>
      show c.val = if C = 1 then 0 else c.val
      split
      · have := c.isLt; omega
      · rfl)

/-- An [A, B, C, 1] array broadcast along its last axis to [A, B, C, D] reads, at (a, b, c, d), entry (a, b, c, 0). -/
theorem bcast_abc1_abcd_apply {A B C D : ℕ} (x : (⟨4, ![A, B, C, 1]⟩ : Shape).Idx → α)
    (hB : (⟨4, ![A, B, C, 1]⟩ : Shape).BroadcastsInDim ⟨4, ![A, B, C, D]⟩ ![0, 1, 2, 3])
    (a : Fin A) (b : Fin B) (c : Fin C) (d : Fin D) :
    broadcastInDim ⟨4, ![A, B, C, D]⟩ ![0, 1, 2, 3] hB x (ix4 a b c d) = x (ix4 a b c (0 : Fin 1)) :=
  broadcastInDim_apply _ hB x _ _ (fun ax => by
    match ax with
    | ⟨0, _⟩ =>
      show a.val = if A = 1 then 0 else a.val
      split
      · have := a.isLt; omega
      · rfl
    | ⟨1, _⟩ =>
      show b.val = if B = 1 then 0 else b.val
      split
      · have := b.isLt; omega
      · rfl
    | ⟨2, _⟩ =>
      show c.val = if C = 1 then 0 else c.val
      split
      · have := c.isLt; omega
      · rfl
    | ⟨3, _⟩ => rfl)

/-! ## Axis 2 split into runs -/

/-- A [4, 16, 4096, 64] array cast to [4, 16, 64, 64, 64] reads, at (b, h, l, g, d), the entry (b, h, 64 l + g, d). -/
theorem shapeCast_runs_apply (x : (⟨4, ![4, 16, 4096, 64]⟩ : Shape).Idx → α)
    (hC : (⟨4, ![4, 16, 4096, 64]⟩ : Shape).ShapeCasts ⟨5, ![4, 16, 64, 64, 64]⟩)
    (b : Fin 4) (h : Fin 16) (l g d : Fin 64) (n : Fin 4096) (hn : n.val = l.val * 64 + g.val) :
    shapeCast ⟨5, ![4, 16, 64, 64, 64]⟩ x hC (ix5 b h l g d) = x (ix4 b h n d) :=
  shapeCast_apply x hC _ _ (by
    rw [Shape.rowMajor_val_four, Shape.rowMajor_val_five]
    show ((b.val * 16 + h.val) * 4096 + n.val) * 64 + d.val = (((b.val * 16 + h.val) * 64 + l.val) * 64 + g.val) * 64 + d.val
    omega)

/-! ## Sums over one axis -/

/-- The reduced index (a, b, c) with coordinate k put back on the last axis is (a, b, c, k). -/
theorem lift_last4 {A B C D : ℕ} (h : (⟨4, ![A, B, C, D]⟩ : Shape).Reduces [3] (⟨3, ![A, B, C]⟩ : Shape))
    (a : Fin A) (b : Fin B) (c : Fin C) (k : Fin ((⟨4, ![A, B, C, D]⟩ : Shape).size 3)) :
    h.lift (ix3 a b c) k = ix4 a b c (⟨k.val, k.isLt⟩ : Fin D) := by
  funext x; apply Fin.ext
  fin_cases x <;> rfl

/-- The host's sum of an [A, B, C, D] array over its last axis, at (a, b, c): the initial value plus the sum over the row. -/
theorem hostReduceAdd_last4 {A B C D : ℕ} (x : (⟨4, ![A, B, C, D]⟩ : Shape).Idx → EReal) (init : EReal)
    (h' : (⟨4, ![A, B, C, D]⟩ : Shape).ReducesTo [3] (⟨3, ![A, B, C]⟩ : Shape))
    (h : (⟨4, ![A, B, C, D]⟩ : Shape).Reduces [3] (⟨3, ![A, B, C]⟩ : Shape)) (a : Fin A) (b : Fin B) (c : Fin C) :
    Ideal.hostReduceAdd h' x init (ix3 a b c) = init + ∑ j : Fin D, x (ix4 a b c j) := by
  refine (Ideal.hostReduceAdd_single h' h x init (ix3 a b c)).trans ?_
  exact congrArg (init + ·) (Finset.sum_congr rfl fun k _ => congrArg x (lift_last4 h a b c k))

/-- The reduced index (a, b, c, d) with coordinate k put back on axis 3 of a rank-5 array is (a, b, c, k, d). -/
theorem lift_axis3of5 {A B C G D : ℕ} (h : (⟨5, ![A, B, C, G, D]⟩ : Shape).Reduces [3] (⟨4, ![A, B, C, D]⟩ : Shape))
    (a : Fin A) (b : Fin B) (c : Fin C) (d : Fin D) (k : Fin ((⟨5, ![A, B, C, G, D]⟩ : Shape).size 3)) :
    h.lift (ix4 a b c d) k = ix5 a b c (⟨k.val, k.isLt⟩ : Fin G) d := by
  funext x; apply Fin.ext
  fin_cases x <;> rfl

/-- The host's sum of an [A, B, C, G, D] array over axis 3, at (a, b, c, d): the initial value plus the sum over g. -/
theorem hostReduceAdd_axis3of5 {A B C G D : ℕ} (x : (⟨5, ![A, B, C, G, D]⟩ : Shape).Idx → EReal) (init : EReal)
    (h' : (⟨5, ![A, B, C, G, D]⟩ : Shape).ReducesTo [3] (⟨4, ![A, B, C, D]⟩ : Shape))
    (h : (⟨5, ![A, B, C, G, D]⟩ : Shape).Reduces [3] (⟨4, ![A, B, C, D]⟩ : Shape))
    (a : Fin A) (b : Fin B) (c : Fin C) (d : Fin D) :
    Ideal.hostReduceAdd h' x init (ix4 a b c d) = init + ∑ g : Fin G, x (ix5 a b c g d) := by
  refine (Ideal.hostReduceAdd_single h' h x init (ix4 a b c d)).trans ?_
  exact congrArg (init + ·) (Finset.sum_congr rfl fun k _ => congrArg x (lift_axis3of5 h a b c d k))

end Cert.RefValue

end
-- ==== Proof.RefValueTerms.lean ====
/-
  The composite host terms of the landmark attention layer read at an index, over arbitrary operand arrays:
  the exponential of a scaled batched product of one array with another's transpose, a row normalisation
  (an array divided by its sums over the last axis), and the mean over runs of 64 consecutive positions.
-/
import proofs.«162784_j87548613362291_2_alg».proof.Proof.Spec
import proofs.«162784_j87548613362291_2_alg».proof.Proof.RefValueDot
import proofs.«162784_j87548613362291_2_alg».proof.Proof.RefValueLayout

noncomputable section

open scoped BigOperators

namespace Cert.RefValue

open Idealize.ShloMosaic Idealize.ShloMosaic.ValueIdx

/-- The exponential of a batched product "left times right transposed" divided by the broadcast scalar 8, at
    (a, b, m, n): exp of the scaled sum over c of L (a, b, m, c) · R (a, b, n, c). -/
theorem expScaledNT_apply {A B M N K : ℕ}
    (w : DotDims.WF ⟨4, ![A, B, M, K]⟩ ⟨4, ![A, B, N, K]⟩ ⟨4, ![A, B, M, N]⟩ [3] [3] [2] [2] [0, 1] [0, 1])
    (hb : (⟨0, ![]⟩ : Shape).BroadcastsInDim ⟨4, ![A, B, M, N]⟩ ![])
    (L : FVec Ideal ⟨4, ![A, B, M, K]⟩ .f32) (R : FVec Ideal ⟨4, ![A, B, N, K]⟩ .f32)
    (a : Fin A) (b : Fin B) (m : Fin M) (n : Fin N) :
    Host.exp (Host.divf (Host.dotGeneral (⟨[3], [3], [2], [2], [0, 1], [0, 1], w⟩ : DotDims _ _ _) none L R)
        (broadcastInDim ⟨4, ![A, B, M, N]⟩ ![] hb (constant (F := Ideal) ⟨0, ![]⟩ .f32 0x41000000#32))) (ix4 a b m n)
      = Ideal.exp (Cert.Nys.scDiv (∑ c : Fin K, L (ix4 a b m c) * R (ix4 a b n c))) := by
  show Ideal.exp (Ideal.div (Host.dotGeneral (⟨[3], [3], [2], [2], [0, 1], [0, 1], w⟩ : DotDims _ _ _) none L R (ix4 a b m n))
    (broadcastInDim ⟨4, ![A, B, M, N]⟩ ![] hb (constant (F := Ideal) ⟨0, ![]⟩ .f32 0x41000000#32) (ix4 a b m n))) = _
  rw [dotNT_apply, broadcastInDim_scalar_apply]
  rfl

/-- An array divided by its sums over the last axis (the sums broadcast back through a trailing unit axis), at
    (a, b, c, d): the entry divided by the sum of its row. -/
theorem rowNormalize_apply {A B C D : ℕ}
    (h' : (⟨4, ![A, B, C, D]⟩ : Shape).ReducesTo [3] (⟨3, ![A, B, C]⟩ : Shape))
    (h : (⟨4, ![A, B, C, D]⟩ : Shape).Reduces [3] (⟨3, ![A, B, C]⟩ : Shape))
    (hu : 0 < (⟨0, ![]⟩ : Shape).numel)
    (hb1 : (⟨3, ![A, B, C]⟩ : Shape).BroadcastsInDim ⟨4, ![A, B, C, 1]⟩ ![0, 1, 2])
    (hb2 : (⟨4, ![A, B, C, 1]⟩ : Shape).BroadcastsInDim ⟨4, ![A, B, C, D]⟩ ![0, 1, 2, 3])
    (E : FVec Ideal ⟨4, ![A, B, C, D]⟩ .f32) (a : Fin A) (b : Fin B) (c : Fin C) (d : Fin D) :
    Host.divf E (broadcastInDim ⟨4, ![A, B, C, D]⟩ ![0, 1, 2, 3] hb2 (broadcastInDim ⟨4, ![A, B, C, 1]⟩ ![0, 1, 2] hb1
        (Host.reduceAdd E (constant (F := Ideal) ⟨0, ![]⟩ .f32 0x00000000#32) h' hu))) (ix4 a b c d)
      = Ideal.div (E (ix4 a b c d)) (∑ j : Fin D, E (ix4 a b c j)) := by
  show Ideal.div (E (ix4 a b c d)) (broadcastInDim ⟨4, ![A, B, C, D]⟩ ![0, 1, 2, 3] hb2 (broadcastInDim ⟨4, ![A, B, C, 1]⟩ ![0, 1, 2] hb1
        (Host.reduceAdd E (constant (F := Ideal) ⟨0, ![]⟩ .f32 0x00000000#32) h' hu)) (ix4 a b c d)) = _
  rw [bcast_abc1_abcd_apply, bcast_abc_abc1_apply]
  show Ideal.div _ (Ideal.hostReduceAdd h' E (Ideal.ofBits .f32 0x00000000#32) (ix3 a b c)) = _
  rw [hostReduceAdd_last4 E _ h' h, Ideal.ofBits_zero_f32, zero_add]

/-- The mean over runs of 64 positions: the array cast to [4, 16, 64, 64, 64], summed over the run axis and divided by
    the broadcast scalar 64, at (b, h, l, d): the sum over g of the entries (b, h, 64 l + g, d), divided by 64. -/
theorem runMean_apply
    (hC : (⟨4, ![4, 16, 4096, 64]⟩ : Shape).ShapeCasts ⟨5, ![4, 16, 64, 64, 64]⟩)
    (h' : (⟨5, ![4, 16, 64, 64, 64]⟩ : Shape).ReducesTo [3] (⟨4, ![4, 16, 64, 64]⟩ : Shape))
    (h : (⟨5, ![4, 16, 64, 64, 64]⟩ : Shape).Reduces [3] (⟨4, ![4, 16, 64, 64]⟩ : Shape))
    (hu : 0 < (⟨0, ![]⟩ : Shape).numel)
    (hb : (⟨0, ![]⟩ : Shape).BroadcastsInDim ⟨4, ![4, 16, 64, 64]⟩ ![])
    (Q : FVec Ideal ⟨4, ![4, 16, 4096, 64]⟩ .f32) (b : Fin 4) (hh : Fin 16) (l d : Fin 64) :
    Host.divf (Host.reduceAdd (shapeCast ⟨5, ![4, 16, 64, 64, 64]⟩ Q hC) (constant (F := Ideal) ⟨0, ![]⟩ .f32 0x00000000#32) h' hu)
        (broadcastInDim ⟨4, ![4, 16, 64, 64]⟩ ![] hb (constant (F := Ideal) ⟨0, ![]⟩ .f32 0x42800000#32)) (ix4 b hh l d)
      = Ideal.div (∑ g : Fin 64, Q (ix4 b hh (Cert.Nys.pos l g) d)) Cert.Nys.c64 := by
  show Ideal.div (Ideal.hostReduceAdd h' (shapeCast ⟨5, ![4, 16, 64, 64, 64]⟩ Q hC) (Ideal.ofBits .f32 0x00000000#32) (ix4 b hh l d))
    (broadcastInDim ⟨4, ![4, 16, 64, 64]⟩ ![] hb (constant (F := Ideal) ⟨0, ![]⟩ .f32 0x42800000#32) (ix4 b hh l d)) = _
  rw [hostReduceAdd_axis3of5 _ _ h' h, Ideal.ofBits_zero_f32, zero_add, broadcastInDim_scalar_apply]
  refine congrArg₂ Ideal.div (Finset.sum_congr rfl fun g _ => ?_) rfl
  exact shapeCast_runs_apply Q hC b hh l g d (Cert.Nys.pos l g) rfl

end Cert.RefValue

end
-- ==== Proof.RefValueQ.lean ====
/-
  The reference program's projection and landmark means as values.

  With X, W, B the three argument arrays: the projected array (a contraction of W with X's transpose over the
  embedding axis, transposed to [batch, head, position, dimension], plus the bias broadcast over batch and position)
  is q at every index, and both copies of the mean over runs of 64 positions are qtMean.
-/
import proofs.«162784_j87548613362291_2_alg».proof.Proof.Gen.ReferenceIdeal.Run
import proofs.«162784_j87548613362291_2_alg».proof.Proof.RefValueTerms

noncomputable section

open scoped BigOperators

namespace Cert.RefValue

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo

/-- The three argument arrays of a launch valuation. -/
abbrev argX (V0 : Valuation τ sig (Elt Ideal)) : Cert.Nys.TX := V0 (Proc.devRef .tc main_arg0)
abbrev argW (V0 : Valuation τ sig (Elt Ideal)) : Cert.Nys.TW := V0 (Proc.devRef .tc main_arg1)
abbrev argB (V0 : Valuation τ sig (Elt Ideal)) : Cert.Nys.TB := V0 (Proc.devRef .tc main_arg2)

/-- The projection over arbitrary operand arrays, at (b, h, n, d). -/
theorem proj_apply (X : FVec Ideal S4x1024x4096 .f32) (W : FVec Ideal S16x64x1024 .f32) (B : FVec Ideal S16x64 .f32)
    (b : Fin 4) (h : Fin 16) (n : Fin 4096) (d : Fin 64) :
    addf (transpose S4x16x4096x64 [2, 0, 3, 1] (Host.dotGeneral dot_S16x64x1024_S4x4096x1024_S16x64x4x4096_2_2_01_01_n_n none W
        (transpose S4x4096x1024 [0, 2, 1] X transposes_S4x1024x4096_S4x4096x1024_0_2_1)) transposes_S16x64x4x4096_S4x16x4096x64_2_0_3_1)
      (broadcastInDim S4x16x4096x64 ![0, 1, 2, 3] bcast_S1x16x1x64_S4x16x4096x64_0_1_2_3
        (broadcastInDim S1x16x1x64 ![1, 3] bcast_S16x64_S1x16x1x64_1_3 B)) (ix4 b h n d)
      = Cert.Nys.q X W B b h n d := by
  have e1 := transpose_2031_apply (Host.dotGeneral dot_S16x64x1024_S4x4096x1024_S16x64x4x4096_2_2_01_01_n_n none W
    (transpose S4x4096x1024 [0, 2, 1] X transposes_S4x1024x4096_S4x4096x1024_0_2_1)) transposes_S16x64x4x4096_S4x16x4096x64_2_0_3_1 b h n d
  have e2 := dotProj_apply dot_S16x64x1024_S4x4096x1024_S16x64x4x4096_2_2_01_01_n_n_wf none W
    (transpose S4x4096x1024 [0, 2, 1] X transposes_S4x1024x4096_S4x4096x1024_0_2_1) h d b n
  have e3 : ∀ e : Fin 1024, transpose S4x4096x1024 [0, 2, 1] X transposes_S4x1024x4096_S4x4096x1024_0_2_1 (ix3 b n e) = X (ix3 b e n) :=
    fun e => transpose_ix3_021_apply X transposes_S4x1024x4096_S4x4096x1024_0_2_1 b n e
  have e4 := bcast_1h1d_apply (broadcastInDim S1x16x1x64 ![1, 3] bcast_S16x64_S1x16x1x64_1_3 B)
    bcast_S1x16x1x64_S4x16x4096x64_0_1_2_3 b h n d
  have e5 := bcast_bias_apply B bcast_S16x64_S1x16x1x64_1_3 (0 : Fin 1) h (0 : Fin 1) d
  rw [addf_apply]
  unfold Cert.Nys.q
  refine congrArg₂ (· + ·) (e1.trans (e2.trans (Finset.sum_congr rfl fun e _ => ?_))) (e4.trans e5)
  rw [e3 e, mul_comm]

/-- The projected array of the run is q at every index. -/
theorem v5_apply (V0 : Valuation τ sig (Elt Ideal)) (b : Fin 4) (h : Fin 16) (n : Fin 4096) (d : Fin 64) :
    (res_main_v5 V0 : FVec Ideal S4x16x4096x64 .f32) (ix4 b h n d) = Cert.Nys.q (argX V0) (argW V0) (argB V0) b h n d :=
  proj_apply (V0 (Proc.devRef .tc main_arg0)) (V0 (Proc.devRef .tc main_arg1)) (V0 (Proc.devRef .tc main_arg2)) b h n d

/-- The first copy of the landmark means is qtMean at every index. -/
theorem v9_apply (V0 : Valuation τ sig (Elt Ideal)) (b : Fin 4) (h : Fin 16) (l d : Fin 64) :
    (res_main_v9 V0 : FVec Ideal S4x16x64x64 .f32) (ix4 b h l d) = Cert.Nys.qtMean (argX V0) (argW V0) (argB V0) b h l d := by
  refine (runMean_apply shapeCasts_S4x16x4096x64_S4x16x64x64x64 reducesTo_S4x16x64x64x64_S4x16x64x64_d3 (by decide) h_S_
    bcast_S_S4x16x64x64 (res_main_v5 V0) b h l d).trans ?_
  unfold Cert.Nys.qtMean
  exact congrArg₂ Ideal.div (Finset.sum_congr rfl fun g _ => v5_apply V0 b h (Cert.Nys.pos l g) d) rfl

/-- The second copy likewise. -/
theorem v13_apply (V0 : Valuation τ sig (Elt Ideal)) (b : Fin 4) (h : Fin 16) (l d : Fin 64) :
    (res_main_v13 V0 : FVec Ideal S4x16x64x64 .f32) (ix4 b h l d) = Cert.Nys.qtMean (argX V0) (argW V0) (argB V0) b h l d := by
  refine (runMean_apply shapeCasts_S4x16x4096x64_S4x16x64x64x64 reducesTo_S4x16x64x64x64_S4x16x64x64_d3 (by decide) h_S_
    bcast_S_S4x16x64x64 (res_main_v5 V0) b h l d).trans ?_
  unfold Cert.Nys.qtMean
  exact congrArg₂ Ideal.div (Finset.sum_congr rfl fun g _ => v5_apply V0 b h (Cert.Nys.pos l g) d) rfl

end Cert.RefValue

end
-- ==== Proof.RefValueK.lean ====
/-
  The reference program's three kernels and their row normalisations as values.

  With Q the projected array and Qt the landmark means: the exponentials of the scaled products Q Qtᵀ, Qt Qtᵀ and
  Qt Qᵀ are bet, gam and del at every index; each divided by its row sums is betD, gn and delD; and the product of
  the normalised del with Q is dv.
-/
import proofs.«162784_j87548613362291_2_alg».proof.Proof.Gen.ReferenceIdeal.Run
import proofs.«162784_j87548613362291_2_alg».proof.Proof.RefValueQ

noncomputable section

open scoped BigOperators

namespace Cert.RefValue

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo

/-- Abbreviations for the three argument-dependent functions of the specification. -/
abbrev qF (V0 : Valuation τ sig (Elt Ideal)) := Cert.Nys.q (argX V0) (argW V0) (argB V0)
abbrev qtF (V0 : Valuation τ sig (Elt Ideal)) := Cert.Nys.qtMean (argX V0) (argW V0) (argB V0)

/-- Q Qtᵀ, scaled and exponentiated, is bet. -/
theorem v17_apply (V0 : Valuation τ sig (Elt Ideal)) (b : Fin 4) (h : Fin 16) (n : Fin 4096) (l : Fin 64) :
    (res_main_v17 V0 : FVec Ideal S4x16x4096x64 .f32) (ix4 b h n l) = Cert.Nys.bet Cert.Nys.scDiv (qF V0) (qtF V0) b h n l := by
  refine (expScaledNT_apply dot_S4x16x4096x64_S4x16x64x64_S4x16x4096x64_3_3_2_2_01_01_wf bcast_S_S4x16x4096x64
    (res_main_v5 V0) (res_main_v13 V0) b h n l).trans ?_
  unfold Cert.Nys.bet
  exact congrArg (fun s => Ideal.exp (Cert.Nys.scDiv s))
    (Finset.sum_congr rfl fun d _ => congrArg₂ (· * ·) (v5_apply V0 b h n d) (v13_apply V0 b h l d))

/-- Qt Qtᵀ, scaled and exponentiated, is gam. -/
theorem v21_apply (V0 : Valuation τ sig (Elt Ideal)) (b : Fin 4) (h : Fin 16) (l l' : Fin 64) :
    (res_main_v21 V0 : FVec Ideal S4x16x64x64 .f32) (ix4 b h l l') = Cert.Nys.gam Cert.Nys.scDiv (qtF V0) b h l l' := by
  refine (expScaledNT_apply dot_S4x16x64x64_S4x16x64x64_S4x16x64x64_3_3_2_2_01_01_wf bcast_S_S4x16x64x64
    (res_main_v9 V0) (res_main_v13 V0) b h l l').trans ?_
  unfold Cert.Nys.gam
  exact congrArg (fun s => Ideal.exp (Cert.Nys.scDiv s))
    (Finset.sum_congr rfl fun d _ => congrArg₂ (· * ·) (v9_apply V0 b h l d) (v13_apply V0 b h l' d))

/-- Qt Qᵀ, scaled and exponentiated, is del. -/
theorem v25_apply (V0 : Valuation τ sig (Elt Ideal)) (b : Fin 4) (h : Fin 16) (l : Fin 64) (n : Fin 4096) :
    (res_main_v25 V0 : FVec Ideal S4x16x64x4096 .f32) (ix4 b h l n) = Cert.Nys.del Cert.Nys.scDiv (qF V0) (qtF V0) b h l n := by
  refine (expScaledNT_apply dot_S4x16x64x64_S4x16x4096x64_S4x16x64x4096_3_3_2_2_01_01_wf bcast_S_S4x16x64x4096
    (res_main_v9 V0) (res_main_v5 V0) b h l n).trans ?_
  unfold Cert.Nys.del
  exact congrArg (fun s => Ideal.exp (Cert.Nys.scDiv s))
    (Finset.sum_congr rfl fun d _ => congrArg₂ (· * ·) (v9_apply V0 b h l d) (v5_apply V0 b h n d))

/-- gam divided by its row sums is gn. -/
theorem v33_apply (V0 : Valuation τ sig (Elt Ideal)) (b : Fin 4) (h : Fin 16) (l l' : Fin 64) :
    (res_main_v33 V0 : FVec Ideal S4x16x64x64 .f32) (ix4 b h l l') = Cert.Nys.gn Cert.Nys.scDiv (qtF V0) b h l l' := by
  refine (rowNormalize_apply reducesTo_S4x16x64x64_S4x16x64_d3 (by decide) h_S_ bcast_S4x16x64_S4x16x64x1_0_1_2
    bcast_S4x16x64x1_S4x16x64x64_0_1_2_3 (res_main_v21 V0) b h l l').trans ?_
  unfold Cert.Nys.gn
  exact congrArg₂ Ideal.div (v21_apply V0 b h l l') (Finset.sum_congr rfl fun j _ => v21_apply V0 b h l j)

/-- As whole arrays: the normalised landmark kernel of the run is the specification's. -/
theorem v33_eq (V0 : Valuation τ sig (Elt Ideal)) :
    (res_main_v33 V0 : FVec Ideal S4x16x64x64 .f32) = Cert.Nys.gnArr Cert.Nys.scDiv (qtF V0) := by
  funext i
  obtain ⟨b, h, l, l', rfl⟩ : ∃ (b : Fin 4) (h : Fin 16) (l l' : Fin 64), i = ix4 b h l l' := ⟨i 0, i 1, i 2, i 3, eq_ix4 i⟩
  exact v33_apply V0 b h l l'

/-- The normalised bet: bet divided by its row sums. -/
def betDTerm (V0 : Valuation τ sig (Elt Ideal)) : FVec Ideal S4x16x4096x64 .f32 :=
  Host.divf (res_main_v17 V0) (broadcastInDim S4x16x4096x64 ![0, 1, 2, 3] bcast_S4x16x4096x1_S4x16x4096x64_0_1_2_3
    (broadcastInDim S4x16x4096x1 ![0, 1, 2] bcast_S4x16x4096_S4x16x4096x1_0_1_2
      (Host.reduceAdd (res_main_v17 V0) (constant S_ .f32 0x00000000#32) reducesTo_S4x16x4096x64_S4x16x4096_d3 h_S_)))

theorem betDTerm_apply (V0 : Valuation τ sig (Elt Ideal)) (b : Fin 4) (h : Fin 16) (n : Fin 4096) (l : Fin 64) :
    betDTerm V0 (ix4 b h n l) = Cert.Nys.betD Cert.Nys.scDiv (qF V0) (qtF V0) b h n l := by
  refine (rowNormalize_apply reducesTo_S4x16x4096x64_S4x16x4096_d3 (by decide) h_S_ bcast_S4x16x4096_S4x16x4096x1_0_1_2
    bcast_S4x16x4096x1_S4x16x4096x64_0_1_2_3 (res_main_v17 V0) b h n l).trans ?_
  unfold Cert.Nys.betD
  exact congrArg₂ Ideal.div (v17_apply V0 b h n l) (Finset.sum_congr rfl fun j _ => v17_apply V0 b h n j)

/-- The normalised del: del divided by its row sums. -/
def delDTerm (V0 : Valuation τ sig (Elt Ideal)) : FVec Ideal S4x16x64x4096 .f32 :=
  Host.divf (res_main_v25 V0) (broadcastInDim S4x16x64x4096 ![0, 1, 2, 3] bcast_S4x16x64x1_S4x16x64x4096_0_1_2_3
    (broadcastInDim S4x16x64x1 ![0, 1, 2] bcast_S4x16x64_S4x16x64x1_0_1_2
      (Host.reduceAdd (res_main_v25 V0) (constant S_ .f32 0x00000000#32) reducesTo_S4x16x64x4096_S4x16x64_d3 h_S_)))

theorem delDTerm_apply (V0 : Valuation τ sig (Elt Ideal)) (b : Fin 4) (h : Fin 16) (l : Fin 64) (n : Fin 4096) :
    delDTerm V0 (ix4 b h l n) = Cert.Nys.delD Cert.Nys.scDiv (qF V0) (qtF V0) b h l n := by
  refine (rowNormalize_apply reducesTo_S4x16x64x4096_S4x16x64_d3 (by decide) h_S_ bcast_S4x16x64_S4x16x64x1_0_1_2
    bcast_S4x16x64x1_S4x16x64x4096_0_1_2_3 (res_main_v25 V0) b h l n).trans ?_
  unfold Cert.Nys.delD
  exact congrArg₂ Ideal.div (v25_apply V0 b h l n) (Finset.sum_congr rfl fun j _ => v25_apply V0 b h l j)

/-- The normalised del times Q. -/
def dvTerm (V0 : Valuation τ sig (Elt Ideal)) : FVec Ideal S4x16x64x64 .f32 :=
  Host.dotGeneral (φ₁ := .f32) (φ₂ := .f32) dot_S4x16x64x4096_S4x16x4096x64_S4x16x64x64_3_2_2_3_01_01 none (delDTerm V0)
    (res_main_v5 V0)

theorem dvTerm_apply (V0 : Valuation τ sig (Elt Ideal)) (b : Fin 4) (h : Fin 16) (l d : Fin 64) :
    dvTerm V0 (ix4 b h l d) = Cert.Nys.dv Cert.Nys.scDiv (qF V0) (qtF V0) b h l d := by
  refine (dotNN_apply dot_S4x16x64x4096_S4x16x4096x64_S4x16x64x64_3_2_2_3_01_01_wf none (delDTerm V0)
    (res_main_v5 V0 : FVec Ideal S4x16x4096x64 .f32) b h l d).trans ?_
  unfold Cert.Nys.dv
  exact Finset.sum_congr rfl fun n _ => congrArg₂ (· * ·) (delDTerm_apply V0 b h l n) (v5_apply V0 b h n d)

end Cert.RefValue

end
-- ==== Proof.NSRef.lean ====
/-
  The reference program's host values along the Newton–Schulz stretch, read as the iteration of NSDef:
  with K the normalised landmark kernel (the generated term res_main_v33), the generated named terms are
    v39 = eye, v50 = start K, v51 = K (start K), v71 = step K (start K), v72 = K (step …), …, v155 = five steps, v156 = K (five steps),
  and the value the final products read (main_v176) is six steps: ns K.
  Each lemma unfolds ONE generated definition and the iteration's definitions one level.
-/
import proofs.«162784_j87548613362291_2_alg».proof.Proof.NSDef
import proofs.«162784_j87548613362291_2_alg».proof.Proof.Gen.ReferenceIdeal.Run
import Idealize.ShloMosaic.PureOps.Ideal

noncomputable section

namespace Cert.NS

open Idealize.ShloMosaic Cert.ReferenceIdeal Cert.ReferenceIdeal.Gen Cert.ReferenceIdeal.Value

variable {F : FTy → Type} [FloatOps F] (V0 : Valuation Cert.ReferenceIdeal.τ Cert.ReferenceIdeal.sig (Elt F))

/-- The landmark kernel, as the reference program computes it. -/
abbrev refK : FVec F S4x16x64x64 .f32 := res_main_v33 V0

theorem ref_v39 : res_main_v39 V0 = eye (F := F) := rfl

theorem ref_v50 : res_main_v50 V0 = start (F := F) (res_main_v33 V0) := rfl

theorem ref_v51 : res_main_v51 V0 = kv (F := F) (res_main_v33 V0) (start (res_main_v33 V0)) := by
  unfold res_main_v51 kv; rw [ref_v50]

theorem ref_v71 : res_main_v71 V0 = step (F := F) (res_main_v33 V0) (start (res_main_v33 V0)) := by
  unfold res_main_v71 step; rw [ref_v51, ref_v50, ref_v39]

theorem ref_v72 : res_main_v72 V0 = kv (F := F) (res_main_v33 V0) (step (res_main_v33 V0) (start (res_main_v33 V0))) := by
  unfold res_main_v72 kv; rw [ref_v71]

theorem ref_v92 : res_main_v92 V0 = step (F := F) (res_main_v33 V0) (step (res_main_v33 V0) (start (res_main_v33 V0))) := by
  unfold res_main_v92; rw [ref_v72, ref_v71, ref_v39]; rfl

theorem ref_v93 : res_main_v93 V0 = kv (F := F) (res_main_v33 V0) (step (res_main_v33 V0) (step (res_main_v33 V0) (start (res_main_v33 V0)))) := by
  unfold res_main_v93 kv; rw [ref_v92]

theorem ref_v113 : res_main_v113 V0 = step (F := F) (res_main_v33 V0) (step (res_main_v33 V0) (step (res_main_v33 V0) (start (res_main_v33 V0)))) := by
  unfold res_main_v113; rw [ref_v93, ref_v92, ref_v39]; rfl

theorem ref_v114 : res_main_v114 V0 = kv (F := F) (res_main_v33 V0) (step (res_main_v33 V0) (step (res_main_v33 V0) (step (res_main_v33 V0) (start (res_main_v33 V0))))) := by
  unfold res_main_v114 kv; rw [ref_v113]

theorem ref_v134 : res_main_v134 V0 = step (F := F) (res_main_v33 V0) (step (res_main_v33 V0) (step (res_main_v33 V0) (step (res_main_v33 V0) (start (res_main_v33 V0))))) := by
  unfold res_main_v134; rw [ref_v114, ref_v113, ref_v39]; rfl

theorem ref_v135 : res_main_v135 V0 = kv (F := F) (res_main_v33 V0) (step (res_main_v33 V0) (step (res_main_v33 V0) (step (res_main_v33 V0) (step (res_main_v33 V0) (start (res_main_v33 V0)))))) := by
  unfold res_main_v135 kv; rw [ref_v134]

theorem ref_v155 : res_main_v155 V0 = step (F := F) (res_main_v33 V0) (step (res_main_v33 V0) (step (res_main_v33 V0) (step (res_main_v33 V0) (step (res_main_v33 V0) (start (res_main_v33 V0)))))) := by
  unfold res_main_v155; rw [ref_v135, ref_v134, ref_v39]; rfl

theorem ref_v156 : res_main_v156 V0 = kv (F := F) (res_main_v33 V0) (step (res_main_v33 V0) (step (res_main_v33 V0) (step (res_main_v33 V0) (step (res_main_v33 V0) (step (res_main_v33 V0) (start (res_main_v33 V0))))))) := by
  unfold res_main_v156 kv; rw [ref_v155]

/-- The value the reference program's final products read (main_v176) is six steps of the iteration from its start. -/
theorem ref_v176 : Host.dotGeneral dot_S4x16x64x64_S4x16x64x64_S4x16x64x64_3_2_2_3_01_01 none (mulf (broadcastInDim S4x16x64x64 ![] bcast_S_S4x16x64x64 (constant S_ .f32 0x3E800000#32)) (res_main_v155 V0)) (subf (broadcastInDim S4x16x64x64 ![0, 1, 2, 3] bcast_S1x1x64x64_S4x16x64x64_0_1_2_3 (broadcastInDim S1x1x64x64 ![2, 3] bcast_S64x64_S1x1x64x64_2_3 (mulf (broadcastInDim S64x64 ![] bcast_S_S64x64 (constant S_ .f32 0x41500000#32)) (res_main_v39 V0)))) (Host.dotGeneral dot_S4x16x64x64_S4x16x64x64_S4x16x64x64_3_2_2_3_01_01 none (res_main_v156 V0) (subf (broadcastInDim S4x16x64x64 ![0, 1, 2, 3] bcast_S1x1x64x64_S4x16x64x64_0_1_2_3 (broadcastInDim S1x1x64x64 ![2, 3] bcast_S64x64_S1x1x64x64_2_3 (mulf (broadcastInDim S64x64 ![] bcast_S_S64x64 (constant S_ .f32 0x41700000#32)) (res_main_v39 V0)))) (Host.dotGeneral dot_S4x16x64x64_S4x16x64x64_S4x16x64x64_3_2_2_3_01_01 none (res_main_v156 V0) (subf (broadcastInDim S4x16x64x64 ![0, 1, 2, 3] bcast_S1x1x64x64_S4x16x64x64_0_1_2_3 (broadcastInDim S1x1x64x64 ![2, 3] bcast_S64x64_S1x1x64x64_2_3 (mulf (broadcastInDim S64x64 ![] bcast_S_S64x64 (constant S_ .f32 0x40E00000#32)) (res_main_v39 V0)))) (res_main_v156 V0)))))) = ns (F := F) (res_main_v33 V0) := by
  rw [ref_v156, ref_v155, ref_v39]; rfl

end Cert.NS

end
-- ==== Proof.RefValue.lean ====
/-
  The reference program's result as a value.

  The last operation multiplies (normalised bet · G) by dv, batch by batch and head by head, where G is the iterated
  pseudo-inverse of the normalised landmark kernel gn; read at an index this is the left-to-right triple product
  outLeft of the specification, so the run's result array is refOut of the three argument arrays.
-/
import proofs.«162784_j87548613362291_2_alg».proof.Proof.Gen.ReferenceIdeal.Run
import proofs.«162784_j87548613362291_2_alg».proof.Proof.RefValueK
import proofs.«162784_j87548613362291_2_alg».proof.Proof.NSRef

noncomputable section

open scoped BigOperators

namespace Cert.RefValue

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo

/-- The two outer batched products over an arbitrary middle factor G, at (b, h, n, d): the left-to-right triple product. -/
theorem outTerm_apply (V0 : Valuation τ sig (Elt Ideal)) (G : FVec Ideal S4x16x64x64 .f32)
    (b : Fin 4) (h : Fin 16) (n : Fin 4096) (d : Fin 64) :
    Host.dotGeneral dot_S4x16x4096x64_S4x16x64x64_S4x16x4096x64_3_2_2_3_01_01 none
        (Host.dotGeneral dot_S4x16x4096x64_S4x16x64x64_S4x16x4096x64_3_2_2_3_01_01 none (betDTerm V0) G) (dvTerm V0) (ix4 b h n d)
      = Cert.Nys.outLeft Cert.Nys.scDiv (qF V0) (qtF V0) (Cert.Nys.fn4 G) b h n d := by
  refine (dotNN_apply dot_S4x16x4096x64_S4x16x64x64_S4x16x4096x64_3_2_2_3_01_01_wf none
    (Host.dotGeneral dot_S4x16x4096x64_S4x16x64x64_S4x16x4096x64_3_2_2_3_01_01 none (betDTerm V0) G) (dvTerm V0) b h n d).trans ?_
  unfold Cert.Nys.outLeft
  refine Finset.sum_congr rfl fun l' _ => congrArg₂ (· * ·) ?_ (dvTerm_apply V0 b h l' d)
  refine (dotNN_apply dot_S4x16x4096x64_S4x16x64x64_S4x16x4096x64_3_2_2_3_01_01_wf none (betDTerm V0) G b h n l').trans ?_
  exact Finset.sum_congr rfl fun l _ => congrArg₂ (· * ·) (betDTerm_apply V0 b h n l) rfl

/-- THE REFERENCE'S VALUE: after the run, the result buffer holds refOut of the three argument arrays, the pseudo-inverse
    iteration being the one function ns. -/
theorem out_eq (V0 : Valuation τ sig (Elt Ideal)) :
    val4 V0 (Proc.devRef .tc main_v183)
      = Cert.Nys.refOut (Cert.NS.ns (F := Ideal)) (V0 (Proc.devRef .tc main_arg0)) (V0 (Proc.devRef .tc main_arg1))
          (V0 (Proc.devRef .tc main_arg2)) := by
  rw [val4_main_v183, Cert.NS.ref_v176]
  funext i
  obtain ⟨b, h, n, d, rfl⟩ : ∃ (b : Fin 4) (h : Fin 16) (n : Fin 4096) (d : Fin 64), i = ix4 b h n d :=
    ⟨i 0, i 1, i 2, i 3, eq_ix4 i⟩
  refine (outTerm_apply V0 (Cert.NS.ns (F := Ideal) (res_main_v33 V0)) b h n d).trans ?_
  rw [v33_eq V0]
  rfl

end Cert.RefValue

end
-- ==== Proof.lean ====
/- The proof of `Cert.Claim` (proofs.«162784_j87548613362291_2_alg».proof.Defs) — frame_Kernel ∧ frame_KernelIdeal ∧ frame_ReferenceIdeal ∧ preserves_Kernel_KernelIdeal ∧ algebraic_KernelIdeal_ReferenceIdeal.

   The layer is landmark (Nystrom) attention: from X, W, B the per-head projection q, the landmark means qt of q over
   runs of 64 consecutive positions, three exponential kernels gam, bet, del normalised by their row sums, the
   iterated pseudo-inverse G of the normalised landmark kernel, and the output  betD . G . dv .
   Both programs compute this on the extended reals; they differ in three places:
     (i)   the landmark means: a product with the averaging matrix (entries 1/64 on a run, 0 off it) against a run's
           sum divided by 64;
     (ii)  the scaling of the logits: the product with 1/8 against the quotient by 8;
     (iii) the order of the triple product: betD . (G . dv) against (betD . G) . dv.
   The kernel's result is kernelOut of its three argument arrays, the reference's is refOut of its own (the two
   value theorems), the pseudo-inverse iteration being ONE function ns of the normalised kernel on both sides.
   Under the precondition every argument entry is a real number.  Then q and the means are real, so (i) holds by
   regrouping the sum over 4096 positions into 64 runs of 64; (ii) holds for every extended real, 8 being a non-zero
   real; after (i) and (ii) the same array goes into ns on both sides.  Every exponential of a real is a positive
   real, so the normalised kernels are positive reals, ns of a positive real array is a real array, and (iii) is
   associativity of a product of three real matrices.  (On the extended reals associativity fails at infinities,
   which is why each factor is first shown real.) -/
import proofs.«162784_j87548613362291_2_alg».proof.Defs
import proofs.«162784_j87548613362291_2_alg».proof.Proof.Gen.Kernel
import proofs.«162784_j87548613362291_2_alg».proof.Proof.Gen.Kernel.Skeleton
import proofs.«162784_j87548613362291_2_alg».proof.Proof.Gen.Kernel.Launch
import proofs.«162784_j87548613362291_2_alg».proof.Proof.Gen.Kernel.Points
import proofs.«162784_j87548613362291_2_alg».proof.Proof.Gen.Kernel.Frame
import proofs.«162784_j87548613362291_2_alg».proof.Proof.Gen.KernelIdeal
import proofs.«162784_j87548613362291_2_alg».proof.Proof.Gen.KernelIdeal.Skeleton
import proofs.«162784_j87548613362291_2_alg».proof.Proof.Gen.KernelIdeal.Launch
import proofs.«162784_j87548613362291_2_alg».proof.Proof.Gen.KernelIdeal.Points
import proofs.«162784_j87548613362291_2_alg».proof.Proof.Gen.KernelIdeal.Frame
import proofs.«162784_j87548613362291_2_alg».proof.Proof.Gen.ReferenceIdeal
import proofs.«162784_j87548613362291_2_alg».proof.Proof.Gen.ReferenceIdeal.Run
import proofs.«162784_j87548613362291_2_alg».proof.Proof.Gen.Pre_finite_inputs
import Idealize.ShloMosaic.Adequacy
import Idealize.ShloMosaic.Init
import proofs.«162784_j87548613362291_2_alg».proof.Proof.Spec
import proofs.«162784_j87548613362291_2_alg».proof.Proof.NSDef
import proofs.«162784_j87548613362291_2_alg».proof.Proof.NSReal
import proofs.«162784_j87548613362291_2_alg».proof.Proof.PreReal
import proofs.«162784_j87548613362291_2_alg».proof.Proof.Bridge
import proofs.«162784_j87548613362291_2_alg».proof.Proof.KValue
import proofs.«162784_j87548613362291_2_alg».proof.Proof.RefValue

noncomputable section

namespace Cert.Proof

open Idealize.ShloMosaic Idealize.ShloMosaic.StableHlo Idealize.SL.Sem Cert.Kernel

/-- The kernel as printed runs and leaves its arguments unchanged. -/
theorem frame_k : Cert.frame_Kernel := fun m ρ _ => Cert.Kernel.Gen.frame m ρ

/-- The kernel at the ideal values runs and leaves its arguments unchanged. -/
theorem frame_ki : Cert.frame_KernelIdeal := fun m ρ _ => Cert.KernelIdeal.Gen.frame m ρ

/-- The reference at the ideal values runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- At the ideal values, from memories that agree on the arguments, the kernel ends at kernelOut of its arguments and
    the reference at refOut of its own; the arguments are real arrays by the precondition, and on real arrays
    kernelOut = refOut: the averaging-matrix product is the run's mean, the factor 1/8 is the quotient by 8, and the
    triple product of real matrices is associative. -/
theorem algebraic : Cert.algebraic_KernelIdeal_ReferenceIdeal := by
  intro m ρ m' ρ' hpre hagree
  refine ⟨fun c => Cert.Nys.kernelOut (Cert.NS.ns (F := Ideal))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.kernel_value m ρ, ?_⟩
  refine (θ_run Cert.ReferenceIdeal.defs _ _).mono (fun _ h c => ⟨(h c).1.trans ?_, (h c).2⟩)
    (Cert.ReferenceIdeal.Value.run (F := Ideal) m' ρ')
  -- the run's result term is the reference's value, which is refOut of the reference's arguments
  refine (Cert.ReferenceIdeal.Value.val4_main_v183 (launchContents m' c)).symm.trans ?_
  refine (Cert.RefValue.out_eq (launchContents m' c)).trans ?_
  -- the reference's arguments are the kernel's
  have e0 : launchContents m' c (Proc.devRef .tc Cert.ReferenceIdeal.main_arg0)
      = m ((c.tc : Thread Cert.KernelIdeal.nD Cert.KernelIdeal.τ).loc Cert.KernelIdeal.main_arg0) := (hagree c).1
  have e1 : launchContents m' c (Proc.devRef .tc Cert.ReferenceIdeal.main_arg1)
      = m ((c.tc : Thread Cert.KernelIdeal.nD Cert.KernelIdeal.τ).loc Cert.KernelIdeal.main_arg1) := (hagree c).2.1
  have e2 : launchContents m' c (Proc.devRef .tc Cert.ReferenceIdeal.main_arg2)
      = m ((c.tc : Thread Cert.KernelIdeal.nD Cert.KernelIdeal.τ).loc Cert.KernelIdeal.main_arg2) := (hagree c).2.2
  rw [e0, e1, e2]
  -- on real arguments the two forms of the layer agree
  obtain ⟨hX, hW, hB⟩ := Cert.PreReal.real_of_pre m hpre c
  exact (Cert.Bridge.out_eq (Cert.NS.ns (F := Ideal)) Cert.NS.ns_real _ _ _ hX hW hB).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
